-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v157) = v2 c
          ∧ r.2.mem ((c.tc : Thread Cert.ReferenceIdeal.nD Cert.ReferenceIdeal.τ).loc Cert.ReferenceIdeal.main_v346) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x256 : Shape := ⟨3, ![32, 512, 256]⟩
abbrev S2x32x512x512 : Shape := ⟨4, ![2, 32, 512, 512]⟩
abbrev S32x512x512 : Shape := ⟨3, ![32, 512, 512]⟩
abbrev S32 : Shape := ⟨1, ![32]⟩
abbrev S2x256x256 : Shape := ⟨3, ![2, 256, 256]⟩
abbrev S2x256 : Shape := ⟨2, ![2, 256]⟩
abbrev S9x256x256 : Shape := ⟨3, ![9, 256, 256]⟩
abbrev S9x256 : Shape := ⟨2, ![9, 256]⟩
abbrev S_ : Shape := ⟨0, ![]⟩

class Facts : Prop where
  bcast_S_S32x512x256 : S_.BroadcastsInDim S32x512x256 (![] : Fin 0 → Fin S32x512x256.rank)
  reducesTo_S32x512x256_S_d0_1_2 : S32x512x256.ReducesTo [0, 1, 2] S_
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S9x256x256 : S_.BroadcastsInDim S9x256x256 (![] : Fin 0 → Fin S9x256x256.rank)
  reducesTo_S9x256x256_S_d0_1_2 : S9x256x256.ReducesTo [0, 1, 2] S_
  bcast_S_S9x256 : S_.BroadcastsInDim S9x256 (![] : Fin 0 → Fin S9x256.rank)
  reducesTo_S9x256_S_d0_1 : S9x256.ReducesTo [0, 1] S_

variable [Facts]

def fn_part2 {F : FTy → Type} [FloatOps F] (main_arg11 : FVec F S2x256 .f32) (main_arg12 : FVec F S9x256x256 .f32) (main_arg13 : FVec F S9x256 .f32) (main_v33 : IVec S_ 1) : IVec S_ 1 :=
  let main_v34 : FVec F S2x256 .f32 := Host.absf main_arg11
  let main_cst_12 : FVec F S_ .f32 := constant S_ .f32 0x7F800000#32
  let main_v35 : FVec F S2x256 .f32 := broadcastInDim S2x256 ![] bcast_S_S2x256 main_cst_12
  let main_v36 : IVec S2x256 1 := cmpf .olt main_v34 main_v35
  let main_c_13 : IVec S_ 1 := constantI S_ 1 1#1
  let main_v37 : IVec S_ 1 := (fun x v => Host.reduce IntOp.andi x v reducesTo_S2x256_S_d0_1 h_S_) main_v36 main_c_13
  let main_v38 : IVec S_ 1 := andi main_v33 main_v37
  let main_v39 : FVec F S9x256x256 .f32 := Host.absf main_arg12
  let main_cst_14 : FVec F S_ .f32 := constant S_ .f32 0x7F800000#32
  let main_v40 : FVec F S9x256x256 .f32 := broadcastInDim S9x256x256 ![] bcast_S_S9x256x256 main_cst_14
  let main_v41 : IVec S9x256x256 1 := cmpf .olt main_v39 main_v40
  let main_c_15 : IVec S_ 1 := constantI S_ 1 1#1
  let main_v42 : IVec S_ 1 := (fun x v => Host.reduce IntOp.andi x v reducesTo_S9x256x256_S_d0_1_2 h_S_) main_v41 main_c_15
  let main_v43 : IVec S_ 1 := andi main_v38 main_v42
  let main_v44 : FVec F S9x256 .f32 := Host.absf main_arg13
  let main_cst_16 : FVec F S_ .f32 := constant S_ .f32 0x7F800000#32
  let main_v45 : FVec F S9x256 .f32 := broadcastInDim S9x256 ![] bcast_S_S9x256 main_cst_16
  let main_v46 : IVec S9x256 1 := cmpf .olt main_v44 main_v45
  let main_c_17 : IVec S_ 1 := constantI S_ 1 1#1
  let main_v47 : IVec S_ 1 := (fun x v => Host.reduce IntOp.andi x v reducesTo_S9x256_S_d0_1 h_S_) main_v46 main_c_17
  let main_v48 : IVec S_ 1 := andi main_v43 main_v47
  main_v48

def fn_part1 {F : FTy → Type} [FloatOps F] (main_arg8 : FVec F S2x256x256 .f32) (main_arg9 : FVec F S2x256 .f32) (main_arg10 : FVec F S2x256x256 .f32) (main_arg11 : FVec F S2x256 .f32) (main_arg12 : FVec F S9x256x256 .f32) (main_arg13 : FVec F S9x256 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S2x256x256 .f32 := Host.absf main_arg8
  let main_cst_6 : FVec F S_ .f32 := constant S_ .f32 0x7F800000#32
  let main_v20 : FVec F S2x256x256 .f32 := broadcastInDim S2x256x256 ![] bcast_S_S2x256x256 main_cst_6
  let main_v21 : IVec S2x256x256 1 := cmpf .olt main_v19 main_v20
  let main_c_7 : IVec S_ 1 := constantI S_ 1 1#1
  let main_v22 : IVec S_ 1 := (fun x v => Host.reduce IntOp.andi x v reducesTo_S2x256x256_S_d0_1_2 h_S_) main_v21 main_c_7
  let main_v23 : IVec S_ 1 := andi main_v18 main_v22
  let main_v24 : FVec F S2x256 .f32 := Host.absf main_arg9
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  let main_v29 : FVec F S2x256x256 .f32 := Host.absf main_arg10
  let main_cst_10 : FVec F S_ .f32 := constant S_ .f32 0x7F800000#32
  let main_v30 : FVec F S2x256x256 .f32 := broadcastInDim S2x256x256 ![] bcast_S_S2x256x256 main_cst_10
  let main_v31 : IVec S2x256x256 1 := cmpf .olt main_v29 main_v30
  let main_c_11 : IVec S_ 1 := constantI S_ 1 1#1
  let main_v32 : IVec S_ 1 := (fun x v => Host.reduce IntOp.andi x v reducesTo_S2x256x256_S_d0_1_2 h_S_) main_v31 main_c_11
  let main_v33 : IVec S_ 1 := andi main_v28 main_v32
  fn_part2 (F := F) main_arg11 main_arg12 main_arg13 main_v33

def fn {F : FTy → Type} [FloatOps F] (main_arg0 : FVec F S32x512x256 .f32) (main_arg1 : IVec S2x32x512x512 32) (main_arg2 : IVec S32x512x512 32) (main_arg3 : FVec F S32x512x512 .f32) (main_arg4 : IVec S32x512x512 32) (main_arg5 : IVec S32 32) (main_arg6 : FVec F S2x256x256 .f32) (main_arg7 : FVec F S2x256 .f32) (main_arg8 : FVec F S2x256x256 .f32) (main_arg9 : FVec F S2x256 .f32) (main_arg10 : FVec F S2x256x256 .f32) (main_arg11 : FVec F S2x256 .f32) (main_arg12 : FVec F S9x256x256 .f32) (main_arg13 : FVec F S9x256 .f32) : IVec S_ 1 :=
  let main_v0 : FVec F S32x512x256 .f32 := Host.absf main_arg0
  let main_cst : FVec F S_ .f32 := constant S_ .f32 0x7F800000#32
  let main_v1 : FVec F S32x512x256 .f32 := broadcastInDim S32x512x256 ![] bcast_S_S32x512x256 main_cst
  let main_v2 : IVec S32x512x256 1 := cmpf .olt main_v0 main_v1
  let main_c : IVec S_ 1 := constantI S_ 1 1#1
  let main_v3 : IVec S_ 1 := (fun x v => Host.reduce IntOp.andi x v reducesTo_S32x512x256_S_d0_1_2 h_S_) main_v2 main_c
  let main_v4 : FVec F S32x512x512 .f32 := Host.absf main_arg3
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  let main_v9 : FVec F S2x256x256 .f32 := Host.absf main_arg6
  let main_cst_2 : FVec F S_ .f32 := constant S_ .f32 0x7F800000#32
  let main_v10 : FVec F S2x256x256 .f32 := broadcastInDim S2x256x256 ![] bcast_S_S2x256x256 main_cst_2
  let main_v11 : IVec S2x256x256 1 := cmpf .olt main_v9 main_v10
  let main_c_3 : IVec S_ 1 := constantI S_ 1 1#1
  let main_v12 : IVec S_ 1 := (fun x v => Host.reduce IntOp.andi x v reducesTo_S2x256x256_S_d0_1_2 h_S_) main_v11 main_c_3
  let main_v13 : IVec S_ 1 := andi main_v8 main_v12
  let main_v14 : FVec F S2x256 .f32 := Host.absf main_arg7
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg8 main_arg9 main_arg10 main_arg11 main_arg12 main_arg13 main_v13 main_v16
-- ==== Kernel.lean ====
abbrev S32x512x256 : Shape := ⟨3, ![32, 512, 256]⟩
abbrev S2x32x512x512 : Shape := ⟨4, ![2, 32, 512, 512]⟩
abbrev S32x512x512 : Shape := ⟨3, ![32, 512, 512]⟩
abbrev S32 : Shape := ⟨1, ![32]⟩
abbrev S2x256x256 : Shape := ⟨3, ![2, 256, 256]⟩
abbrev S2x256 : Shape := ⟨2, ![2, 256]⟩
abbrev S9x256x256 : Shape := ⟨3, ![9, 256, 256]⟩
abbrev S9x256 : Shape := ⟨2, ![9, 256]⟩
abbrev S1x512x256 : Shape := ⟨3, ![1, 512, 256]⟩
abbrev S2x1x512x512 : Shape := ⟨4, ![2, 1, 512, 512]⟩
abbrev S1x512x512 : Shape := ⟨3, ![1, 512, 512]⟩
abbrev S512x256 : Shape := ⟨2, ![512, 256]⟩
abbrev S1x1x512x512 : Shape := ⟨4, ![1, 1, 512, 512]⟩
abbrev S512x512 : Shape := ⟨2, ![512, 512]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 18
  | .vmem => 26
  | .smem => 0
  | _ => 0

abbrev bufTy : (tb : Table) → Fin (tcTables nBuf tb) → BufTy
  | .hbm, ⟨0, _⟩ => ⟨S32x512x256, .f32⟩
  | .hbm, ⟨1, _⟩ => ⟨S2x32x512x512, .i32⟩
  | .hbm, ⟨2, _⟩ => ⟨S32x512x512, .i32⟩
  | .hbm, ⟨3, _⟩ => ⟨S32x512x512, .f32⟩
  | .hbm, ⟨4, _⟩ => ⟨S32x512x512, .i32⟩
  | .hbm, ⟨5, _⟩ => ⟨S32, .i32⟩
  | .hbm, ⟨6, _⟩ => ⟨S2x256x256, .f32⟩
  | .hbm, ⟨7, _⟩ => ⟨S2x256, .f32⟩
  | .hbm, ⟨8, _⟩ => ⟨S2x256x256, .f32⟩
  | .hbm, ⟨9, _⟩ => ⟨S2x256, .f32⟩
  | .hbm, ⟨10, _⟩ => ⟨S2x256x256, .f32⟩
  | .hbm, ⟨11, _⟩ => ⟨S2x256, .f32⟩
  | .hbm, ⟨12, _⟩ => ⟨S9x256x256, .f32⟩
  | .hbm, ⟨13, _⟩ => ⟨S9x256, .f32⟩
  | .hbm, ⟨14, _⟩ => ⟨S32x512x256, .f32⟩
  | .hbm, ⟨15, _⟩ => ⟨S32x512x256, .f32⟩
  | .hbm, ⟨16, _⟩ => ⟨S32x512x256, .f32⟩
  | .hbm, ⟨17, _⟩ => ⟨S32x512x256, .f32⟩
  | .local _ .vmem, ⟨0, _⟩ => ⟨S1x512x256, .f32⟩
  | .local _ .vmem, ⟨1, _⟩ => ⟨S1x512x256, .f32⟩
  | .local _ .vmem, ⟨2, _⟩ => ⟨S2x1x512x512, .i32⟩
  | .local _ .vmem, ⟨3, _⟩ => ⟨S2x1x512x512, .i32⟩
  | .local _ .vmem, ⟨4, _⟩ => ⟨S1x512x512, .i32⟩
  | .local _ .vmem, ⟨5, _⟩ => ⟨S1x512x512, .i32⟩
  | .local _ .vmem, ⟨6, _⟩ => ⟨S1x512x512, .f32⟩
  | .local _ .vmem, ⟨7, _⟩ => ⟨S1x512x512, .f32⟩
  | .local _ .vmem, ⟨8, _⟩ => ⟨S1x512x512, .i32⟩
  | .local _ .vmem, ⟨9, _⟩ => ⟨S1x512x512, .i32⟩
  | .local _ .vmem, ⟨10, _⟩ => ⟨S2x256x256, .f32⟩
  | .local _ .vmem, ⟨11, _⟩ => ⟨S2x256, .f32⟩
  | .local _ .vmem, ⟨12, _⟩ => ⟨S2x256x256, .f32⟩
  | .local _ .vmem, ⟨13, _⟩ => ⟨S2x256, .f32⟩
  | .local _ .vmem, ⟨14, _⟩ => ⟨S2x256x256, .f32⟩
  | .local _ .vmem, ⟨15, _⟩ => ⟨S2x256, .f32⟩
  | .local _ .vmem, ⟨16, _⟩ => ⟨S9x256x256, .f32⟩
  | .local _ .vmem, ⟨17, _⟩ => ⟨S9x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | _, _ => ⟨S32x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_39 : BitVec 32 := 0#32
  let c2_i32 : BitVec 32 := 2#32
  let v84 : BitVec 32 := Scalar.addi c0_i32_39 c2_i32
  let c1_i32 : BitVec 32 := 1#32
  ⟨c0_i32_39, v84, c1_i32⟩
def k0_off1 (k0_t1 : Fin k0_t1_loop.trips) : Fin 3 → Nat :=
  let c0_i32_39 : BitVec 32 := 0#32
  let c1_i32 : BitVec 32 := 1#32
  let arg18 : BitVec 32 := Scf.iv c0_i32_39 c1_i32 k0_t1
  let v112 : Index := Scalar.indexCast arg18
  let c0_67 : Index := 0#32
  let c0_68 : Index := 0#32
  ![v112.toNat, 0, 0]
def k0_off2 (k0_t1 : Fin k0_t1_loop.trips) : Fin 2 → Nat :=
  let c0_i32_39 : BitVec 32 := 0#32
  let c1_i32 : BitVec 32 := 1#32
  let arg18 : BitVec 32 := Scf.iv c0_i32_39 c1_i32 k0_t1
  let v115 : Index := Scalar.indexCast arg18
  let c0_69 : Index := 0#32
  ![v115.toNat, 0]
@[reducible] def k0_t2_loop : Scf.Loop 32 :=
  let c0_i32_49 : BitVec 32 := 0#32
  let c2_i32_50 : BitVec 32 := 2#32
  let v95 : BitVec 32 := Scalar.addi c0_i32_49 c2_i32_50
  let c1_i32_51 : BitVec 32 := 1#32
  ⟨c0_i32_49, v95, c1_i32_51⟩
def k0_off3 (k0_t2 : Fin k0_t2_loop.trips) : Fin 3 → Nat :=
  let c0_i32_49 : BitVec 32 := 0#32
  let c1_i32_51 : BitVec 32 := 1#32
  let arg18 : BitVec 32 := Scf.iv c0_i32_49 c1_i32_51 k0_t2
  let v112 : Index := Scalar.indexCast arg18
  let c0_67 : Index := 0#32
  let c0_68 : Index := 0#32
  ![v112.toNat, 0, 0]
def k0_off4 (k0_t2 : Fin k0_t2_loop.trips) : Fin 2 → Nat :=
  let c0_i32_49 : BitVec 32 := 0#32
  let c1_i32_51 : BitVec 32 := 1#32
  let arg18 : BitVec 32 := Scf.iv c0_i32_49 c1_i32_51 k0_t2
  let v115 : Index := Scalar.indexCast arg18
  let c0_69 : Index := 0#32
  ![v115.toNat, 0]
@[reducible] def k0_t3_loop : Scf.Loop 32 :=
  let c0_i32_61 : BitVec 32 := 0#32
  let c9_i32 : BitVec 32 := 9#32
  let v107 : BitVec 32 := Scalar.addi c0_i32_61 c9_i32
  let c1_i32_62 : BitVec 32 := 1#32
  ⟨c0_i32_61, v107, c1_i32_62⟩
def k0_off5 (k0_t3 : Fin k0_t3_loop.trips) : Fin 3 → Nat :=
  let c0_i32_61 : BitVec 32 := 0#32
  let c1_i32_62 : BitVec 32 := 1#32
  let arg18 : BitVec 32 := Scf.iv c0_i32_61 c1_i32_62 k0_t3
  let v112 : Index := Scalar.indexCast arg18
  let c0_67 : Index := 0#32
  let c0_68 : Index := 0#32
  ![v112.toNat, 0, 0]
def k0_off6 (k0_t3 : Fin k0_t3_loop.trips) : Fin 2 → Nat :=
  let c0_i32_61 : BitVec 32 := 0#32
  let c1_i32_62 : BitVec 32 := 1#32
  let arg18 : BitVec 32 := Scf.iv c0_i32_61 c1_i32_62 k0_t3
  let v115 : Index := Scalar.indexCast arg18
  let c0_69 : Index := 0#32
  ![v115.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S9x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S9x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S2x1x512x512_S1x1x512x512_0_0_0_0 : ∀ a, (![0, 0, 0, 0] : Fin 4 → Nat) a + S1x1x512x512.size a ≤ S2x1x512x512.size a
  h_S1x1x512x512 : 0 < S1x1x512x512.numel
  shapeCasts_S1x1x512x512_S512x512 : S1x1x512x512.ShapeCasts S512x512
  natLt_1_32 : 1 < 32
  reduces_S512x512_S512 : S512x512.Reduces [1] S512
  shapeCasts_S512_S512x1 : S512.ShapeCasts S512x1
  inb_S2x256x256_S1x256x256_0_0_0 : ∀ a, (![0, 0, 0] : Fin 3 → Nat) a + S1x256x256.size a ≤ S2x256x256.size a
  h_S1x256x256 : 0 < S1x256x256.numel
  shapeCasts_S1x256x256_S256x256 : S1x256x256.ShapeCasts S256x256
  inb_S2x256_S1x256_0_0 : ∀ a, (![0, 0] : Fin 2 → Nat) a + S1x256.size a ≤ S2x256.size a
  h_S1x256 : 0 < S1x256.numel
  shapeCasts_S1x256_S256 : S1x256.ShapeCasts S256
  bitsLt_bf16_f32 : FTy.bits .bf16 < FTy.bits .f32
  transposes_S256x256_p1_0_S256x256 : S256x256.Transposes [1, 0] S256x256
  shapeCasts_S256_S1x256 : S256.ShapeCasts S1x256
  broadcasts_S1x256_S512x256 : S1x256.Broadcasts S512x256
  broadcasts_S512x1_S512x256 : S512x1.Broadcasts S512x256
  inb_S2x1x512x512_S1x1x512x512_1_0_0_0 : ∀ a, (![1, 0, 0, 0] : Fin 4 → Nat) a + S1x1x512x512.size a ≤ S2x1x512x512.size a
  inb_S2x256x256_S1x256x256_1_0_0 : ∀ a, (![1, 0, 0] : Fin 3 → Nat) a + S1x256x256.size a ≤ S2x256x256.size a
  inb_S2x256_S1x256_1_0 : ∀ a, (![1, 0] : Fin 2 → Nat) a + S1x256.size a ≤ S2x256.size a
  shapeCasts_S512x256_S1x512x256 : S512x256.ShapeCasts S1x512x256
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  hrank0 : 0 < grid0.rank
  k0_t1_ok : k0_t1_loop.OK
  k0_off1_inb : ∀ k0_t1 : Fin k0_t1_loop.trips, ∀ a, (k0_off1 k0_t1) a + S1x256x256.size a ≤ S2x256x256.size a
  k0_off2_inb : ∀ k0_t1 : Fin k0_t1_loop.trips, ∀ a, (k0_off2 k0_t1) a + S1x256.size a ≤ S2x256.size a
  k0_t2_ok : k0_t2_loop.OK
  k0_off3_inb : ∀ k0_t2 : Fin k0_t2_loop.trips, ∀ a, (k0_off3 k0_t2) a + S1x256x256.size a ≤ S2x256x256.size a
  k0_off4_inb : ∀ k0_t2 : Fin k0_t2_loop.trips, ∀ a, (k0_off4 k0_t2) a + S1x256.size a ≤ S2x256.size a
  k0_t3_ok : k0_t3_loop.OK
  k0_off5_inb : ∀ k0_t3 : Fin k0_t3_loop.trips, ∀ a, (k0_off5 k0_t3) a + S1x256x256.size a ≤ S9x256x256.size a
  k0_off6_inb : ∀ k0_t3 : Fin k0_t3_loop.trips, ∀ a, (k0_off6 k0_t3) a + S1x256.size a ≤ S9x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S32x512x256.size a
  hwx0_0 : ∀ i : grid0.Coords, EltTy.bits .f32 = 32 ∨ (Rect.block (s := S32x512x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512x512.size a ≤ S2x32x512x512.size a
  hwx0_1 : ∀ i : grid0.Coords, EltTy.bits .i32 = 32 ∨ (Rect.block (s := S2x32x512x512) S2x1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S32x512x512.size a
  hwx0_2 : ∀ i : grid0.Coords, EltTy.bits .i32 = 32 ∨ (Rect.block (s := S32x512x512) S1x512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S32x512x512.size a
  hwx0_3 : ∀ i : grid0.Coords, EltTy.bits .f32 = 32 ∨ (Rect.block (s := S32x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S32x512x512.size a
  hwx0_4 : ∀ i : grid0.Coords, EltTy.bits .i32 = 32 ∨ (Rect.block (s := S32x512x512) S1x512x512.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x256x256.size a ≤ S2x256x256.size a
  hwx0_5 : ∀ i : grid0.Coords, EltTy.bits .f32 = 32 ∨ (Rect.block (s := S2x256x256) S2x256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x256.size a ≤ S2x256.size a
  hwx0_6 : ∀ i : grid0.Coords, EltTy.bits .f32 = 32 ∨ (Rect.block (s := S2x256) S2x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x256x256.size a ≤ S2x256x256.size a
  hwx0_7 : ∀ i : grid0.Coords, EltTy.bits .f32 = 32 ∨ (Rect.block (s := S2x256x256) S2x256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x256.size a ≤ S2x256.size a
  hwx0_8 : ∀ i : grid0.Coords, EltTy.bits .f32 = 32 ∨ (Rect.block (s := S2x256) S2x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x256x256.size a ≤ S2x256x256.size a
  hwx0_9 : ∀ i : grid0.Coords, EltTy.bits .f32 = 32 ∨ (Rect.block (s := S2x256x256) S2x256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x256.size a ≤ S2x256.size a
  hwx0_10 : ∀ i : grid0.Coords, EltTy.bits .f32 = 32 ∨ (Rect.block (s := S2x256) S2x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S9x256x256.size a ≤ S9x256x256.size a
  hwx0_11 : ∀ i : grid0.Coords, EltTy.bits .f32 = 32 ∨ (Rect.block (s := S9x256x256) S9x256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S9x256.size a ≤ S9x256.size a
  hwx0_12 : ∀ i : grid0.Coords, EltTy.bits .f32 = 32 ∨ (Rect.block (s := S9x256) S9x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512x256.size a ≤ S32x512x256.size a
  hwx0_13 : ∀ i : grid0.Coords, EltTy.bits .f32 = 32 ∨ (Rect.block (s := S32x512x256) S1x512x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x512x256.size a ≤ S32x512x256.size a
  hwx0_14 : ∀ i : grid0.Coords, EltTy.bits .f32 = 32 ∨ (Rect.block (s := S32x512x256) S1x512x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x512x256.size a ≤ S32x512x256.size a
  hwx0_15 : ∀ i : grid0.Coords, EltTy.bits .f32 = 32 ∨ (Rect.block (s := S32x512x256) S1x512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x512x256.size a ≤ S32x512x256.size a
  hwx0_16 : ∀ i : grid0.Coords, EltTy.bits .f32 = 32 ∨ (Rect.block (s := S32x512x256) S1x512x256.size (cc0_transform_16 i) (hinb0_16 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S2x256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S2x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S2x256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S2x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S2x256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S2x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S9x256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S9x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_0) S1x512x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_1) S1x512x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_2) S1x512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_3) S1x512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S32x512x256 : Shape := ⟨3, ![32, 512, 256]⟩
abbrev S2x32x512x512 : Shape := ⟨4, ![2, 32, 512, 512]⟩
abbrev S32x512x512 : Shape := ⟨3, ![32, 512, 512]⟩
abbrev S32 : Shape := ⟨1, ![32]⟩
abbrev S2x256x256 : Shape := ⟨3, ![2, 256, 256]⟩
abbrev S2x256 : Shape := ⟨2, ![2, 256]⟩
abbrev S9x256x256 : Shape := ⟨3, ![9, 256, 256]⟩
abbrev S9x256 : Shape := ⟨2, ![9, 256]⟩
abbrev S_ : Shape := ⟨0, ![]⟩
abbrev S32x512 : Shape := ⟨2, ![32, 512]⟩
abbrev S32x512x1 : Shape := ⟨3, ![32, 512, 1]⟩
abbrev S1x32x512x512 : Shape := ⟨4, ![1, 32, 512, 512]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 403
  | .vmem => 0
  | .smem => 0
  | _ => 0

abbrev hbmTy0_0 (i : Nat) : BufTy := match i % 128 with
  | 0 => ⟨S32x512x256, .f32⟩
  | 1 => ⟨S2x32x512x512, .i32⟩
  | 2 => ⟨S32x512x512, .i32⟩
  | 3 => ⟨S32x512x512, .f32⟩
  | 4 => ⟨S32x512x512, .i32⟩
  | 5 => ⟨S32, .i32⟩
  | 6 => ⟨S2x256x256, .f32⟩
  | 7 => ⟨S2x256, .f32⟩
  | 8 => ⟨S2x256x256, .f32⟩
  | 9 => ⟨S2x256, .f32⟩
  | 10 => ⟨S2x256x256, .f32⟩
  | 11 => ⟨S2x256, .f32⟩
  | 12 => ⟨S9x256x256, .f32⟩
  | 13 => ⟨S9x256, .f32⟩
  | 14 => ⟨S32x512x512, .f32⟩
  | 15 => ⟨S32x512x512, .f32⟩
  | 16 => ⟨S_, .f32⟩
  | 17 => ⟨S32x512, .f32⟩
  | 18 => ⟨S32x512x1, .f32⟩
  | 19 => ⟨S_, .f32⟩
  | 20 => ⟨S32x512x1, .f32⟩
  | 21 => ⟨S32x512x1, .f32⟩
  | 22 => ⟨S_, .f32⟩
  | 23 => ⟨S32x512, .f32⟩
  | 24 => ⟨S32x512x1, .f32⟩
  | 25 => ⟨S_, .f32⟩
  | 26 => ⟨S32x512x1, .f32⟩
  | 27 => ⟨S32x512x1, .f32⟩
  | 28 => ⟨S_, .f32⟩
  | 29 => ⟨S32x512, .f32⟩
  | 30 => ⟨S32x512x1, .f32⟩
  | 31 => ⟨S_, .f32⟩
  | 32 => ⟨S32x512x1, .f32⟩
  | 33 => ⟨S32x512x1, .f32⟩
  | 34 => ⟨S1x32x512x512, .i32⟩
  | 35 => ⟨S32x512x512, .i32⟩
  | 36 => ⟨S_, .i32⟩
  | 37 => ⟨S32x512x512, .i32⟩
  | 38 => ⟨S32x512x512, .i1⟩
  | 39 => ⟨S32x512x512, .f32⟩
  | 40 => ⟨S_, .f32⟩
  | 41 => ⟨S32x512, .f32⟩
  | 42 => ⟨S32x512x1, .f32⟩
  | 43 => ⟨S_, .f32⟩
  | 44 => ⟨S32x512x1, .f32⟩
  | 45 => ⟨S32x512x1, .f32⟩
  | 46 => ⟨S32x512x256, .f32⟩
  | 47 => ⟨S1x256x256, .f32⟩
  | 48 => ⟨S256x256, .f32⟩
  | 49 => ⟨S1x256, .f32⟩
  | 50 => ⟨S256, .f32⟩
  | 51 => ⟨S32x512x256, .f32⟩
  | 52 => ⟨S1x1x256, .f32⟩
  | 53 => ⟨S32x512x256, .f32⟩
  | 54 => ⟨S32x512x256, .f32⟩
  | 55 => ⟨S1x256x256, .f32⟩
  | 56 => ⟨S256x256, .f32⟩
  | 57 => ⟨S1x256, .f32⟩
  | 58 => ⟨S256, .f32⟩
  | 59 => ⟨S32x512x256, .f32⟩
  | 60 => ⟨S1x1x256, .f32⟩
  | 61 => ⟨S32x512x256, .f32⟩
  | 62 => ⟨S32x512x256, .f32⟩
  | 63 => ⟨S32x512x256, .f32⟩
  | 64 => ⟨S32x512x256, .f32⟩
  | 65 => ⟨S32x512x256, .f32⟩
  | 66 => ⟨S_, .f32⟩
  | 67 => ⟨S32x512x256, .f32⟩
  | 68 => ⟨S32x512x256, .f32⟩
  | 69 => ⟨S1x32x512x512, .i32⟩
  | 70 => ⟨S32x512x512, .i32⟩
  | 71 => ⟨S_, .i32⟩
  | 72 => ⟨S32x512x512, .i32⟩
  | 73 => ⟨S32x512x512, .i1⟩
  | 74 => ⟨S32x512x512, .f32⟩
  | 75 => ⟨S_, .f32⟩
  | 76 => ⟨S32x512, .f32⟩
  | 77 => ⟨S32x512x1, .f32⟩
  | 78 => ⟨S_, .f32⟩
  | 79 => ⟨S32x512x1, .f32⟩
  | 80 => ⟨S32x512x1, .f32⟩
  | 81 => ⟨S32x512x256, .f32⟩
  | 82 => ⟨S1x256x256, .f32⟩
  | 83 => ⟨S256x256, .f32⟩
  | 84 => ⟨S1x256, .f32⟩
  | 85 => ⟨S256, .f32⟩
  | 86 => ⟨S32x512x256, .f32⟩
  | 87 => ⟨S1x1x256, .f32⟩
  | 88 => ⟨S32x512x256, .f32⟩
  | 89 => ⟨S32x512x256, .f32⟩
  | 90 => ⟨S1x256x256, .f32⟩
  | 91 => ⟨S256x256, .f32⟩
  | 92 => ⟨S1x256, .f32⟩
  | 93 => ⟨S256, .f32⟩
  | 94 => ⟨S32x512x256, .f32⟩
  | 95 => ⟨S1x1x256, .f32⟩
  | 96 => ⟨S32x512x256, .f32⟩
  | 97 => ⟨S32x512x256, .f32⟩
  | 98 => ⟨S32x512x256, .f32⟩
  | 99 => ⟨S32x512x256, .f32⟩
  | 100 => ⟨S32x512x256, .f32⟩
  | 101 => ⟨S_, .f32⟩
  | 102 => ⟨S32x512x256, .f32⟩
  | 103 => ⟨S32x512x256, .f32⟩
  | 104 => ⟨S32x512x256, .f32⟩
  | 105 => ⟨S1x256x256, .f32⟩
  | 106 => ⟨S256x256, .f32⟩
  | 107 => ⟨S1x256, .f32⟩
  | 108 => ⟨S256, .f32⟩
  | 109 => ⟨S32x512x256, .f32⟩
  | 110 => ⟨S1x1x256, .f32⟩
  | 111 => ⟨S32x512x256, .f32⟩
  | 112 => ⟨S32x512x256, .f32⟩
  | 113 => ⟨S1x256x256, .f32⟩
  | 114 => ⟨S256x256, .f32⟩
  | 115 => ⟨S1x256, .f32⟩
  | 116 => ⟨S256, .f32⟩
  | 117 => ⟨S32x512x256, .f32⟩
  | 118 => ⟨S1x1x256, .f32⟩
  | 119 => ⟨S32x512x256, .f32⟩
  | 120 => ⟨S32x512x256, .f32⟩
  | 121 => ⟨S32x512x256, .f32⟩
  | 122 => ⟨S32x512x256, .f32⟩
  | 123 => ⟨S32x512x256, .f32⟩
  | 124 => ⟨S_, .f32⟩
  | 125 => ⟨S32x512x256, .f32⟩
  | 126 => ⟨S32x512x256, .f32⟩
  | 127 => ⟨S32x512x256, .f32⟩
  | _ => ⟨S32x512x256, .f32⟩

abbrev hbmTy0_1 (i : Nat) : BufTy := match i % 128 with
  | 0 => ⟨S1x256x256, .f32⟩
  | 1 => ⟨S256x256, .f32⟩
  | 2 => ⟨S1x256, .f32⟩
  | 3 => ⟨S256, .f32⟩
  | 4 => ⟨S32x512x256, .f32⟩
  | 5 => ⟨S1x1x256, .f32⟩
  | 6 => ⟨S32x512x256, .f32⟩
  | 7 => ⟨S32x512x256, .f32⟩
  | 8 => ⟨S1x256x256, .f32⟩
  | 9 => ⟨S256x256, .f32⟩
  | 10 => ⟨S1x256, .f32⟩
  | 11 => ⟨S256, .f32⟩
  | 12 => ⟨S32x512x256, .f32⟩
  | 13 => ⟨S1x1x256, .f32⟩
  | 14 => ⟨S32x512x256, .f32⟩
  | 15 => ⟨S32x512x256, .f32⟩
  | 16 => ⟨S32x512x256, .f32⟩
  | 17 => ⟨S32x512x256, .f32⟩
  | 18 => ⟨S32x512x256, .f32⟩
  | 19 => ⟨S_, .f32⟩
  | 20 => ⟨S32x512x256, .f32⟩
  | 21 => ⟨S32x512x256, .f32⟩
  | 22 => ⟨S32x512x256, .f32⟩
  | 23 => ⟨S1x256x256, .f32⟩
  | 24 => ⟨S256x256, .f32⟩
  | 25 => ⟨S1x256, .f32⟩
  | 26 => ⟨S256, .f32⟩
  | 27 => ⟨S32x512x256, .f32⟩
  | 28 => ⟨S1x1x256, .f32⟩
  | 29 => ⟨S32x512x256, .f32⟩
  | 30 => ⟨S32x512x256, .f32⟩
  | 31 => ⟨S1x256x256, .f32⟩
  | 32 => ⟨S256x256, .f32⟩
  | 33 => ⟨S1x256, .f32⟩
  | 34 => ⟨S256, .f32⟩
  | 35 => ⟨S32x512x256, .f32⟩
  | 36 => ⟨S1x1x256, .f32⟩
  | 37 => ⟨S32x512x256, .f32⟩
  | 38 => ⟨S32x512x256, .f32⟩
  | 39 => ⟨S32x512x256, .f32⟩
  | 40 => ⟨S32x512x256, .f32⟩
  | 41 => ⟨S32x512x256, .f32⟩
  | 42 => ⟨S_, .f32⟩
  | 43 => ⟨S32x512x256, .f32⟩
  | 44 => ⟨S32x512x256, .f32⟩
  | 45 => ⟨S32x512x256, .f32⟩
  | 46 => ⟨S1x256x256, .f32⟩
  | 47 => ⟨S256x256, .f32⟩
  | 48 => ⟨S1x256, .f32⟩
  | 49 => ⟨S256, .f32⟩
  | 50 => ⟨S32x512x256, .f32⟩
  | 51 => ⟨S1x1x256, .f32⟩
  | 52 => ⟨S32x512x256, .f32⟩
  | 53 => ⟨S32x512x256, .f32⟩
  | 54 => ⟨S1x256x256, .f32⟩
  | 55 => ⟨S256x256, .f32⟩
  | 56 => ⟨S1x256, .f32⟩
  | 57 => ⟨S256, .f32⟩
  | 58 => ⟨S32x512x256, .f32⟩
  | 59 => ⟨S1x1x256, .f32⟩
  | 60 => ⟨S32x512x256, .f32⟩
  | 61 => ⟨S32x512x256, .f32⟩
  | 62 => ⟨S32x512x256, .f32⟩
  | 63 => ⟨S32x512x256, .f32⟩
  | 64 => ⟨S32x512x256, .f32⟩
  | 65 => ⟨S_, .f32⟩
  | 66 => ⟨S32x512x256, .f32⟩
  | 67 => ⟨S32x512x256, .f32⟩
  | 68 => ⟨S32x512x256, .f32⟩
  | 69 => ⟨S1x256x256, .f32⟩
  | 70 => ⟨S256x256, .f32⟩
  | 71 => ⟨S1x256, .f32⟩
  | 72 => ⟨S256, .f32⟩
  | 73 => ⟨S32x512x256, .f32⟩
  | 74 => ⟨S1x1x256, .f32⟩
  | 75 => ⟨S32x512x256, .f32⟩
  | 76 => ⟨S32x512x256, .f32⟩
  | 77 => ⟨S1x256x256, .f32⟩
  | 78 => ⟨S256x256, .f32⟩
  | 79 => ⟨S1x256, .f32⟩
  | 80 => ⟨S256, .f32⟩
  | 81 => ⟨S32x512x256, .f32⟩
  | 82 => ⟨S1x1x256, .f32⟩
  | 83 => ⟨S32x512x256, .f32⟩
  | 84 => ⟨S32x512x256, .f32⟩
  | 85 => ⟨S32x512x256, .f32⟩
  | 86 => ⟨S32x512x256, .f32⟩
  | 87 => ⟨S32x512x256, .f32⟩
  | 88 => ⟨S_, .f32⟩
  | 89 => ⟨S32x512x256, .f32⟩
  | 90 => ⟨S32x512x256, .f32⟩
  | 91 => ⟨S32x512x256, .f32⟩
  | 92 => ⟨S1x256x256, .f32⟩
  | 93 => ⟨S256x256, .f32⟩
  | 94 => ⟨S1x256, .f32⟩
  | 95 => ⟨S256, .f32⟩
  | 96 => ⟨S32x512x256, .f32⟩
  | 97 => ⟨S1x1x256, .f32⟩
  | 98 => ⟨S32x512x256, .f32⟩
  | 99 => ⟨S32x512x256, .f32⟩
  | 100 => ⟨S1x256x256, .f32⟩
  | 101 => ⟨S256x256, .f32⟩
  | 102 => ⟨S1x256, .f32⟩
  | 103 => ⟨S256, .f32⟩
  | 104 => ⟨S32x512x256, .f32⟩
  | 105 => ⟨S1x1x256, .f32⟩
  | 106 => ⟨S32x512x256, .f32⟩
  | 107 => ⟨S32x512x256, .f32⟩
  | 108 => ⟨S32x512x256, .f32⟩
  | 109 => ⟨S32x512x256, .f32⟩
  | 110 => ⟨S32x512x256, .f32⟩
  | 111 => ⟨S_, .f32⟩
  | 112 => ⟨S32x512x256, .f32⟩
  | 113 => ⟨S32x512x256, .f32⟩
  | 114 => ⟨S32x512x256, .f32⟩
  | 115 => ⟨S1x256x256, .f32⟩
  | 116 => ⟨S256x256, .f32⟩
  | 117 => ⟨S1x256, .f32⟩
  | 118 => ⟨S256, .f32⟩
  | 119 => ⟨S32x512x256, .f32⟩
  | 120 => ⟨S1x1x256, .f32⟩
  | 121 => ⟨S32x512x256, .f32⟩
  | 122 => ⟨S32x512x256, .f32⟩
  | 123 => ⟨S1x256x256, .f32⟩
  | 124 => ⟨S256x256, .f32⟩
  | 125 => ⟨S1x256, .f32⟩
  | 126 => ⟨S256, .f32⟩
  | 127 => ⟨S32x512x256, .f32⟩
  | _ => ⟨S32x512x256, .f32⟩

abbrev hbmTy0_2 (i : Nat) : BufTy := match i % 128 with
  | 0 => ⟨S1x1x256, .f32⟩
  | 1 => ⟨S32x512x256, .f32⟩
  | 2 => ⟨S32x512x256, .f32⟩
  | 3 => ⟨S32x512x256, .f32⟩
  | 4 => ⟨S32x512x256, .f32⟩
  | 5 => ⟨S32x512x256, .f32⟩
  | 6 => ⟨S_, .f32⟩
  | 7 => ⟨S32x512x256, .f32⟩
  | 8 => ⟨S32x512x256, .f32⟩
  | 9 => ⟨S32x512x256, .f32⟩
  | 10 => ⟨S1x256x256, .f32⟩
  | 11 => ⟨S256x256, .f32⟩
  | 12 => ⟨S1x256, .f32⟩
  | 13 => ⟨S256, .f32⟩
  | 14 => ⟨S32x512x256, .f32⟩
  | 15 => ⟨S1x1x256, .f32⟩
  | 16 => ⟨S32x512x256, .f32⟩
  | 17 => ⟨S32x512x256, .f32⟩
  | 18 => ⟨S1x256x256, .f32⟩
  | 19 => ⟨S256x256, .f32⟩
  | 20 => ⟨S1x256, .f32⟩
  | 21 => ⟨S256, .f32⟩
  | 22 => ⟨S32x512x256, .f32⟩
  | 23 => ⟨S1x1x256, .f32⟩
  | 24 => ⟨S32x512x256, .f32⟩
  | 25 => ⟨S32x512x256, .f32⟩
  | 26 => ⟨S32x512x256, .f32⟩
  | 27 => ⟨S32x512x256, .f32⟩
  | 28 => ⟨S32x512x256, .f32⟩
  | 29 => ⟨S_, .f32⟩
  | 30 => ⟨S32x512x256, .f32⟩
  | 31 => ⟨S32x512x256, .f32⟩
  | 32 => ⟨S32x512x256, .f32⟩
  | 33 => ⟨S1x256x256, .f32⟩
  | 34 => ⟨S256x256, .f32⟩
  | 35 => ⟨S1x256, .f32⟩
  | 36 => ⟨S256, .f32⟩
  | 37 => ⟨S32x512x256, .f32⟩
  | 38 => ⟨S1x1x256, .f32⟩
  | 39 => ⟨S32x512x256, .f32⟩
  | 40 => ⟨S32x512x256, .f32⟩
  | 41 => ⟨S1x256x256, .f32⟩
  | 42 => ⟨S256x256, .f32⟩
  | 43 => ⟨S1x256, .f32⟩
  | 44 => ⟨S256, .f32⟩
  | 45 => ⟨S32x512x256, .f32⟩
  | 46 => ⟨S1x1x256, .f32⟩
  | 47 => ⟨S32x512x256, .f32⟩
  | 48 => ⟨S32x512x256, .f32⟩
  | 49 => ⟨S32x512x256, .f32⟩
  | 50 => ⟨S32x512x256, .f32⟩
  | 51 => ⟨S32x512x256, .f32⟩
  | 52 => ⟨S_, .f32⟩
  | 53 => ⟨S32x512x256, .f32⟩
  | 54 => ⟨S32x512x256, .f32⟩
  | 55 => ⟨S32x512x256, .f32⟩
  | 56 => ⟨S1x256x256, .f32⟩
  | 57 => ⟨S256x256, .f32⟩
  | 58 => ⟨S1x256, .f32⟩
  | 59 => ⟨S256, .f32⟩
  | 60 => ⟨S32x512x256, .f32⟩
  | 61 => ⟨S1x1x256, .f32⟩
  | 62 => ⟨S32x512x256, .f32⟩
  | 63 => ⟨S32x512x256, .f32⟩
  | 64 => ⟨S1x256x256, .f32⟩
  | 65 => ⟨S256x256, .f32⟩
  | 66 => ⟨S1x256, .f32⟩
  | 67 => ⟨S256, .f32⟩
  | 68 => ⟨S32x512x256, .f32⟩
  | 69 => ⟨S1x1x256, .f32⟩
  | 70 => ⟨S32x512x256, .f32⟩
  | 71 => ⟨S32x512x256, .f32⟩
  | 72 => ⟨S32x512x256, .f32⟩
  | 73 => ⟨S32x512x256, .f32⟩
  | 74 => ⟨S32x512x256, .f32⟩
  | 75 => ⟨S_, .f32⟩
  | 76 => ⟨S32x512x256, .f32⟩
  | 77 => ⟨S32x512x256, .f32⟩
  | 78 => ⟨S32x512x256, .f32⟩
  | 79 => ⟨S1x256x256, .f32⟩
  | 80 => ⟨S256x256, .f32⟩
  | 81 => ⟨S1x256, .f32⟩
  | 82 => ⟨S256, .f32⟩
  | 83 => ⟨S32x512x256, .f32⟩
  | 84 => ⟨S1x1x256, .f32⟩
  | 85 => ⟨S32x512x256, .f32⟩
  | 86 => ⟨S32x512x256, .f32⟩
  | 87 => ⟨S1x256x256, .f32⟩
  | 88 => ⟨S256x256, .f32⟩
  | 89 => ⟨S1x256, .f32⟩
  | 90 => ⟨S256, .f32⟩
  | 91 => ⟨S32x512x256, .f32⟩
  | 92 => ⟨S1x1x256, .f32⟩
  | 93 => ⟨S32x512x256, .f32⟩
  | 94 => ⟨S32x512x256, .f32⟩
  | 95 => ⟨S32x512x256, .f32⟩
  | 96 => ⟨S32x512x256, .f32⟩
  | 97 => ⟨S32x512x256, .f32⟩
  | 98 => ⟨S_, .f32⟩
  | 99 => ⟨S32x512x256, .f32⟩
  | 100 => ⟨S32x512x256, .f32⟩
  | 101 => ⟨S32x512x256, .f32⟩
  | 102 => ⟨S1x256x256, .f32⟩
  | 103 => ⟨S256x256, .f32⟩
  | 104 => ⟨S1x256, .f32⟩
  | 105 => ⟨S256, .f32⟩
  | 106 => ⟨S32x512x256, .f32⟩
  | 107 => ⟨S1x1x256, .f32⟩
  | 108 => ⟨S32x512x256, .f32⟩
  | 109 => ⟨S32x512x256, .f32⟩
  | 110 => ⟨S1x256x256, .f32⟩
  | 111 => ⟨S256x256, .f32⟩
  | 112 => ⟨S1x256, .f32⟩
  | 113 => ⟨S256, .f32⟩
  | 114 => ⟨S32x512x256, .f32⟩
  | 115 => ⟨S1x1x256, .f32⟩
  | 116 => ⟨S32x512x256, .f32⟩
  | 117 => ⟨S32x512x256, .f32⟩
  | 118 => ⟨S32x512x256, .f32⟩
  | 119 => ⟨S32x512x256, .f32⟩
  | 120 => ⟨S32x512x256, .f32⟩
  | 121 => ⟨S_, .f32⟩
  | 122 => ⟨S32x512x256, .f32⟩
  | 123 => ⟨S32x512x256, .f32⟩
  | 124 => ⟨S32x512x256, .f32⟩
  | 125 => ⟨S1x256x256, .f32⟩
  | 126 => ⟨S256x256, .f32⟩
  | 127 => ⟨S1x256, .f32⟩
  | _ => ⟨S32x512x256, .f32⟩

abbrev hbmTy0_3 (i : Nat) : BufTy := match i % 128 with
  | 0 => ⟨S256, .f32⟩
  | 1 => ⟨S32x512x256, .f32⟩
  | 2 => ⟨S1x1x256, .f32⟩
  | 3 => ⟨S32x512x256, .f32⟩
  | 4 => ⟨S32x512x256, .f32⟩
  | 5 => ⟨S1x256x256, .f32⟩
  | 6 => ⟨S256x256, .f32⟩
  | 7 => ⟨S1x256, .f32⟩
  | 8 => ⟨S256, .f32⟩
  | 9 => ⟨S32x512x256, .f32⟩
  | 10 => ⟨S1x1x256, .f32⟩
  | 11 => ⟨S32x512x256, .f32⟩
  | 12 => ⟨S32x512x256, .f32⟩
  | 13 => ⟨S32x512x256, .f32⟩
  | 14 => ⟨S32x512x256, .f32⟩
  | 15 => ⟨S32x512x256, .f32⟩
  | 16 => ⟨S_, .f32⟩
  | 17 => ⟨S32x512x256, .f32⟩
  | 18 => ⟨S32x512x256, .f32⟩
  | _ => ⟨S32x512x256, .f32⟩

abbrev hbmTy (i : Nat) : BufTy := match i / 128 with
  | 0 => hbmTy0_0 i
  | 1 => hbmTy0_1 i
  | 2 => hbmTy0_2 i
  | 3 => hbmTy0_3 i
  | _ => ⟨S32x512x256, .f32⟩

abbrev bufTy : (tb : Table) → Fin (tcTables nBuf tb) → BufTy
  | .hbm, ⟨i, _⟩ => hbmTy i
  | _, _ => ⟨S32x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_cst_4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_5 : Ref sig .tc := ⟨.hbm, 40, rfl⟩
abbrev main_v19 : Ref sig .tc := ⟨.hbm, 41, rfl⟩
abbrev main_v20 : Ref sig .tc := ⟨.hbm, 42, rfl⟩
abbrev main_cst_6 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call0_cst : Ref sig .tc := ⟨.hbm, 66, rfl⟩
abbrev main_call0_v0 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call1_cst : Ref sig .tc := ⟨.hbm, 101, rfl⟩
abbrev main_call1_v0 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_call2_cst : Ref sig .tc := ⟨.hbm, 124, rfl⟩
abbrev main_call2_v0 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_call3_cst : Ref sig .tc := ⟨.hbm, 147, rfl⟩
abbrev main_call3_v0 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_call4_cst : Ref sig .tc := ⟨.hbm, 170, rfl⟩
abbrev main_call4_v0 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_call5_cst : Ref sig .tc := ⟨.hbm, 193, rfl⟩
abbrev main_call5_v0 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_call6_cst : Ref sig .tc := ⟨.hbm, 216, rfl⟩
abbrev main_call6_v0 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_call7_cst : Ref sig .tc := ⟨.hbm, 239, rfl⟩
abbrev main_call7_v0 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_call8_cst : Ref sig .tc := ⟨.hbm, 262, rfl⟩
abbrev main_call8_v0 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_call9_cst : Ref sig .tc := ⟨.hbm, 285, rfl⟩
abbrev main_call9_v0 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_call10_cst : Ref sig .tc := ⟨.hbm, 308, rfl⟩
abbrev main_call10_v0 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_v282 : Ref sig .tc := ⟨.hbm, 330, rfl⟩
abbrev main_call11_cst : Ref sig .tc := ⟨.hbm, 331, rfl⟩
abbrev main_call11_v0 : Ref sig .tc := ⟨.hbm, 332, rfl⟩
abbrev main_v283 : Ref sig .tc := ⟨.hbm, 333, rfl⟩
abbrev main_v284 : Ref sig .tc := ⟨.hbm, 334, rfl⟩
abbrev main_v285 : Ref sig .tc := ⟨.hbm, 335, rfl⟩
abbrev main_v286 : Ref sig .tc := ⟨.hbm, 336, rfl⟩
abbrev main_v287 : Ref sig .tc := ⟨.hbm, 337, rfl⟩
abbrev main_v288 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_call12_cst : Ref sig .tc := ⟨.hbm, 354, rfl⟩
abbrev main_call12_v0 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_v324 : Ref sig .tc := ⟨.hbm, 376, rfl⟩
abbrev main_call13_cst : Ref sig .tc := ⟨.hbm, 377, rfl⟩
abbrev main_call13_v0 : Ref sig .tc := ⟨.hbm, 378, rfl⟩
abbrev main_v325 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_v331 : Ref sig .tc := ⟨.hbm, 385, rfl⟩
abbrev main_v332 : Ref sig .tc := ⟨.hbm, 386, rfl⟩
abbrev main_v333 : Ref sig .tc := ⟨.hbm, 387, rfl⟩
abbrev main_v334 : Ref sig .tc := ⟨.hbm, 388, rfl⟩
abbrev main_v335 : Ref sig .tc := ⟨.hbm, 389, rfl⟩
abbrev main_v336 : Ref sig .tc := ⟨.hbm, 390, rfl⟩
abbrev main_v337 : Ref sig .tc := ⟨.hbm, 391, rfl⟩
abbrev main_v338 : Ref sig .tc := ⟨.hbm, 392, rfl⟩
abbrev main_v339 : Ref sig .tc := ⟨.hbm, 393, rfl⟩
abbrev main_v340 : Ref sig .tc := ⟨.hbm, 394, rfl⟩
abbrev main_v341 : Ref sig .tc := ⟨.hbm, 395, rfl⟩
abbrev main_v342 : Ref sig .tc := ⟨.hbm, 396, rfl⟩
abbrev main_v343 : Ref sig .tc := ⟨.hbm, 397, rfl⟩
abbrev main_v344 : Ref sig .tc := ⟨.hbm, 398, rfl⟩
abbrev main_v345 : Ref sig .tc := ⟨.hbm, 399, rfl⟩
abbrev main_call14_cst : Ref sig .tc := ⟨.hbm, 400, rfl⟩
abbrev main_call14_v0 : Ref sig .tc := ⟨.hbm, 401, rfl⟩
abbrev main_v346 : Ref sig .tc := ⟨.hbm, 402, rfl⟩

abbrev nD : Nat := 1
abbrev τ : Topo := Topo.v7x

variable {F : FTy → Type} [FloatOps F]

class Facts₀ : Prop where
  reducesTo_S32x512x512_S32x512_d2 : S32x512x512.ReducesTo [2] S32x512
  h_S_ : 0 < S_.numel
  bcast_S32x512_S32x512x1_0_1 : S32x512.BroadcastsInDim S32x512x1 (![0, 1] : Fin 2 → Fin S32x512x1.rank)
  bcast_S_S32x512x1 : S_.BroadcastsInDim S32x512x1 (![] : Fin 0 → Fin S32x512x1.rank)
  slices_S2x32x512x512_S1x32x512x512_0_0_0_0 : S2x32x512x512.Slices ![0, 0, 0, 0] S1x32x512x512
  shapeCasts_S1x32x512x512_S32x512x512 : S1x32x512x512.ShapeCasts S32x512x512
  bcast_S_S32x512x512 : S_.BroadcastsInDim S32x512x512 (![] : Fin 0 → Fin S32x512x512.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S32x512x256_0_1_2 : S1x1x256.BroadcastsInDim S32x512x256 (![0, 1, 2] : Fin 3 → Fin S32x512x256.rank)
  bcast_S32x512x1_S32x512x256_0_1_2 : S32x512x1.BroadcastsInDim S32x512x256 (![0, 1, 2] : Fin 3 → Fin S32x512x256.rank)
  bcast_S_S32x512x256 : S_.BroadcastsInDim S32x512x256 (![] : Fin 0 → Fin S32x512x256.rank)
  slices_S2x32x512x512_S1x32x512x512_1_0_0_0 : S2x32x512x512.Slices ![1, 0, 0, 0] S1x32x512x512
  slices_S2x256x256_S1x256x256_1_0_0 : S2x256x256.Slices ![1, 0, 0] S1x256x256
  slices_S2x256_S1x256_1_0 : S2x256.Slices ![1, 0] S1x256
  slices_S9x256x256_S1x256x256_0_0_0 : S9x256x256.Slices ![0, 0, 0] S1x256x256
  slices_S9x256_S1x256_0_0 : S9x256.Slices ![0, 0] S1x256
  slices_S9x256x256_S1x256x256_1_0_0 : S9x256x256.Slices ![1, 0, 0] S1x256x256
  slices_S9x256_S1x256_1_0 : S9x256.Slices ![1, 0] S1x256
  slices_S9x256x256_S1x256x256_2_0_0 : S9x256x256.Slices ![2, 0, 0] S1x256x256
  slices_S9x256_S1x256_2_0 : S9x256.Slices ![2, 0] S1x256
  slices_S9x256x256_S1x256x256_3_0_0 : S9x256x256.Slices ![3, 0, 0] S1x256x256
  slices_S9x256_S1x256_3_0 : S9x256.Slices ![3, 0] S1x256
  slices_S9x256x256_S1x256x256_4_0_0 : S9x256x256.Slices ![4, 0, 0] S1x256x256
  slices_S9x256_S1x256_4_0 : S9x256.Slices ![4, 0] S1x256
  slices_S9x256x256_S1x256x256_5_0_0 : S9x256x256.Slices ![5, 0, 0] S1x256x256
  slices_S9x256_S1x256_5_0 : S9x256.Slices ![5, 0] S1x256
  slices_S9x256x256_S1x256x256_6_0_0 : S9x256x256.Slices ![6, 0, 0] S1x256x256
  slices_S9x256_S1x256_6_0 : S9x256.Slices ![6, 0] S1x256
  slices_S9x256x256_S1x256x256_7_0_0 : S9x256x256.Slices ![7, 0, 0] S1x256x256
  slices_S9x256_S1x256_7_0 : S9x256.Slices ![7, 0] S1x256
  slices_S9x256x256_S1x256x256_8_0_0 : S9x256x256.Slices ![8, 0, 0] S1x256x256
  slices_S9x256_S1x256_8_0 : S9x256.Slices ![8, 0] S1x256
  dot_S32x512x512_S32x512x256_S32x512x256_2_1_1_2_0_0_wf : DotDims.WF S32x512x512 S32x512x256 S32x512x256 [2] [1] [1] [2] [0] [0]
  dot_S32x512x256_S256x256_S32x512x256_2_1_01_0_n_n_wf : DotDims.WF S32x512x256 S256x256 S32x512x256 [2] [1] [0, 1] [0] [] []

variable [Facts₀]

def dot_S32x512x512_S32x512x256_S32x512x256_2_1_1_2_0_0 : DotDims S32x512x512 S32x512x256 S32x512x256 where
  lhsContracting := [2]
  rhsContracting := [1]
  lhsNonContracting := [1]
  rhsNonContracting := [2]
  lhsBatch := [0]
  rhsBatch := [0]
  wf := dot_S32x512x512_S32x512x256_S32x512x256_2_1_1_2_0_0_wf
def dot_S32x512x256_S256x256_S32x512x256_2_1_01_0_n_n : DotDims S32x512x256 S256x256 S32x512x256 where
  lhsContracting := [2]
  rhsContracting := [1]
  lhsNonContracting := [0, 1]
  rhsNonContracting := [0]
  lhsBatch := []
  rhsBatch := []
  wf := dot_S32x512x256_S256x256_S32x512x256_2_1_01_0_n_n_wf

class Facts : Prop extends Facts₀ where

variable [Facts]
-- ==== Proof.KerBlocks.lean ====
/-
  How a grid point's blocks sit in the arrays. The grid has 32 points, one per batch; at point `t` every batched array
  (the features, the four adjacencies, the four results) contributes its batch `t`, and every table is taken whole.
-/
import proofs.«128254_j60155311947910_1_alg».proof.Proof.Gen.KernelIdeal.Value
import Idealize.ShloMosaic.Lib.Pipeline.Value
import Idealize.ShloMosaic.Lib.ValueIdx

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]
variable (m : (ℓ : Loc nD τ sig) → Buf (Elt F) ℓ)

/-- The printed index maps, decided over the 32 points: a batched window's block index is the point's number on the
    batch axis and zero elsewhere; a table's is zero. -/
theorem idx_facts : ∀ t : Fin cfg0.N,
    win0_0.index t = ![t.val, 0, 0] ∧ win0_1.index t = ![0, t.val, 0, 0] ∧ win0_2.index t = ![t.val, 0, 0]
    ∧ win0_3.index t = ![t.val, 0, 0] ∧ win0_4.index t = ![t.val, 0, 0]
    ∧ win0_5.index t = ![0, 0, 0] ∧ win0_6.index t = ![0, 0] ∧ win0_7.index t = ![0, 0, 0] ∧ win0_8.index t = ![0, 0]
    ∧ win0_9.index t = ![0, 0, 0] ∧ win0_10.index t = ![0, 0] ∧ win0_11.index t = ![0, 0, 0] ∧ win0_12.index t = ![0, 0]
    ∧ win0_13.index t = ![t.val, 0, 0] ∧ win0_14.index t = ![t.val, 0, 0] ∧ win0_15.index t = ![t.val, 0, 0]
    ∧ win0_16.index t = ![t.val, 0, 0] :=
  (by decide +kernel : ∀ t : Fin grid0.N, _)

/-- Batch `t` of the features. -/
theorem blk0_read (c : Dev nD) (t : Fin cfg0.N) (p : Fin 32) (hp : p.val = t.val) (r : Fin 512) (d : Fin 256) :
    iblk m c 0 t (ix3 0 r d) = V m c main_arg0 (ix3 p r d) := by
  show V m c main_arg0 (((cfg0.win 0).blk t).view.emb (ix3 0 r d)) = V m c main_arg0 (ix3 p r d)
  refine congrArg (V m c main_arg0) (funext fun a => Fin.ext ?_)
  have e := (idx_facts t).1
  match a with
  | ⟨0, _⟩ => show win0_0.index t (0 : Fin 3) * 1 + 1 * 0 = p.val; rw [e, hp]; show t.val * 1 + 1 * 0 = t.val; omega
  | ⟨1, _⟩ => show win0_0.index t (1 : Fin 3) * 512 + 1 * r.val = r.val; rw [e]; show 0 * 512 + 1 * r.val = r.val; omega
  | ⟨2, _⟩ => show win0_0.index t (2 : Fin 3) * 256 + 1 * d.val = d.val; rw [e]; show 0 * 256 + 1 * d.val = d.val; omega

/-- Batch `t` of the constituent adjacency words, both layers. -/
theorem blk1_read (c : Dev nD) (t : Fin cfg0.N) (p : Fin 32) (hp : p.val = t.val) (y0 : Fin 2) (y2 : Fin 512) (y3 : Fin 512) :
    iblk m c 1 t (ix4 y0 0 y2 y3) = V m c main_arg1 (ix4 y0 p y2 y3) := by
  show V m c main_arg1 (((cfg0.win 1).blk t).view.emb (ix4 y0 0 y2 y3)) = V m c main_arg1 (ix4 y0 p y2 y3)
  refine congrArg (V m c main_arg1) (funext fun a => Fin.ext ?_)
  have e := (idx_facts t).2.1
  match a with
  | ⟨0, _⟩ => show win0_1.index t (0 : Fin 4) * 2 + 1 * y0.val = y0.val; rw [e]; show 0 * 2 + 1 * y0.val = y0.val; omega
  | ⟨1, _⟩ => show win0_1.index t (1 : Fin 4) * 1 + 1 * 0 = p.val; rw [e, hp]; show t.val * 1 + 1 * 0 = t.val; omega
  | ⟨2, _⟩ => show win0_1.index t (2 : Fin 4) * 512 + 1 * y2.val = y2.val; rw [e]; show 0 * 512 + 1 * y2.val = y2.val; omega
  | ⟨3, _⟩ => show win0_1.index t (3 : Fin 4) * 512 + 1 * y3.val = y3.val; rw [e]; show 0 * 512 + 1 * y3.val = y3.val; omega

/-- Batch `t` of the dependency adjacency words. -/
theorem blk2_read (c : Dev nD) (t : Fin cfg0.N) (p : Fin 32) (hp : p.val = t.val) (y1 : Fin 512) (y2 : Fin 512) :
    iblk m c 2 t (ix3 0 y1 y2) = V m c main_arg2 (ix3 p y1 y2) := by
  show V m c main_arg2 (((cfg0.win 2).blk t).view.emb (ix3 0 y1 y2)) = V m c main_arg2 (ix3 p y1 y2)
  refine congrArg (V m c main_arg2) (funext fun a => Fin.ext ?_)
  have e := (idx_facts t).2.2.1
  match a with
  | ⟨0, _⟩ => show win0_2.index t (0 : Fin 3) * 1 + 1 * 0 = p.val; rw [e, hp]; show t.val * 1 + 1 * 0 = t.val; omega
  | ⟨1, _⟩ => show win0_2.index t (1 : Fin 3) * 512 + 1 * y1.val = y1.val; rw [e]; show 0 * 512 + 1 * y1.val = y1.val; omega
  | ⟨2, _⟩ => show win0_2.index t (2 : Fin 3) * 512 + 1 * y2.val = y2.val; rw [e]; show 0 * 512 + 1 * y2.val = y2.val; omega

/-- Batch `t` of the semantic adjacency. -/
theorem blk3_read (c : Dev nD) (t : Fin cfg0.N) (p : Fin 32) (hp : p.val = t.val) (y1 : Fin 512) (y2 : Fin 512) :
    iblk m c 3 t (ix3 0 y1 y2) = V m c main_arg3 (ix3 p y1 y2) := by
  show V m c main_arg3 (((cfg0.win 3).blk t).view.emb (ix3 0 y1 y2)) = V m c main_arg3 (ix3 p y1 y2)
  refine congrArg (V m c main_arg3) (funext fun a => Fin.ext ?_)
  have e := (idx_facts t).2.2.2.1
  match a with
  | ⟨0, _⟩ => show win0_3.index t (0 : Fin 3) * 1 + 1 * 0 = p.val; rw [e, hp]; show t.val * 1 + 1 * 0 = t.val; omega
  | ⟨1, _⟩ => show win0_3.index t (1 : Fin 3) * 512 + 1 * y1.val = y1.val; rw [e]; show 0 * 512 + 1 * y1.val = y1.val; omega
  | ⟨2, _⟩ => show win0_3.index t (2 : Fin 3) * 512 + 1 * y2.val = y2.val; rw [e]; show 0 * 512 + 1 * y2.val = y2.val; omega

/-- Batch `t` of the abstract-meaning adjacency words. -/
theorem blk4_read (c : Dev nD) (t : Fin cfg0.N) (p : Fin 32) (hp : p.val = t.val) (y1 : Fin 512) (y2 : Fin 512) :
    iblk m c 4 t (ix3 0 y1 y2) = V m c main_arg4 (ix3 p y1 y2) := by
  show V m c main_arg4 (((cfg0.win 4).blk t).view.emb (ix3 0 y1 y2)) = V m c main_arg4 (ix3 p y1 y2)
  refine congrArg (V m c main_arg4) (funext fun a => Fin.ext ?_)
  have e := (idx_facts t).2.2.2.2.1
  match a with
  | ⟨0, _⟩ => show win0_4.index t (0 : Fin 3) * 1 + 1 * 0 = p.val; rw [e, hp]; show t.val * 1 + 1 * 0 = t.val; omega
  | ⟨1, _⟩ => show win0_4.index t (1 : Fin 3) * 512 + 1 * y1.val = y1.val; rw [e]; show 0 * 512 + 1 * y1.val = y1.val; omega
  | ⟨2, _⟩ => show win0_4.index t (2 : Fin 3) * 512 + 1 * y2.val = y2.val; rw [e]; show 0 * 512 + 1 * y2.val = y2.val; omega

/-- The constituent weight table, whole. -/
theorem blk5_read (c : Dev nD) (t : Fin cfg0.N) (y0 : Fin 2) (y1 : Fin 256) (y2 : Fin 256) :
    iblk m c 5 t (ix3 y0 y1 y2) = V m c main_arg6 (ix3 y0 y1 y2) := by
  show V m c main_arg6 (((cfg0.win 5).blk t).view.emb (ix3 y0 y1 y2)) = V m c main_arg6 (ix3 y0 y1 y2)
  refine congrArg (V m c main_arg6) (funext fun a => Fin.ext ?_)
  have e := (idx_facts t).2.2.2.2.2.1
  match a with
  | ⟨0, _⟩ => show win0_5.index t (0 : Fin 3) * 2 + 1 * y0.val = y0.val; rw [e]; show 0 * 2 + 1 * y0.val = y0.val; omega
  | ⟨1, _⟩ => show win0_5.index t (1 : Fin 3) * 256 + 1 * y1.val = y1.val; rw [e]; show 0 * 256 + 1 * y1.val = y1.val; omega
  | ⟨2, _⟩ => show win0_5.index t (2 : Fin 3) * 256 + 1 * y2.val = y2.val; rw [e]; show 0 * 256 + 1 * y2.val = y2.val; omega

/-- The constituent bias table, whole. -/
theorem blk6_read (c : Dev nD) (t : Fin cfg0.N) (y0 : Fin 2) (y1 : Fin 256) :
    iblk m c 6 t (ix2 y0 y1) = V m c main_arg7 (ix2 y0 y1) := by
  show V m c main_arg7 (((cfg0.win 6).blk t).view.emb (ix2 y0 y1)) = V m c main_arg7 (ix2 y0 y1)
  refine congrArg (V m c main_arg7) (funext fun a => Fin.ext ?_)
  have e := (idx_facts t).2.2.2.2.2.2.1
  match a with
  | ⟨0, _⟩ => show win0_6.index t (0 : Fin 2) * 2 + 1 * y0.val = y0.val; rw [e]; show 0 * 2 + 1 * y0.val = y0.val; omega
  | ⟨1, _⟩ => show win0_6.index t (1 : Fin 2) * 256 + 1 * y1.val = y1.val; rw [e]; show 0 * 256 + 1 * y1.val = y1.val; omega

/-- The dependency weight table, whole. -/
theorem blk7_read (c : Dev nD) (t : Fin cfg0.N) (y0 : Fin 2) (y1 : Fin 256) (y2 : Fin 256) :
    iblk m c 7 t (ix3 y0 y1 y2) = V m c main_arg8 (ix3 y0 y1 y2) := by
  show V m c main_arg8 (((cfg0.win 7).blk t).view.emb (ix3 y0 y1 y2)) = V m c main_arg8 (ix3 y0 y1 y2)
  refine congrArg (V m c main_arg8) (funext fun a => Fin.ext ?_)
  have e := (idx_facts t).2.2.2.2.2.2.2.1
  match a with
  | ⟨0, _⟩ => show win0_7.index t (0 : Fin 3) * 2 + 1 * y0.val = y0.val; rw [e]; show 0 * 2 + 1 * y0.val = y0.val; omega
  | ⟨1, _⟩ => show win0_7.index t (1 : Fin 3) * 256 + 1 * y1.val = y1.val; rw [e]; show 0 * 256 + 1 * y1.val = y1.val; omega
  | ⟨2, _⟩ => show win0_7.index t (2 : Fin 3) * 256 + 1 * y2.val = y2.val; rw [e]; show 0 * 256 + 1 * y2.val = y2.val; omega

/-- The dependency bias table, whole. -/
theorem blk8_read (c : Dev nD) (t : Fin cfg0.N) (y0 : Fin 2) (y1 : Fin 256) :
    iblk m c 8 t (ix2 y0 y1) = V m c main_arg9 (ix2 y0 y1) := by
  show V m c main_arg9 (((cfg0.win 8).blk t).view.emb (ix2 y0 y1)) = V m c main_arg9 (ix2 y0 y1)
  refine congrArg (V m c main_arg9) (funext fun a => Fin.ext ?_)
  have e := (idx_facts t).2.2.2.2.2.2.2.2.1
  match a with
  | ⟨0, _⟩ => show win0_8.index t (0 : Fin 2) * 2 + 1 * y0.val = y0.val; rw [e]; show 0 * 2 + 1 * y0.val = y0.val; omega
  | ⟨1, _⟩ => show win0_8.index t (1 : Fin 2) * 256 + 1 * y1.val = y1.val; rw [e]; show 0 * 256 + 1 * y1.val = y1.val; omega

/-- The semantic weight table, whole. -/
theorem blk9_read (c : Dev nD) (t : Fin cfg0.N) (y0 : Fin 2) (y1 : Fin 256) (y2 : Fin 256) :
    iblk m c 9 t (ix3 y0 y1 y2) = V m c main_arg10 (ix3 y0 y1 y2) := by
  show V m c main_arg10 (((cfg0.win 9).blk t).view.emb (ix3 y0 y1 y2)) = V m c main_arg10 (ix3 y0 y1 y2)
  refine congrArg (V m c main_arg10) (funext fun a => Fin.ext ?_)
  have e := (idx_facts t).2.2.2.2.2.2.2.2.2.1
  match a with
  | ⟨0, _⟩ => show win0_9.index t (0 : Fin 3) * 2 + 1 * y0.val = y0.val; rw [e]; show 0 * 2 + 1 * y0.val = y0.val; omega
  | ⟨1, _⟩ => show win0_9.index t (1 : Fin 3) * 256 + 1 * y1.val = y1.val; rw [e]; show 0 * 256 + 1 * y1.val = y1.val; omega
  | ⟨2, _⟩ => show win0_9.index t (2 : Fin 3) * 256 + 1 * y2.val = y2.val; rw [e]; show 0 * 256 + 1 * y2.val = y2.val; omega

/-- The semantic bias table, whole. -/
theorem blk10_read (c : Dev nD) (t : Fin cfg0.N) (y0 : Fin 2) (y1 : Fin 256) :
    iblk m c 10 t (ix2 y0 y1) = V m c main_arg11 (ix2 y0 y1) := by
  show V m c main_arg11 (((cfg0.win 10).blk t).view.emb (ix2 y0 y1)) = V m c main_arg11 (ix2 y0 y1)
  refine congrArg (V m c main_arg11) (funext fun a => Fin.ext ?_)
  have e := (idx_facts t).2.2.2.2.2.2.2.2.2.2.1
  match a with
  | ⟨0, _⟩ => show win0_10.index t (0 : Fin 2) * 2 + 1 * y0.val = y0.val; rw [e]; show 0 * 2 + 1 * y0.val = y0.val; omega
  | ⟨1, _⟩ => show win0_10.index t (1 : Fin 2) * 256 + 1 * y1.val = y1.val; rw [e]; show 0 * 256 + 1 * y1.val = y1.val; omega

/-- The abstract-meaning weight table, whole. -/
theorem blk11_read (c : Dev nD) (t : Fin cfg0.N) (y0 : Fin 9) (y1 : Fin 256) (y2 : Fin 256) :
    iblk m c 11 t (ix3 y0 y1 y2) = V m c main_arg12 (ix3 y0 y1 y2) := by
  show V m c main_arg12 (((cfg0.win 11).blk t).view.emb (ix3 y0 y1 y2)) = V m c main_arg12 (ix3 y0 y1 y2)
  refine congrArg (V m c main_arg12) (funext fun a => Fin.ext ?_)
  have e := (idx_facts t).2.2.2.2.2.2.2.2.2.2.2.1
  match a with
  | ⟨0, _⟩ => show win0_11.index t (0 : Fin 3) * 9 + 1 * y0.val = y0.val; rw [e]; show 0 * 9 + 1 * y0.val = y0.val; omega
  | ⟨1, _⟩ => show win0_11.index t (1 : Fin 3) * 256 + 1 * y1.val = y1.val; rw [e]; show 0 * 256 + 1 * y1.val = y1.val; omega
  | ⟨2, _⟩ => show win0_11.index t (2 : Fin 3) * 256 + 1 * y2.val = y2.val; rw [e]; show 0 * 256 + 1 * y2.val = y2.val; omega

/-- The abstract-meaning bias table, whole. -/
theorem blk12_read (c : Dev nD) (t : Fin cfg0.N) (y0 : Fin 9) (y1 : Fin 256) :
    iblk m c 12 t (ix2 y0 y1) = V m c main_arg13 (ix2 y0 y1) := by
  show V m c main_arg13 (((cfg0.win 12).blk t).view.emb (ix2 y0 y1)) = V m c main_arg13 (ix2 y0 y1)
  refine congrArg (V m c main_arg13) (funext fun a => Fin.ext ?_)
  have e := (idx_facts t).2.2.2.2.2.2.2.2.2.2.2.2.1
  match a with
  | ⟨0, _⟩ => show win0_12.index t (0 : Fin 2) * 9 + 1 * y0.val = y0.val; rw [e]; show 0 * 9 + 1 * y0.val = y0.val; omega
  | ⟨1, _⟩ => show win0_12.index t (1 : Fin 2) * 256 + 1 * y1.val = y1.val; rw [e]; show 0 * 256 + 1 * y1.val = y1.val; omega

/-- Entry `(0, r, o)` of point `t`'s block of result 0 is entry `(t, r, o)` of the array. -/
theorem emb13 (t : Fin cfg0.N) (p : Fin 32) (hp : p.val = t.val) (r : Fin 512) (o : Fin 256) :
    ((cfg0.win 13).blk t).view.emb (ix3 0 r o) = ix3 p r o := by
  refine funext fun a => Fin.ext ?_
  have e := (idx_facts t).2.2.2.2.2.2.2.2.2.2.2.2.2.1
  match a with
  | ⟨0, _⟩ => show win0_13.index t (0 : Fin 3) * 1 + 1 * 0 = p.val; rw [e, hp]; show t.val * 1 + 1 * 0 = t.val; omega
  | ⟨1, _⟩ => show win0_13.index t (1 : Fin 3) * 512 + 1 * r.val = r.val; rw [e]; show 0 * 512 + 1 * r.val = r.val; omega
  | ⟨2, _⟩ => show win0_13.index t (2 : Fin 3) * 256 + 1 * o.val = o.val; rw [e]; show 0 * 256 + 1 * o.val = o.val; omega

/-- Entry `(0, r, o)` of point `t`'s block of result 1 is entry `(t, r, o)` of the array. -/
theorem emb14 (t : Fin cfg0.N) (p : Fin 32) (hp : p.val = t.val) (r : Fin 512) (o : Fin 256) :
    ((cfg0.win 14).blk t).view.emb (ix3 0 r o) = ix3 p r o := by
  refine funext fun a => Fin.ext ?_
  have e := (idx_facts t).2.2.2.2.2.2.2.2.2.2.2.2.2.2.1
  match a with
  | ⟨0, _⟩ => show win0_14.index t (0 : Fin 3) * 1 + 1 * 0 = p.val; rw [e, hp]; show t.val * 1 + 1 * 0 = t.val; omega
  | ⟨1, _⟩ => show win0_14.index t (1 : Fin 3) * 512 + 1 * r.val = r.val; rw [e]; show 0 * 512 + 1 * r.val = r.val; omega
  | ⟨2, _⟩ => show win0_14.index t (2 : Fin 3) * 256 + 1 * o.val = o.val; rw [e]; show 0 * 256 + 1 * o.val = o.val; omega

/-- Entry `(0, r, o)` of point `t`'s block of result 2 is entry `(t, r, o)` of the array. -/
theorem emb15 (t : Fin cfg0.N) (p : Fin 32) (hp : p.val = t.val) (r : Fin 512) (o : Fin 256) :
    ((cfg0.win 15).blk t).view.emb (ix3 0 r o) = ix3 p r o := by
  refine funext fun a => Fin.ext ?_
  have e := (idx_facts t).2.2.2.2.2.2.2.2.2.2.2.2.2.2.2.1
  match a with
  | ⟨0, _⟩ => show win0_15.index t (0 : Fin 3) * 1 + 1 * 0 = p.val; rw [e, hp]; show t.val * 1 + 1 * 0 = t.val; omega
  | ⟨1, _⟩ => show win0_15.index t (1 : Fin 3) * 512 + 1 * r.val = r.val; rw [e]; show 0 * 512 + 1 * r.val = r.val; omega
  | ⟨2, _⟩ => show win0_15.index t (2 : Fin 3) * 256 + 1 * o.val = o.val; rw [e]; show 0 * 256 + 1 * o.val = o.val; omega

/-- Entry `(0, r, o)` of point `t`'s block of result 3 is entry `(t, r, o)` of the array. -/
theorem emb16 (t : Fin cfg0.N) (p : Fin 32) (hp : p.val = t.val) (r : Fin 512) (o : Fin 256) :
    ((cfg0.win 16).blk t).view.emb (ix3 0 r o) = ix3 p r o := by
  refine funext fun a => Fin.ext ?_
  have e := (idx_facts t).2.2.2.2.2.2.2.2.2.2.2.2.2.2.2.2
  match a with
  | ⟨0, _⟩ => show win0_16.index t (0 : Fin 3) * 1 + 1 * 0 = p.val; rw [e, hp]; show t.val * 1 + 1 * 0 = t.val; omega
  | ⟨1, _⟩ => show win0_16.index t (1 : Fin 3) * 512 + 1 * r.val = r.val; rw [e]; show 0 * 512 + 1 * r.val = r.val; omega
  | ⟨2, _⟩ => show win0_16.index t (2 : Fin 3) * 256 + 1 * o.val = o.val; rw [e]; show 0 * 256 + 1 * o.val = o.val; omega

end Cert.KernelIdeal.KerValue

end
-- ==== Proof.KerPieces.lean ====
/-
  What one grid point of the kernel leaves in each of its four output blocks, as terms of the blocks it loads.

  The grid has one point per batch. At a point the body loads the batch's features, its four adjacency blocks and the
  whole weight and bias tables, and stores four blocks of [1, 512, 256]:
  * the constituent block is two layers written out one after the other, layer `l` reading row `l` of the adjacency
    block and of the two tables;
  * the other three blocks are each the value a counted loop carries: trip `k` applies one layer, with row `k` of that
    branch's tables, to the carried features, which start as the batch's features. The loop's value before trip `k` is
    given by a recursion on `k`, one trip a step; here each kind of trip is opened once and named as a layer payload.
  A load through a rectangle of unit stride reads the loaded array at the rectangle's offset plus the coordinate.
-/
import proofs.«128254_j60155311947910_1_alg».proof.Proof.Gen.KernelIdeal.Frame
import Idealize.ShloMosaic.Lib.Pipeline.Value

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz3 : (![0, 0, 0] : Fin 3 → Nat) = fun _ => 0 := funext fun a => by fin_cases a <;> rfl

/-- A load through a unit-stride rectangle, at a coordinate `y` of the rectangle, is the loaded array at the index whose
    every coordinate is the rectangle's offset plus `y`'s. -/
theorem ld_unit_at {S : Shape} {e : EltTy} {Val : EltTy → Type} (X : S.Idx → Val e) (off size : Fin S.rank → Nat)
    (inb : ∀ a, off a + size a ≤ S.size a) (y : (Rect.unit off size inb).shape.Idx) (z : S.Idx)
    (h : ∀ a, (z a).val = off a + (y a).val) : View.ld X (Rect.unit off size inb) y = X z := by
  show X ((Rect.unit off size inb).idx y) = X z
  refine congrArg X (funext fun a => Fin.ext ?_)
  rw [h a]
  show off a + 1 * (y a).val = off a + (y a).val
  omega

/-- The constituent block: layer 1's payload over layer 0's, each over its rows of the adjacency block and tables. -/
theorem out13_eq (c : Dev nD) (i : grid0.Coords) (arg1 : Memref sig .tc .vmem S1x512x256 .f32) (harg1 : arg1.IsWhole) (arg2 : Memref sig .tc .vmem S2x1x512x512 .i32) (harg2 : arg2.IsWhole) (arg3 : Memref sig .tc .vmem S1x512x512 .i32) (harg3 : arg3.IsWhole) (arg4 : Memref sig .tc .vmem S1x512x512 .f32) (harg4 : arg4.IsWhole) (arg5 : Memref sig .tc .vmem S1x512x512 .i32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S2x256x256 .f32) (harg8 : arg8.IsWhole) (arg9 : Memref sig .tc .vmem S2x256 .f32) (harg9 : arg9.IsWhole) (arg10 : Memref sig .tc .vmem S2x256x256 .f32) (harg10 : arg10.IsWhole) (arg11 : Memref sig .tc .vmem S2x256 .f32) (harg11 : arg11.IsWhole) (arg12 : Memref sig .tc .vmem S9x256x256 .f32) (harg12 : arg12.IsWhole) (arg13 : Memref sig .tc .vmem S9x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (x0 : Vec F S1x512x256 .f32) (x1 : Vec F S2x1x512x512 .i32) (x2 : Vec F S1x512x512 .i32) (x3 : Vec F S1x512x512 .f32) (x4 : Vec F S1x512x512 .i32) (x5 : Vec F S2x256x256 .f32) (x6 : Vec F S2x256 .f32) (x7 : Vec F S2x256x256 .f32) (x8 : Vec F S2x256 .f32) (x9 : Vec F S2x256x256 .f32) (x10 : Vec F S2x256 .f32) (x11 : Vec F S9x256x256 .f32) (x12 : Vec F S9x256 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12
      = k0_pay5
          (k0_pay4 x0 (View.ld x1 (Rect.unit ![0, 0, 0, 0] S1x1x512x512.size inb_S2x1x512x512_S1x1x512x512_0_0_0_0))
            (View.ld x5 (Rect.unit ![0, 0, 0] S1x256x256.size inb_S2x256x256_S1x256x256_0_0_0))
            (View.ld x6 (Rect.unit ![0, 0] S1x256.size inb_S2x256_S1x256_0_0)))
          (View.ld x1 (Rect.unit ![1, 0, 0, 0] S1x1x512x512.size inb_S2x1x512x512_S1x1x512x512_1_0_0_0))
          (View.ld x5 (Rect.unit ![1, 0, 0] S1x256x256.size inb_S2x256x256_S1x256x256_1_0_0))
          (View.ld x6 (Rect.unit ![1, 0] S1x256.size inb_S2x256_S1x256_1_0)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12)]
  unfold kernelRun0_A
  dsimp only
  sl_unfold_words
  rw [View.canon_unit_zero hz3]
  simp only [View.readAt_eq_ld, harg1.read_unread, harg2.read_unread, harg6.read_unread, harg7.read_unread, View.ld_unit_zero (S := S1x512x256) hz3]

/-- The dependency block: the value carried out of the first loop, started from the batch's features. -/
theorem out14_eq (c : Dev nD) (i : grid0.Coords) (arg1 : Memref sig .tc .vmem S1x512x256 .f32) (harg1 : arg1.IsWhole) (arg2 : Memref sig .tc .vmem S2x1x512x512 .i32) (harg2 : arg2.IsWhole) (arg3 : Memref sig .tc .vmem S1x512x512 .i32) (harg3 : arg3.IsWhole) (arg4 : Memref sig .tc .vmem S1x512x512 .f32) (harg4 : arg4.IsWhole) (arg5 : Memref sig .tc .vmem S1x512x512 .i32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S2x256x256 .f32) (harg8 : arg8.IsWhole) (arg9 : Memref sig .tc .vmem S2x256 .f32) (harg9 : arg9.IsWhole) (arg10 : Memref sig .tc .vmem S2x256x256 .f32) (harg10 : arg10.IsWhole) (arg11 : Memref sig .tc .vmem S2x256 .f32) (harg11 : arg11.IsWhole) (arg12 : Memref sig .tc .vmem S9x256x256 .f32) (harg12 : arg12.IsWhole) (arg13 : Memref sig .tc .vmem S9x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (x0 : Vec F S1x512x256 .f32) (x1 : Vec F S2x1x512x512 .i32) (x2 : Vec F S1x512x512 .i32) (x3 : Vec F S1x512x512 .f32) (x4 : Vec F S1x512x512 .i32) (x5 : Vec F S2x256x256 .f32) (x6 : Vec F S2x256 .f32) (x7 : Vec F S2x256x256 .f32) (x8 : Vec F S2x256 .f32) (x9 : Vec F S2x256x256 .f32) (x10 : Vec F S2x256 .f32) (x11 : Vec F S9x256x256 .f32) (x12 : Vec F S9x256 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12
      = k0_pay7 (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay3 x0) x2 (harg8.unread x7) (harg9.unread x8)
          (k0_pay3 x0) k0_t1_loop.trips) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12)]
  unfold kernelRun0_A
  dsimp only
  sl_unfold_words
  rw [View.canon_unit_zero hz3]
  simp only [View.readAt_eq_ld, harg1.read_unread, harg3.read_unread, View.ld_unit_zero (S := S1x512x256) hz3, View.ld_unit_zero (S := S1x512x512) hz3]

/-- The semantic block: the value carried out of the second loop. -/
theorem out15_eq (c : Dev nD) (i : grid0.Coords) (arg1 : Memref sig .tc .vmem S1x512x256 .f32) (harg1 : arg1.IsWhole) (arg2 : Memref sig .tc .vmem S2x1x512x512 .i32) (harg2 : arg2.IsWhole) (arg3 : Memref sig .tc .vmem S1x512x512 .i32) (harg3 : arg3.IsWhole) (arg4 : Memref sig .tc .vmem S1x512x512 .f32) (harg4 : arg4.IsWhole) (arg5 : Memref sig .tc .vmem S1x512x512 .i32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S2x256x256 .f32) (harg8 : arg8.IsWhole) (arg9 : Memref sig .tc .vmem S2x256 .f32) (harg9 : arg9.IsWhole) (arg10 : Memref sig .tc .vmem S2x256x256 .f32) (harg10 : arg10.IsWhole) (arg11 : Memref sig .tc .vmem S2x256 .f32) (harg11 : arg11.IsWhole) (arg12 : Memref sig .tc .vmem S9x256x256 .f32) (harg12 : arg12.IsWhole) (arg13 : Memref sig .tc .vmem S9x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (x0 : Vec F S1x512x256 .f32) (x1 : Vec F S2x1x512x512 .i32) (x2 : Vec F S1x512x512 .i32) (x3 : Vec F S1x512x512 .f32) (x4 : Vec F S1x512x512 .i32) (x5 : Vec F S2x256x256 .f32) (x6 : Vec F S2x256 .f32) (x7 : Vec F S2x256x256 .f32) (x8 : Vec F S2x256 .f32) (x9 : Vec F S2x256x256 .f32) (x10 : Vec F S2x256 .f32) (x11 : Vec F S9x256x256 .f32) (x12 : Vec F S9x256 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12
      = k0_pay9 (st_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay3 x0) x3 (harg10.unread x9) (harg11.unread x10)
          (k0_pay3 x0) k0_t2_loop.trips) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12)]
  unfold kernelRun0_A
  dsimp only
  sl_unfold_words
  rw [View.canon_unit_zero hz3]
  simp only [View.readAt_eq_ld, harg1.read_unread, harg4.read_unread, View.ld_unit_zero (S := S1x512x256) hz3, View.ld_unit_zero (S := S1x512x512) hz3]

/-- The abstract-meaning block: the value carried out of the third loop, whose adjacency and divisor are computed once
    before the loop. -/
theorem out16_eq (c : Dev nD) (i : grid0.Coords) (arg1 : Memref sig .tc .vmem S1x512x256 .f32) (harg1 : arg1.IsWhole) (arg2 : Memref sig .tc .vmem S2x1x512x512 .i32) (harg2 : arg2.IsWhole) (arg3 : Memref sig .tc .vmem S1x512x512 .i32) (harg3 : arg3.IsWhole) (arg4 : Memref sig .tc .vmem S1x512x512 .f32) (harg4 : arg4.IsWhole) (arg5 : Memref sig .tc .vmem S1x512x512 .i32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S2x256x256 .f32) (harg8 : arg8.IsWhole) (arg9 : Memref sig .tc .vmem S2x256 .f32) (harg9 : arg9.IsWhole) (arg10 : Memref sig .tc .vmem S2x256x256 .f32) (harg10 : arg10.IsWhole) (arg11 : Memref sig .tc .vmem S2x256 .f32) (harg11 : arg11.IsWhole) (arg12 : Memref sig .tc .vmem S9x256x256 .f32) (harg12 : arg12.IsWhole) (arg13 : Memref sig .tc .vmem S9x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (x0 : Vec F S1x512x256 .f32) (x1 : Vec F S2x1x512x512 .i32) (x2 : Vec F S1x512x512 .i32) (x3 : Vec F S1x512x512 .f32) (x4 : Vec F S1x512x512 .i32) (x5 : Vec F S2x256x256 .f32) (x6 : Vec F S2x256 .f32) (x7 : Vec F S2x256x256 .f32) (x8 : Vec F S2x256 .f32) (x9 : Vec F S2x256x256 .f32) (x10 : Vec F S2x256 .f32) (x11 : Vec F S9x256x256 .f32) (x12 : Vec F S9x256 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12
      = k0_pay2 (st_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay10 x4) (k0_pay11 x4) (harg12.unread x11) (harg13.unread x12)
          (k0_pay3 x0) k0_t3_loop.trips) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12)]
  unfold kernelRun0_A
  dsimp only
  sl_unfold_words
  rw [View.canon_unit_zero hz3]
  simp only [View.readAt_eq_ld, harg1.read_unread, harg5.read_unread, View.ld_unit_zero (S := S1x512x256) hz3, View.ld_unit_zero (S := S1x512x512) hz3]

/-- One trip of the first loop is one layer's payload over row `k` of the dependency tables. -/
theorem trip1_eq (𝒱 : Variants) (c : Dev nD) (bd : Option 𝒱.V) (i : grid0.Coords) (arg1 : Memref sig .tc .vmem S1x512x256 .f32) (harg1 : arg1.IsWhole) (arg2 : Memref sig .tc .vmem S2x1x512x512 .i32) (harg2 : arg2.IsWhole) (arg3 : Memref sig .tc .vmem S1x512x512 .i32) (harg3 : arg3.IsWhole) (arg4 : Memref sig .tc .vmem S1x512x512 .f32) (harg4 : arg4.IsWhole) (arg5 : Memref sig .tc .vmem S1x512x512 .i32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S2x256x256 .f32) (harg8 : arg8.IsWhole) (arg9 : Memref sig .tc .vmem S2x256 .f32) (harg9 : arg9.IsWhole) (arg10 : Memref sig .tc .vmem S2x256x256 .f32) (harg10 : arg10.IsWhole) (arg11 : Memref sig .tc .vmem S2x256 .f32) (harg11 : arg11.IsWhole) (arg12 : Memref sig .tc .vmem S9x256x256 .f32) (harg12 : arg12.IsWhole) (arg13 : Memref sig .tc .vmem S9x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (v1 : FVec F S512x256 .f32) (v77 : Vec F S1x512x512 .i32) (X_arg8 : BufTy.Contents (Elt F) arg8.view.ty) (X_arg9 : BufTy.Contents (Elt F) arg9.view.ty) (k : Fin k0_t1_loop.trips) (acc : FVec F S512x256 .f32) :
    tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v77 X_arg8 X_arg9 k acc
      = k0_pay6 v77 acc
          (View.readAt (Elt F) arg8.view (Rect.unit (s := S2x256x256) (k0_off1 k) S1x256x256.size (k0_off1_inb k)).toLoadRect X_arg8)
          (View.readAt (Elt F) arg9.view (Rect.unit (s := S2x256) (k0_off2 k) S1x256.size (k0_off2_inb k)).toLoadRect X_arg9) := by
  unfold tripR_k0_t1 trip_k0_t1
  rfl

/-- One trip of the second loop, over row `k` of the semantic tables. -/
theorem trip2_eq (𝒱 : Variants) (c : Dev nD) (bd : Option 𝒱.V) (i : grid0.Coords) (arg1 : Memref sig .tc .vmem S1x512x256 .f32) (harg1 : arg1.IsWhole) (arg2 : Memref sig .tc .vmem S2x1x512x512 .i32) (harg2 : arg2.IsWhole) (arg3 : Memref sig .tc .vmem S1x512x512 .i32) (harg3 : arg3.IsWhole) (arg4 : Memref sig .tc .vmem S1x512x512 .f32) (harg4 : arg4.IsWhole) (arg5 : Memref sig .tc .vmem S1x512x512 .i32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S2x256x256 .f32) (harg8 : arg8.IsWhole) (arg9 : Memref sig .tc .vmem S2x256 .f32) (harg9 : arg9.IsWhole) (arg10 : Memref sig .tc .vmem S2x256x256 .f32) (harg10 : arg10.IsWhole) (arg11 : Memref sig .tc .vmem S2x256 .f32) (harg11 : arg11.IsWhole) (arg12 : Memref sig .tc .vmem S9x256x256 .f32) (harg12 : arg12.IsWhole) (arg13 : Memref sig .tc .vmem S9x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (v1 : FVec F S512x256 .f32) (v89 : Vec F S1x512x512 .f32) (X_arg10 : BufTy.Contents (Elt F) arg10.view.ty) (X_arg11 : BufTy.Contents (Elt F) arg11.view.ty) (k : Fin k0_t2_loop.trips) (acc : FVec F S512x256 .f32) :
    tripR_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v89 X_arg10 X_arg11 k acc
      = k0_pay8 v89 acc
          (View.readAt (Elt F) arg10.view (Rect.unit (s := S2x256x256) (k0_off3 k) S1x256x256.size (k0_off3_inb k)).toLoadRect X_arg10)
          (View.readAt (Elt F) arg11.view (Rect.unit (s := S2x256) (k0_off4 k) S1x256.size (k0_off4_inb k)).toLoadRect X_arg11) := by
  unfold tripR_k0_t2 trip_k0_t2
  rfl

/-- One trip of the third loop, over row `k` of the abstract-meaning tables, with the adjacency and divisor it is given. -/
theorem trip3_eq (𝒱 : Variants) (c : Dev nD) (bd : Option 𝒱.V) (i : grid0.Coords) (arg1 : Memref sig .tc .vmem S1x512x256 .f32) (harg1 : arg1.IsWhole) (arg2 : Memref sig .tc .vmem S2x1x512x512 .i32) (harg2 : arg2.IsWhole) (arg3 : Memref sig .tc .vmem S1x512x512 .i32) (harg3 : arg3.IsWhole) (arg4 : Memref sig .tc .vmem S1x512x512 .f32) (harg4 : arg4.IsWhole) (arg5 : Memref sig .tc .vmem S1x512x512 .i32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S2x256x256 .f32) (harg8 : arg8.IsWhole) (arg9 : Memref sig .tc .vmem S2x256 .f32) (harg9 : arg9.IsWhole) (arg10 : Memref sig .tc .vmem S2x256x256 .f32) (harg10 : arg10.IsWhole) (arg11 : Memref sig .tc .vmem S2x256 .f32) (harg11 : arg11.IsWhole) (arg12 : Memref sig .tc .vmem S9x256x256 .f32) (harg12 : arg12.IsWhole) (arg13 : Memref sig .tc .vmem S9x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (v102 : FVec F S512x512 .f32) (v106 : FVec F S512x1 .f32) (X_arg12 : BufTy.Contents (Elt F) arg12.view.ty) (X_arg13 : BufTy.Contents (Elt F) arg13.view.ty) (k : Fin k0_t3_loop.trips) (acc : FVec F S512x256 .f32) :
    tripR_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v102 v106 X_arg12 X_arg13 k acc
      = k0_pay1 v102 v106 acc
          (View.readAt (Elt F) arg12.view (Rect.unit (s := S9x256x256) (k0_off5 k) S1x256x256.size (k0_off5_inb k)).toLoadRect X_arg12)
          (View.readAt (Elt F) arg13.view (Rect.unit (s := S9x256) (k0_off6 k) S1x256.size (k0_off6_inb k)).toLoadRect X_arg13) := by
  unfold tripR_k0_t3 trip_k0_t3
  rfl

end Cert.KernelIdeal.KerValue

end
-- ==== Proof.GcnLayer.lean ====
/-
  One graph-convolution layer on the extended reals, and a stack of such layers, over abstract finite index types
  (`ι` the nodes of one graph, `κ` the feature columns).

  A layer takes node features `x : ι → κ → EReal`, adjacency weights `A : ι → ι → EReal`, a divisor per node `den`, a
  square weight matrix `W` and a bias `b`. Node `i` first aggregates its neighbours, `(A x) i d = ∑ j, A i j * x j d`;
  the aggregate and the node's own features both go through the same dense layer `y ↦ y Wᵀ + b`; the two results are
  added, the sum is divided by the node's divisor, and the quotient is clipped below at zero. The divisor used throughout
  is the node's row sum of adjacency weights plus one. Nothing here needs finiteness: the two programs compared compute
  this same expression, sum for sum, and differ only in how the sums are scheduled.
-/
import Idealize.ShloMosaic.PureOps.Ideal

noncomputable section

open scoped BigOperators

namespace Cert.Gcn

open Idealize.ShloMosaic

variable {ι κ : Type} [Fintype ι] [Fintype κ]

/-- The f32 words of 1.0 and of 0.0 as extended reals. Both programs carry exactly these words, so they are never evaluated. -/
abbrev one32 : EReal := Ideal.ofBits .f32 0x3F800000#32
abbrev zero32 : EReal := Ideal.ofBits .f32 0x00000000#32

/-- A node's divisor: its row sum of adjacency weights, plus one. -/
def rowDen (A : ι → ι → EReal) : ι → EReal := fun i => (∑ j, A i j) + one32

/-- One layer at node `i`, output column `o`:
    `max (((∑ d, (A x) i d * W o d) + b o) + ((∑ d, x i d * W o d) + b o)) / den i) 0`. -/
def layer (A : ι → ι → EReal) (den : ι → EReal) (W : κ → κ → EReal) (b : κ → EReal) (x : ι → κ → EReal) :
    ι → κ → EReal := fun i o =>
  max (Ideal.div (((∑ d, (∑ j, A i j * x j d) * W o d) + b o) + ((∑ d, x i d * W o d) + b o)) (den i)) zero32

/-- `n` layers over one adjacency and divisor, layer `k` (counted from 0) with weights `W k` and bias `b k`, applied in
    order: the first `n` layers' result feeds layer `n`. -/
def stack (A : ι → ι → EReal) (den : ι → EReal) (W : ℕ → κ → κ → EReal) (b : ℕ → κ → EReal) :
    ℕ → (ι → κ → EReal) → ι → κ → EReal
  | 0, x => x
  | n + 1, x => layer A den (W n) (b n) (stack A den W b n x)

theorem stack_zero (A : ι → ι → EReal) (den : ι → EReal) (W : ℕ → κ → κ → EReal) (b : ℕ → κ → EReal)
    (x : ι → κ → EReal) : stack A den W b 0 x = x := rfl

theorem stack_succ (A : ι → ι → EReal) (den : ι → EReal) (W : ℕ → κ → κ → EReal) (b : ℕ → κ → EReal) (n : ℕ)
    (x : ι → κ → EReal) : stack A den W b (n + 1) x = layer A den (W n) (b n) (stack A den W b n x) := rfl

end Cert.Gcn

end
-- ==== Proof.GcnSpec.lean ====
/-
  The four results of the encoder as functions of the argument arrays, entry by entry.

  The arrays: features `X` [32, 512, 256] (batch, node, column); the constituent adjacency words `C` [2, 32, 512, 512]
  (layer, batch, node, node), used through the indicator "the word is not zero"; the dependency and the abstract-meaning
  adjacency words [32, 512, 512], used as the signed integers they spell; the semantic adjacency [32, 512, 512], already
  real; and per branch a table of weight matrices [L, 256, 256] and of biases [L, 256], layer `k` using row `k`.
  Every batch is one graph and is treated alone: batch `p` of a result depends on batch `p` of the arrays only.
  The constituent branch has two layers, each with its own adjacency (and so its own divisor); the other three branches
  stack `L` layers over one adjacency, all starting from the same features.
-/
import proofs.«128254_j60155311947910_1_alg».proof.Proof.GcnLayer
import Idealize.ShloMosaic.Lib.ValueIdx

noncomputable section

open scoped BigOperators

namespace Cert.Gcn

open Idealize.ShloMosaic Idealize.ShloMosaic.ValueIdx

/-- The indicator of a nonzero 32-bit word, as an extended real: 1 when the word is not zero, else 0. -/
def nz (w : BitVec 32) : EReal := FloatOps.uitofp (F := Ideal) .f32 (IntOp.cmpi .ne w 0#32)

/-- A 32-bit word read as the signed integer it spells. -/
def sgn (w : BitVec 32) : EReal := FloatOps.sitofp (F := Ideal) .f32 w

/-- Row `n` of a table of `L` weight matrices (zero past the table: never used). -/
def wTab {L : ℕ} (W : (⟨3, ![L, 256, 256]⟩ : Shape).Idx → EReal) : ℕ → Fin 256 → Fin 256 → EReal :=
  fun n o d => if h : n < L then W (ix3 ⟨n, h⟩ o d) else 0

/-- Row `n` of a table of `L` bias vectors (zero past the table: never used). -/
def bTab {L : ℕ} (b : (⟨2, ![L, 256]⟩ : Shape).Idx → EReal) : ℕ → Fin 256 → EReal :=
  fun n o => if h : n < L then b (ix2 ⟨n, h⟩ o) else 0

/-- Batch `p` of the features as a node-by-column matrix. -/
def feat (X : (⟨3, ![32, 512, 256]⟩ : Shape).Idx → EReal) (p : Fin 32) : Fin 512 → Fin 256 → EReal :=
  fun i d => X (ix3 p i d)

/-- Batch `p` of a real adjacency as a node-by-node matrix. -/
def adjOf (A : (⟨3, ![32, 512, 512]⟩ : Shape).Idx → EReal) (p : Fin 32) : Fin 512 → Fin 512 → EReal :=
  fun i j => A (ix3 p i j)

/-- Layer `l`, batch `p` of the constituent adjacency: the indicator of a nonzero word. -/
def conAdj (C : (⟨4, ![2, 32, 512, 512]⟩ : Shape).Idx → BitVec 32) (l : Fin 2) (p : Fin 32) : Fin 512 → Fin 512 → EReal :=
  fun i j => nz (C (ix4 l p i j))

/-- The constituent branch at batch `p`, node `i`, column `o`: two layers, each over its own adjacency. -/
def conG (X : (⟨3, ![32, 512, 256]⟩ : Shape).Idx → EReal) (C : (⟨4, ![2, 32, 512, 512]⟩ : Shape).Idx → BitVec 32)
    (W : (⟨3, ![2, 256, 256]⟩ : Shape).Idx → EReal) (b : (⟨2, ![2, 256]⟩ : Shape).Idx → EReal)
    (p : Fin 32) (i : Fin 512) (o : Fin 256) : EReal :=
  layer (conAdj C 1 p) (rowDen (conAdj C 1 p)) (wTab W 1) (bTab b 1)
    (layer (conAdj C 0 p) (rowDen (conAdj C 0 p)) (wTab W 0) (bTab b 0) (feat X p)) i o

/-- A branch of `L` stacked layers over one real adjacency `A`, at batch `p`, node `i`, column `o`. -/
def stackG {L : ℕ} (X : (⟨3, ![32, 512, 256]⟩ : Shape).Idx → EReal) (A : (⟨3, ![32, 512, 512]⟩ : Shape).Idx → EReal)
    (W : (⟨3, ![L, 256, 256]⟩ : Shape).Idx → EReal) (b : (⟨2, ![L, 256]⟩ : Shape).Idx → EReal)
    (p : Fin 32) (i : Fin 512) (o : Fin 256) : EReal :=
  stack (adjOf A p) (rowDen (adjOf A p)) (wTab W) (bTab b) L (feat X p) i o

/-- The four result arrays, as functions of an index of [32, 512, 256]. -/
def conArr (X : (⟨3, ![32, 512, 256]⟩ : Shape).Idx → EReal) (C : (⟨4, ![2, 32, 512, 512]⟩ : Shape).Idx → BitVec 32)
    (W : (⟨3, ![2, 256, 256]⟩ : Shape).Idx → EReal) (b : (⟨2, ![2, 256]⟩ : Shape).Idx → EReal) :
    (⟨3, ![32, 512, 256]⟩ : Shape).Idx → EReal := fun idx => conG X C W b (idx 0) (idx 1) (idx 2)

/-- A stacked branch over an adjacency of words read as signed integers (the dependency and abstract-meaning branches). -/
def intArr {L : ℕ} (X : (⟨3, ![32, 512, 256]⟩ : Shape).Idx → EReal) (D : (⟨3, ![32, 512, 512]⟩ : Shape).Idx → BitVec 32)
    (W : (⟨3, ![L, 256, 256]⟩ : Shape).Idx → EReal) (b : (⟨2, ![L, 256]⟩ : Shape).Idx → EReal) :
    (⟨3, ![32, 512, 256]⟩ : Shape).Idx → EReal := fun idx => stackG X (fun a => sgn (D a)) W b (idx 0) (idx 1) (idx 2)

/-- A stacked branch over a real adjacency (the semantic branch). -/
def realArr {L : ℕ} (X : (⟨3, ![32, 512, 256]⟩ : Shape).Idx → EReal) (A : (⟨3, ![32, 512, 512]⟩ : Shape).Idx → EReal)
    (W : (⟨3, ![L, 256, 256]⟩ : Shape).Idx → EReal) (b : (⟨2, ![L, 256]⟩ : Shape).Idx → EReal) :
    (⟨3, ![32, 512, 256]⟩ : Shape).Idx → EReal := fun idx => stackG X A W b (idx 0) (idx 1) (idx 2)

theorem conArr_ix3 (X : (⟨3, ![32, 512, 256]⟩ : Shape).Idx → EReal) (C : (⟨4, ![2, 32, 512, 512]⟩ : Shape).Idx → BitVec 32)
    (W : (⟨3, ![2, 256, 256]⟩ : Shape).Idx → EReal) (b : (⟨2, ![2, 256]⟩ : Shape).Idx → EReal)
    (p : Fin 32) (i : Fin 512) (o : Fin 256) : conArr X C W b (ix3 p i o) = conG X C W b p i o := rfl

theorem intArr_ix3 {L : ℕ} (X : (⟨3, ![32, 512, 256]⟩ : Shape).Idx → EReal) (D : (⟨3, ![32, 512, 512]⟩ : Shape).Idx → BitVec 32)
    (W : (⟨3, ![L, 256, 256]⟩ : Shape).Idx → EReal) (b : (⟨2, ![L, 256]⟩ : Shape).Idx → EReal)
    (p : Fin 32) (i : Fin 512) (o : Fin 256) :
    intArr X D W b (ix3 p i o) = stackG X (fun a => sgn (D a)) W b p i o := rfl

theorem realArr_ix3 {L : ℕ} (X : (⟨3, ![32, 512, 256]⟩ : Shape).Idx → EReal) (A : (⟨3, ![32, 512, 512]⟩ : Shape).Idx → EReal)
    (W : (⟨3, ![L, 256, 256]⟩ : Shape).Idx → EReal) (b : (⟨2, ![L, 256]⟩ : Shape).Idx → EReal)
    (p : Fin 32) (i : Fin 512) (o : Fin 256) : realArr X A W b (ix3 p i o) = stackG X A W b p i o := rfl

end Cert.Gcn

end
-- ==== Proof.KerLayer.lean ====
/-
  The kernel body's payload terms, each read at one entry, as the abstract graph-convolution layer.

  Five of the payloads are one layer each and share their whole tail: from an adjacency `a` [512, 512], a divisor column
  `den` [512, 1], features `x` [512, 256], a weight block [1, 256, 256] and a bias block [1, 256] they form
  `max (((a x) Wᵀ + b) + (x Wᵀ + b)) / den) 0`. They differ only in where the adjacency and the divisor come from: the
  indicator of a nonzero word, a word read as a signed integer, a real entry, or values carried from before a loop; the
  divisor, where it is computed, is the adjacency's row sum plus 1.0. Read at entry `(i, o)`, each matrix product into a zero
  accumulator is the plain sum over its contracted axis, the narrowing format changes are the identity on the extended
  reals, the weights enter transposed, the bias is laid along every row and the divisor along every column; what is left is
  `Cert.Gcn.layer` of the operands' entries, sum for sum. The remaining payloads only add or drop a leading unit axis, or are
  the signed adjacency and its divisor by themselves.

  The constituent layers turn the comparison bit into a real by widening it to 32 bits and reading that signed, where the
  specification's indicator reads the bit unsigned: on a one-bit word both give 0 or 1.
-/
import proofs.«128254_j60155311947910_1_alg».proof.Proof.Gen.KernelIdeal.Skeleton
import proofs.«128254_j60155311947910_1_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerLayer

open Idealize.ShloMosaic Idealize.ShloMosaic.ValueIdx Cert.KernelIdeal Cert.KernelIdeal.Gen Cert.Gcn

/-! ## Layout operations not in the library, read at an index given by coordinates -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

end Layout

/-! ## The sum along a row -/

/-- The sum over axis 1 of a `[512, 512]` array from the zero word, read at row `i`: the sum of that row. -/
theorem rowSum_apply (a : FVec Ideal S512x512 .f32) (h : S512x512.Reduces [1] S512) (hφ : FKind.Formats .f32)
    (hacc : (0x00000000#32 : BitVec 32) = FKind.add.neutral .f32 hφ) (i : Fin 512) :
    multiReduction (F := Ideal) .add [1] S512 a 0x00000000#32 h hφ hacc (ix1 i) = ∑ j : Fin 512, a (ix2 i j) := by
  refine (Ideal.multiReduction_add_single a 0x00000000#32 h hφ hacc (ix1 i)).trans ?_
  refine Finset.sum_congr rfl fun k _ => congrArg a ?_
  funext c
  refine Fin.ext ?_
  match c with
  | ⟨0, _⟩ => rfl
  | ⟨1, _⟩ => rfl

/-! ## The two matrix products, read at an entry -/

theorem lhsA_0 (j : S512x256.Idx) (q : dot_S512x512_S512x256_S512x256_1_0_0_1_n_n.contr.Idx) : (dot_S512x512_S512x256_S512x256_1_0_0_1_n_n.lhsIdx j q 0).val = (j 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhsA_1 (j : S512x256.Idx) (q : dot_S512x512_S512x256_S512x256_1_0_0_1_n_n.contr.Idx) : (dot_S512x512_S512x256_S512x256_1_0_0_1_n_n.lhsIdx j q 1).val = (q ⟨0, by decide⟩).val :=
  dot_S512x512_S512x256_S512x256_1_0_0_1_n_n.lhsIdx_val_of_single rfl j q
theorem rhsA_0 (j : S512x256.Idx) (q : dot_S512x512_S512x256_S512x256_1_0_0_1_n_n.contr.Idx) : (dot_S512x512_S512x256_S512x256_1_0_0_1_n_n.rhsIdx j q 0).val = (q ⟨0, by decide⟩).val :=
  dot_S512x512_S512x256_S512x256_1_0_0_1_n_n.rhsIdx_val_of_single rfl j q
theorem rhsA_1 (j : S512x256.Idx) (q : dot_S512x512_S512x256_S512x256_1_0_0_1_n_n.contr.Idx) : (dot_S512x512_S512x256_S512x256_1_0_0_1_n_n.rhsIdx j q 1).val = (j 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- `[512, 512] · [512, 256]` into a zero accumulator, at `(i, d)`: the sum over the contracted node `j`. -/
theorem matmulA_apply {φ₁ φ₂ : FTy} (L : FVec Ideal S512x512 φ₁) (R : FVec Ideal S512x256 φ₂) (i : Fin 512) (d : Fin 256) :
    matmul dot_S512x512_S512x256_S512x256_1_0_0_1_n_n none L R (constant (F := Ideal) S512x256 .f32 0x00000000#32) (ix2 i d)
      = ∑ j : Fin 512, L (ix2 i j) * R (ix2 j d) := by
  show FloatOps.matmul dot_S512x512_S512x256_S512x256_1_0_0_1_n_n none L R (constant (F := Ideal) S512x256 .f32 0x00000000#32) (ix2 i d) = _
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 i d) ((contrEquiv1 dot_S512x512_S512x256_S512x256_1_0_0_1_n_n 512 rfl rfl).symm k) = ix2 i k :=
    funext fun a => Fin.ext (by
      match a with
      | ⟨0, _⟩ => exact lhsA_0 _ _
      | ⟨1, _⟩ => exact (lhsA_1 _ _).trans hk)
  have er : dot_S512x512_S512x256_S512x256_1_0_0_1_n_n.rhsIdx (ix2 i d) ((contrEquiv1 dot_S512x512_S512x256_S512x256_1_0_0_1_n_n 512 rfl rfl).symm k) = ix2 k d :=
    funext fun a => Fin.ext (by
      match a with
      | ⟨0, _⟩ => exact (rhsA_0 _ _).trans hk
      | ⟨1, _⟩ => exact rhsA_1 _ _)
  rw [el, er]

theorem lhsB_0 (j : S512x256.Idx) (q : dot_S512x256_S256x256_S512x256_1_0_0_1_n_n.contr.Idx) : (dot_S512x256_S256x256_S512x256_1_0_0_1_n_n.lhsIdx j q 0).val = (j 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhsB_1 (j : S512x256.Idx) (q : dot_S512x256_S256x256_S512x256_1_0_0_1_n_n.contr.Idx) : (dot_S512x256_S256x256_S512x256_1_0_0_1_n_n.lhsIdx j q 1).val = (q ⟨0, by decide⟩).val :=
  dot_S512x256_S256x256_S512x256_1_0_0_1_n_n.lhsIdx_val_of_single rfl j q
theorem rhsB_0 (j : S512x256.Idx) (q : dot_S512x256_S256x256_S512x256_1_0_0_1_n_n.contr.Idx) : (dot_S512x256_S256x256_S512x256_1_0_0_1_n_n.rhsIdx j q 0).val = (q ⟨0, by decide⟩).val :=
  dot_S512x256_S256x256_S512x256_1_0_0_1_n_n.rhsIdx_val_of_single rfl j q
theorem rhsB_1 (j : S512x256.Idx) (q : dot_S512x256_S256x256_S512x256_1_0_0_1_n_n.contr.Idx) : (dot_S512x256_S256x256_S512x256_1_0_0_1_n_n.rhsIdx j q 1).val = (j 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- `[512, 256] · [256, 256]` into a zero accumulator, at `(i, o)`: the sum over the contracted column `d`. -/
theorem matmulB_apply {φ₁ φ₂ : FTy} (L : FVec Ideal S512x256 φ₁) (R : FVec Ideal S256x256 φ₂) (i : Fin 512) (o : Fin 256) :
    matmul dot_S512x256_S256x256_S512x256_1_0_0_1_n_n none L R (constant (F := Ideal) S512x256 .f32 0x00000000#32) (ix2 i o)
      = ∑ d : Fin 256, L (ix2 i d) * R (ix2 d o) := by
  show FloatOps.matmul dot_S512x256_S256x256_S512x256_1_0_0_1_n_n none L R (constant (F := Ideal) S512x256 .f32 0x00000000#32) (ix2 i o) = _
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 i o) ((contrEquiv1 dot_S512x256_S256x256_S512x256_1_0_0_1_n_n 256 rfl rfl).symm k) = ix2 i k :=
    funext fun a => Fin.ext (by
      match a with
      | ⟨0, _⟩ => exact lhsB_0 _ _
      | ⟨1, _⟩ => exact (lhsB_1 _ _).trans hk)
  have er : dot_S512x256_S256x256_S512x256_1_0_0_1_n_n.rhsIdx (ix2 i o) ((contrEquiv1 dot_S512x256_S256x256_S512x256_1_0_0_1_n_n 256 rfl rfl).symm k) = ix2 k o :=
    funext fun a => Fin.ext (by
      match a with
      | ⟨0, _⟩ => exact (rhsB_0 _ _).trans hk
      | ⟨1, _⟩ => exact rhsB_1 _ _)
  rw [el, er]

/-! ## The weights, the bias, the adjacencies and the divisor, as one entry of a layer reads them -/

/-- The transposed weight block at `(d, o)` is the loaded table's entry `(0, o, d)`. -/
theorem wT_apply (Wl : Vec Ideal S1x256x256 .f32) (h1 : S1x256x256.ShapeCasts S256x256) (hb : FTy.bits .bf16 < FTy.bits .f32)
    (ht : S256x256.Transposes [1, 0] S256x256) (d o : Fin 256) :
    transpose S256x256 [1, 0] (truncf (F := Ideal) .bf16 (shapeCast S256x256 Wl h1) hb) ht (ix2 d o) = Wl (ix3 0 o d) :=
  (transpose_ix2_apply (truncf (F := Ideal) .bf16 (shapeCast S256x256 Wl h1) hb) ht d o).trans
    (shapeCast_1ab_ab_apply Wl h1 o d)

/-- The bias laid along every row, at `(i, o)`, is the loaded table's entry `(0, o)`. -/
theorem biasRow_apply (bl : Vec Ideal S1x256 .f32) (h1 : S1x256.ShapeCasts S256) (h2 : S256.ShapeCasts S1x256)
    (h3 : S1x256.Broadcasts S512x256) (i : Fin 512) (o : Fin 256) :
    broadcastTo S512x256 (shapeCast S1x256 (shapeCast S256 bl h1) h2) h3 (ix2 i o) = bl (ix2 0 o) :=
  (broadcastTo_1b_ab_apply _ h3 i o).trans ((shapeCast_a_1a_apply _ h2 0 o).trans (shapeCast_1a_a_apply bl h1 o))

/-- A one-bit word widened to 32 bits and read signed is the word read unsigned: both are 0 or 1. -/
theorem sitofp_setWidth_bit (b : BitVec 1) :
    FloatOps.sitofp (F := Ideal) .f32 (b.setWidth 32) = FloatOps.uitofp (F := Ideal) .f32 b := by
  have hb : (b.setWidth 32).toInt = (b.toNat : ℤ) := by
    rcases BitVec.eq_zero_or_eq_one b with rfl | rfl <;> decide
  show (((b.setWidth 32).toInt : ℝ) : EReal) = ((b.toNat : ℝ) : EReal)
  rw [hb, Int.cast_natCast]

/-- The constituent adjacency at `(i, j)`: the indicator that the loaded word `(0, 0, i, j)` is not zero. -/
theorem nzAdj_apply (v2 : Vec Ideal S1x1x512x512 .i32) (h : S1x1x512x512.ShapeCasts S512x512) (hw : 1 < 32) (i j : Fin 512) :
    sitofp (F := Ideal) .f32 (extui 32 (cmpi .ne (shapeCast S512x512 v2 h) (broadcast S512x512 0#32)) hw) (ix2 i j)
      = nz (v2 (ix4 0 0 i j)) := by
  show FloatOps.sitofp (F := Ideal) .f32 ((IntOp.cmpi .ne (shapeCast S512x512 v2 h (ix2 i j)) 0#32).setWidth 32) = _
  rw [shapeCast_11ab_ab_apply v2 h i j, sitofp_setWidth_bit]
  rfl

/-- An adjacency of signed words at `(i, j)`: the loaded word `(0, i, j)` read as the integer it spells. -/
theorem sgnAdj_apply (v : Vec Ideal S1x512x512 .i32) (h : S1x512x512.ShapeCasts S512x512) (i j : Fin 512) :
    sitofp (F := Ideal) .f32 (shapeCast S512x512 v h) (ix2 i j) = sgn (v (ix3 0 i j)) :=
  congrArg (FloatOps.sitofp (F := Ideal) .f32) (shapeCast_1ab_ab_apply v h i j)

/-- A real adjacency at `(i, j)`: the loaded entry `(0, i, j)`. -/
theorem realAdj_apply (v : Vec Ideal S1x512x512 .f32) (h : S1x512x512.ShapeCasts S512x512) (i j : Fin 512) :
    shapeCast S512x512 v h (ix2 i j) = v (ix3 0 i j) :=
  shapeCast_1ab_ab_apply v h i j

/-- The divisor column at row `i`: the row sum of the adjacency plus the word of 1.0. -/
theorem den_apply (a : FVec Ideal S512x512 .f32) (h : S512x512.Reduces [1] S512) (hφ : FKind.Formats .f32)
    (hacc : (0x00000000#32 : BitVec 32) = FKind.add.neutral .f32 hφ) (h2 : S512.ShapeCasts S512x1) (i : Fin 512) :
    addf (shapeCast S512x1 (multiReduction (F := Ideal) .add [1] S512 a 0x00000000#32 h hφ hacc) h2)
        (broadcast S512x1 (Scalar.ofBits (F := Ideal) .f32 0x3F800000#32)) (ix2 i 0)
      = (∑ j : Fin 512, a (ix2 i j)) + one32 := by
  show shapeCast S512x1 (multiReduction (F := Ideal) .add [1] S512 a 0x00000000#32 h hφ hacc) h2 (ix2 i 0) + one32 = _
  rw [shapeCast_a_a1_apply _ h2 i 0, rowSum_apply]

/-! ## One layer: the common tail of the five layer payloads -/

/-- The layer payload over an adjacency `v102`, a divisor column `v106` and features `arg19`, at `(i, o)`, is the abstract
    layer over their entries: each matrix product is the sum over its contracted axis, the weights enter transposed, the bias
    is laid along every row and the divisor along every column. -/
theorem pay1_apply (v102 : FVec Ideal S512x512 .f32) (v106 : FVec Ideal S512x1 .f32) (arg19 : FVec Ideal S512x256 .f32) (v113 : Vec Ideal S1x256x256 .f32) (v116 : Vec Ideal S1x256 .f32) (i : Fin 512) (o : Fin 256) :
    k0_pay1 (F := Ideal) v102 v106 arg19 v113 v116 (ix2 i o)
      = layer (fun i j => v102 (ix2 i j)) (fun i => v106 (ix2 i 0)) (fun o d => v113 (ix3 0 o d)) (fun o => v116 (ix2 0 o))
          (fun i d => arg19 (ix2 i d)) i o := by
  unfold k0_pay1 layer
  simp only [maximumf_apply, divf_apply, addf_apply, broadcast_apply, matmulB_apply, broadcastTo_a1_ab_apply, truncf_apply,
    matmulA_apply]
  generalize hWt : transpose S256x256 [1, 0]
    (truncf (F := Ideal) .bf16 (shapeCast S256x256 v113 shapeCasts_S1x256x256_S256x256) bitsLt_bf16_f32)
    transposes_S256x256_p1_0_S256x256 = Wt
  have hW : ∀ d o : Fin 256, Wt (ix2 d o) = v113 (ix3 0 o d) := fun d o => hWt ▸ wT_apply v113 _ _ _ d o
  simp only [hW]
  rw [biasRow_apply]
  rfl

/-- The same with the adjacency, the divisor and the features named by what their entries are. -/
theorem pay1_eq_layer (a : FVec Ideal S512x512 .f32) (den : FVec Ideal S512x1 .f32) (x : FVec Ideal S512x256 .f32)
    (Wl : Vec Ideal S1x256x256 .f32) (bl : Vec Ideal S1x256 .f32)
    (A : Fin 512 → Fin 512 → EReal) (D : Fin 512 → EReal) (X : Fin 512 → Fin 256 → EReal)
    (hA : ∀ i j, a (ix2 i j) = A i j) (hD : ∀ i, den (ix2 i 0) = D i) (hX : ∀ i d, x (ix2 i d) = X i d)
    (i : Fin 512) (o : Fin 256) :
    k0_pay1 (F := Ideal) a den x Wl bl (ix2 i o)
      = layer A D (fun o d => Wl (ix3 0 o d)) (fun o => bl (ix2 0 o)) X i o := by
  have eA : (fun i j => a (ix2 i j)) = A := funext fun i => funext fun j => hA i j
  have eD : (fun i => den (ix2 i 0)) = D := funext hD
  have eX : (fun i d => x (ix2 i d)) = X := funext fun i => funext fun d => hX i d
  rw [pay1_apply, eA, eD, eX]

/-! ## The adjacency and divisor terms of the payloads -/

/-- The constituent adjacency: the indicator of a nonzero word, as the body computes it. -/
abbrev nzA (v2 : Vec Ideal S1x1x512x512 .i32) : FVec Ideal S512x512 .f32 :=
  sitofp .f32 (extui 32 (cmpi .ne (shapeCast S512x512 v2 shapeCasts_S1x1x512x512_S512x512) (broadcast S512x512 0#32)) natLt_1_32)

/-- An adjacency of words read signed, as the body computes it. -/
abbrev sgnA (v : Vec Ideal S1x512x512 .i32) : FVec Ideal S512x512 .f32 :=
  sitofp .f32 (shapeCast S512x512 v shapeCasts_S1x512x512_S512x512)

/-- The divisor column of an adjacency, as the body computes it: the row sums plus 1.0. -/
abbrev denOf (a : FVec Ideal S512x512 .f32) : FVec Ideal S512x1 .f32 :=
  addf (shapeCast S512x1 (multiReduction .add [1] S512 a 0x00000000#32 reduces_S512x512_S512 (.inl rfl) rfl) shapeCasts_S512_S512x1)
    (broadcast S512x1 (Scalar.ofBits .f32 0x3F800000#32))

/-- The divisor column at row `i` is the abstract divisor of the adjacency's entries. -/
theorem denOf_apply (a : FVec Ideal S512x512 .f32) (A : Fin 512 → Fin 512 → EReal) (hA : ∀ i j, a (ix2 i j) = A i j) (i : Fin 512) :
    denOf a (ix2 i 0) = rowDen A i :=
  (den_apply a _ _ _ _ i).trans (congrArg (· + one32) (Finset.sum_congr rfl fun j _ => hA i j))

/-! ## The payloads -/

theorem pay3_apply (v0 : Vec Ideal S1x512x256 .f32) (i : Fin 512) (d : Fin 256) :
    k0_pay3 (F := Ideal) v0 (ix2 i d) = v0 (ix3 0 i d) :=
  shapeCast_1ab_ab_apply v0 shapeCasts_S1x512x256_S512x256 i d

theorem pay2_apply (v : FVec Ideal S512x256 .f32) (i : Fin 512) (o : Fin 256) : k0_pay2 (F := Ideal) v (ix3 0 i o) = v (ix2 i o) :=
  shapeCast_ab_1ab_apply v shapeCasts_S512x256_S1x512x256 0 i o

theorem pay7_apply (v : FVec Ideal S512x256 .f32) (i : Fin 512) (o : Fin 256) : k0_pay7 (F := Ideal) v (ix3 0 i o) = v (ix2 i o) :=
  shapeCast_ab_1ab_apply v shapeCasts_S512x256_S1x512x256 0 i o

theorem pay9_apply (v : FVec Ideal S512x256 .f32) (i : Fin 512) (o : Fin 256) : k0_pay9 (F := Ideal) v (ix3 0 i o) = v (ix2 i o) :=
  shapeCast_ab_1ab_apply v shapeCasts_S512x256_S1x512x256 0 i o

theorem pay4_eq (v0 : Vec Ideal S1x512x256 .f32) (v2 : Vec Ideal S1x1x512x512 .i32) (v12 : Vec Ideal S1x256x256 .f32) (v14 : Vec Ideal S1x256 .f32) :
    k0_pay4 (F := Ideal) v0 v2 v12 v14 = k0_pay1 (F := Ideal) (nzA v2) (denOf (nzA v2)) (k0_pay3 v0) v12 v14 := rfl

theorem pay4_apply (v0 : Vec Ideal S1x512x256 .f32) (v2 : Vec Ideal S1x1x512x512 .i32) (v12 : Vec Ideal S1x256x256 .f32) (v14 : Vec Ideal S1x256 .f32) (i : Fin 512) (o : Fin 256) :
    k0_pay4 (F := Ideal) v0 v2 v12 v14 (ix2 i o)
      = layer (fun i j => nz (v2 (ix4 0 0 i j))) (rowDen fun i j => nz (v2 (ix4 0 0 i j))) (fun o d => v12 (ix3 0 o d))
          (fun o => v14 (ix2 0 o)) (fun i d => v0 (ix3 0 i d)) i o := by
  rw [pay4_eq]
  exact pay1_eq_layer _ _ _ v12 v14 _ _ _ (fun i j => nzAdj_apply v2 _ _ i j)
    (fun i => denOf_apply _ _ (fun i j => nzAdj_apply v2 _ _ i j) i) (fun i d => pay3_apply v0 i d) i o

theorem pay5_eq (v37 : FVec Ideal S512x256 .f32) (v38 : Vec Ideal S1x1x512x512 .i32) (v48 : Vec Ideal S1x256x256 .f32) (v50 : Vec Ideal S1x256 .f32) :
    k0_pay5 (F := Ideal) v37 v38 v48 v50
      = shapeCast S1x512x256 (k0_pay1 (F := Ideal) (nzA v38) (denOf (nzA v38)) v37 v48 v50) shapeCasts_S512x256_S1x512x256 := rfl

theorem pay5_apply (v37 : FVec Ideal S512x256 .f32) (v38 : Vec Ideal S1x1x512x512 .i32) (v48 : Vec Ideal S1x256x256 .f32) (v50 : Vec Ideal S1x256 .f32) (i : Fin 512) (o : Fin 256) :
    k0_pay5 (F := Ideal) v37 v38 v48 v50 (ix3 0 i o)
      = layer (fun i j => nz (v38 (ix4 0 0 i j))) (rowDen fun i j => nz (v38 (ix4 0 0 i j))) (fun o d => v48 (ix3 0 o d))
          (fun o => v50 (ix2 0 o)) (fun i d => v37 (ix2 i d)) i o := by
  rw [pay5_eq]
  refine (shapeCast_ab_1ab_apply _ shapeCasts_S512x256_S1x512x256 0 i o).trans ?_
  exact pay1_eq_layer _ _ v37 v48 v50 _ _ _ (fun i j => nzAdj_apply v38 _ _ i j)
    (fun i => denOf_apply _ _ (fun i j => nzAdj_apply v38 _ _ i j) i) (fun _ _ => rfl) i o

theorem pay6_eq (v77 : Vec Ideal S1x512x512 .i32) (arg19 : FVec Ideal S512x256 .f32) (v113 : Vec Ideal S1x256x256 .f32) (v116 : Vec Ideal S1x256 .f32) :
    k0_pay6 (F := Ideal) v77 arg19 v113 v116 = k0_pay1 (F := Ideal) (sgnA v77) (denOf (sgnA v77)) arg19 v113 v116 := rfl

theorem pay6_apply (v77 : Vec Ideal S1x512x512 .i32) (arg19 : FVec Ideal S512x256 .f32) (v113 : Vec Ideal S1x256x256 .f32) (v116 : Vec Ideal S1x256 .f32) (i : Fin 512) (o : Fin 256) :
    k0_pay6 (F := Ideal) v77 arg19 v113 v116 (ix2 i o)
      = layer (fun i j => sgn (v77 (ix3 0 i j))) (rowDen fun i j => sgn (v77 (ix3 0 i j))) (fun o d => v113 (ix3 0 o d))
          (fun o => v116 (ix2 0 o)) (fun i d => arg19 (ix2 i d)) i o := by
  rw [pay6_eq]
  exact pay1_eq_layer _ _ arg19 v113 v116 _ _ _ (fun i j => sgnAdj_apply v77 _ i j)
    (fun i => denOf_apply _ _ (fun i j => sgnAdj_apply v77 _ i j) i) (fun _ _ => rfl) i o

theorem pay8_eq (v89 : Vec Ideal S1x512x512 .f32) (arg19 : FVec Ideal S512x256 .f32) (v113 : Vec Ideal S1x256x256 .f32) (v116 : Vec Ideal S1x256 .f32) :
    k0_pay8 (F := Ideal) v89 arg19 v113 v116
      = k0_pay1 (F := Ideal) (shapeCast S512x512 v89 shapeCasts_S1x512x512_S512x512)
          (denOf (shapeCast S512x512 v89 shapeCasts_S1x512x512_S512x512)) arg19 v113 v116 := rfl

theorem pay8_apply (v89 : Vec Ideal S1x512x512 .f32) (arg19 : FVec Ideal S512x256 .f32) (v113 : Vec Ideal S1x256x256 .f32) (v116 : Vec Ideal S1x256 .f32) (i : Fin 512) (o : Fin 256) :
    k0_pay8 (F := Ideal) v89 arg19 v113 v116 (ix2 i o)
      = layer (fun i j => v89 (ix3 0 i j)) (rowDen fun i j => v89 (ix3 0 i j)) (fun o d => v113 (ix3 0 o d))
          (fun o => v116 (ix2 0 o)) (fun i d => arg19 (ix2 i d)) i o := by
  rw [pay8_eq]
  exact pay1_eq_layer _ _ arg19 v113 v116 _ _ _ (fun i j => realAdj_apply v89 _ i j)
    (fun i => denOf_apply _ _ (fun i j => realAdj_apply v89 _ i j) i) (fun _ _ => rfl) i o

theorem pay10_apply (v100 : Vec Ideal S1x512x512 .i32) (i j : Fin 512) : k0_pay10 (F := Ideal) v100 (ix2 i j) = sgn (v100 (ix3 0 i j)) :=
  sgnAdj_apply v100 shapeCasts_S1x512x512_S512x512 i j

theorem pay11_eq (v100 : Vec Ideal S1x512x512 .i32) : k0_pay11 (F := Ideal) v100 = denOf (k0_pay10 (F := Ideal) v100) := rfl

theorem pay11_apply (v100 : Vec Ideal S1x512x512 .i32) (i : Fin 512) :
    k0_pay11 (F := Ideal) v100 (ix2 i 0) = rowDen (fun i j => sgn (v100 (ix3 0 i j))) i := by
  rw [pay11_eq]
  exact denOf_apply _ _ (fun i j => pay10_apply v100 i j) i

end Cert.KernelIdeal.KerLayer

end
-- ==== Proof.KerPoint.lean ====
/-
  What one grid point leaves in each of its four output blocks, at an entry, as the specification's layers.

  The constituent block is layer 1 over layer 0, each layer reading its own row of the adjacency words (through the
  indicator of a nonzero word) and of the weight and bias tables. Each of the other three blocks is the value its loop
  carries out: by induction on the trip, the value carried into trip `n` is `n` stacked layers over the branch's one
  adjacency and divisor, starting from the batch's features, trip `k` reading row `k` of the branch's tables — a block of
  one row loaded from offset `k` on the leading axis reads the table at row `k`. The loops run 2, 2 and 9 trips. For the
  abstract-meaning branch the adjacency and the divisor are computed once before the loop and are the signed words and
  their row sums plus one.
-/
import proofs.«128254_j60155311947910_1_alg».proof.Proof.KerPieces
import proofs.«128254_j60155311947910_1_alg».proof.Proof.KerLayer
import proofs.«128254_j60155311947910_1_alg».proof.Proof.GcnSpec

set_option maxRecDepth 16384

noncomputable section

open scoped BigOperators

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen Cert.Gcn

/-! ## A layer depends on its operands through their entries only -/

theorem rowDen_congr {ι : Type} [Fintype ι] {A A' : ι → ι → EReal} (hA : ∀ i j, A i j = A' i j) : rowDen A = rowDen A' := by
  rw [show A = A' from funext fun i => funext fun j => hA i j]

theorem layer_congr {ι κ : Type} [Fintype ι] [Fintype κ] {A A' : ι → ι → EReal} {D D' : ι → EReal} {W W' : κ → κ → EReal}
    {b b' : κ → EReal} {X X' : ι → κ → EReal} (hA : ∀ i j, A i j = A' i j) (hD : ∀ i, D i = D' i) (hW : ∀ o d, W o d = W' o d)
    (hb : ∀ o, b o = b' o) (hX : ∀ i d, X i d = X' i d) (i : ι) (o : κ) :
    layer A D W b X i o = layer A' D' W' b' X' i o := by
  rw [show A = A' from funext fun i => funext fun j => hA i j, show D = D' from funext hD,
    show W = W' from funext fun o => funext fun d => hW o d, show b = b' from funext hb,
    show X = X' from funext fun i => funext fun d => hX i d]

/-! ## One row of a table, and one layer of the constituent adjacency, read through a unit-stride rectangle -/

/-- Row `k` of a table of `L` weight matrices, loaded as a `[1, 256, 256]` block from offset `(k, 0, 0)`. -/
theorem wRow_ld {L : ℕ} (x : Vec Ideal ⟨3, ![L, 256, 256]⟩ .f32) (off : Fin 3 → Nat)
    (inb : ∀ a, off a + S1x256x256.size a ≤ (⟨3, ![L, 256, 256]⟩ : Shape).size a) (k : ℕ) (hoff : off = ![k, 0, 0]) (hk : k < L)
    (o d : Fin 256) : View.ld x (Rect.unit off S1x256x256.size inb) (ix3 0 o d) = wTab x k o d := by
  unfold wTab
  rw [dif_pos hk]
  refine ld_unit_at x off S1x256x256.size inb (ix3 0 o d) (ix3 ⟨k, hk⟩ o d) fun a => ?_
  subst hoff
  match a with
  | ⟨0, _⟩ => rfl
  | ⟨1, _⟩ => exact (Nat.zero_add _).symm
  | ⟨2, _⟩ => exact (Nat.zero_add _).symm

/-- Row `k` of a table of `L` bias vectors, loaded as a `[1, 256]` block from offset `(k, 0)`. -/
theorem bRow_ld {L : ℕ} (x : Vec Ideal ⟨2, ![L, 256]⟩ .f32) (off : Fin 2 → Nat)
    (inb : ∀ a, off a + S1x256.size a ≤ (⟨2, ![L, 256]⟩ : Shape).size a) (k : ℕ) (hoff : off = ![k, 0]) (hk : k < L)
    (o : Fin 256) : View.ld x (Rect.unit off S1x256.size inb) (ix2 0 o) = bTab x k o := by
  unfold bTab
  rw [dif_pos hk]
  refine ld_unit_at x off S1x256.size inb (ix2 0 o) (ix2 ⟨k, hk⟩ o) fun a => ?_
  subst hoff
  match a with
  | ⟨0, _⟩ => rfl
  | ⟨1, _⟩ => exact (Nat.zero_add _).symm

/-- Layer `l` of the constituent adjacency words, loaded as a `[1, 1, 512, 512]` block from offset `(l, 0, 0, 0)`. -/
theorem conAdj_ld (x1 : Vec Ideal S2x1x512x512 .i32) (off : Fin 4 → Nat)
    (inb : ∀ a, off a + S1x1x512x512.size a ≤ S2x1x512x512.size a) (l : Fin 2) (hoff : off = ![l.val, 0, 0, 0]) (i j : Fin 512) :
    View.ld x1 (Rect.unit off S1x1x512x512.size inb) (ix4 0 0 i j) = x1 (ix4 l 0 i j) := by
  refine ld_unit_at x1 off S1x1x512x512.size inb (ix4 0 0 i j) (ix4 l 0 i j) fun a => ?_
  subst hoff
  match a with
  | ⟨0, _⟩ => rfl
  | ⟨1, _⟩ => rfl
  | ⟨2, _⟩ => exact (Nat.zero_add _).symm
  | ⟨3, _⟩ => exact (Nat.zero_add _).symm

/-- A load from a whole buffer whose contents read `x` reads `x` through the rectangle. -/
theorem readAt_unread {s : Shape} {e : EltTy} (m : Memref sig .tc .vmem s e) (h : m.IsWhole) (x : Vec Ideal s e) (R : Rect s) :
    View.readAt (Elt Ideal) m.view R.toLoadRect (h.unread x) = View.ld x R :=
  congrArg (fun X => View.ld X R) (h.read_unread x)

/-! ## The loops' trip counts -/

theorem trips1 : k0_t1_loop.trips = 2 := by decide
theorem trips2 : k0_t2_loop.trips = 2 := by decide
theorem trips3 : k0_t3_loop.trips = 9 := by decide

/-! ## The loops: the value carried into trip `n` is `n` stacked layers -/

theorem st1_val (c : Dev nD) (i : grid0.Coords) (arg1 : Memref sig .tc .vmem S1x512x256 .f32) (harg1 : arg1.IsWhole) (arg2 : Memref sig .tc .vmem S2x1x512x512 .i32) (harg2 : arg2.IsWhole) (arg3 : Memref sig .tc .vmem S1x512x512 .i32) (harg3 : arg3.IsWhole) (arg4 : Memref sig .tc .vmem S1x512x512 .f32) (harg4 : arg4.IsWhole) (arg5 : Memref sig .tc .vmem S1x512x512 .i32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S2x256x256 .f32) (harg8 : arg8.IsWhole) (arg9 : Memref sig .tc .vmem S2x256 .f32) (harg9 : arg9.IsWhole) (arg10 : Memref sig .tc .vmem S2x256x256 .f32) (harg10 : arg10.IsWhole) (arg11 : Memref sig .tc .vmem S2x256 .f32) (harg11 : arg11.IsWhole) (arg12 : Memref sig .tc .vmem S9x256x256 .f32) (harg12 : arg12.IsWhole) (arg13 : Memref sig .tc .vmem S9x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (x0 : Vec Ideal S1x512x256 .f32) (x2 : Vec Ideal S1x512x512 .i32) (x7 : Vec Ideal S2x256x256 .f32) (x8 : Vec Ideal S2x256 .f32) (n : ℕ) (hn : n ≤ k0_t1_loop.trips) (r : Fin 512) (o : Fin 256) :
    st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay3 x0) x2 (harg8.unread x7) (harg9.unread x8) (k0_pay3 x0) n (ix2 r o)
      = stack (fun i j => sgn (x2 (ix3 0 i j))) (rowDen fun i j => sgn (x2 (ix3 0 i j))) (wTab x7) (bTab x8) n (fun i d => x0 (ix3 0 i d)) r o := by
  induction n generalizing r o with
  | zero => exact KerLayer.pay3_apply x0 r o
  | succ n ih =>
    have hlt : n < k0_t1_loop.trips := hn
    have hL : n < 2 := lt_of_lt_of_le hlt k0_t1_abs.2.1
    have hs := st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay3 x0) x2 (harg8.unread x7) (harg9.unread x8) (k0_pay3 x0) ⟨n, hlt⟩
    have ht := trip1_eq (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay3 x0) x2 (harg8.unread x7) (harg9.unread x8) ⟨n, hlt⟩
      (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay3 x0) x2 (harg8.unread x7) (harg9.unread x8) (k0_pay3 x0) n)
    refine (congrFun (hs.trans ht) (ix2 r o)).trans ?_
    refine (KerLayer.pay6_apply x2 _ _ _ r o).trans ?_
    rw [stack_succ]
    refine layer_congr (fun _ _ => rfl) (fun _ => rfl) (fun o d => ?_) (fun o => ?_) (fun i d => ih (Nat.le_of_succ_le hn) i d) r o
    · exact (congrFun (readAt_unread arg8 harg8 x7 _) _).trans (wRow_ld x7 _ _ n (k0_off1_eq ⟨n, hlt⟩) hL o d)
    · exact (congrFun (readAt_unread arg9 harg9 x8 _) _).trans (bRow_ld x8 _ _ n (k0_off2_eq ⟨n, hlt⟩) hL o)

theorem st2_val (c : Dev nD) (i : grid0.Coords) (arg1 : Memref sig .tc .vmem S1x512x256 .f32) (harg1 : arg1.IsWhole) (arg2 : Memref sig .tc .vmem S2x1x512x512 .i32) (harg2 : arg2.IsWhole) (arg3 : Memref sig .tc .vmem S1x512x512 .i32) (harg3 : arg3.IsWhole) (arg4 : Memref sig .tc .vmem S1x512x512 .f32) (harg4 : arg4.IsWhole) (arg5 : Memref sig .tc .vmem S1x512x512 .i32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S2x256x256 .f32) (harg8 : arg8.IsWhole) (arg9 : Memref sig .tc .vmem S2x256 .f32) (harg9 : arg9.IsWhole) (arg10 : Memref sig .tc .vmem S2x256x256 .f32) (harg10 : arg10.IsWhole) (arg11 : Memref sig .tc .vmem S2x256 .f32) (harg11 : arg11.IsWhole) (arg12 : Memref sig .tc .vmem S9x256x256 .f32) (harg12 : arg12.IsWhole) (arg13 : Memref sig .tc .vmem S9x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (x0 : Vec Ideal S1x512x256 .f32) (x3 : Vec Ideal S1x512x512 .f32) (x9 : Vec Ideal S2x256x256 .f32) (x10 : Vec Ideal S2x256 .f32) (n : ℕ) (hn : n ≤ k0_t2_loop.trips) (r : Fin 512) (o : Fin 256) :
    st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay3 x0) x3 (harg10.unread x9) (harg11.unread x10) (k0_pay3 x0) n (ix2 r o)
      = stack (fun i j => x3 (ix3 0 i j)) (rowDen fun i j => x3 (ix3 0 i j)) (wTab x9) (bTab x10) n (fun i d => x0 (ix3 0 i d)) r o := by
  induction n generalizing r o with
  | zero => exact KerLayer.pay3_apply x0 r o
  | succ n ih =>
    have hlt : n < k0_t2_loop.trips := hn
    have hL : n < 2 := lt_of_lt_of_le hlt k0_t2_abs.2.1
    have hs := st_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay3 x0) x3 (harg10.unread x9) (harg11.unread x10) (k0_pay3 x0) ⟨n, hlt⟩
    have ht := trip2_eq (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay3 x0) x3 (harg10.unread x9) (harg11.unread x10) ⟨n, hlt⟩
      (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay3 x0) x3 (harg10.unread x9) (harg11.unread x10) (k0_pay3 x0) n)
    refine (congrFun (hs.trans ht) (ix2 r o)).trans ?_
    refine (KerLayer.pay8_apply x3 _ _ _ r o).trans ?_
    rw [stack_succ]
    refine layer_congr (fun _ _ => rfl) (fun _ => rfl) (fun o d => ?_) (fun o => ?_) (fun i d => ih (Nat.le_of_succ_le hn) i d) r o
    · exact (congrFun (readAt_unread arg10 harg10 x9 _) _).trans (wRow_ld x9 _ _ n (k0_off3_eq ⟨n, hlt⟩) hL o d)
    · exact (congrFun (readAt_unread arg11 harg11 x10 _) _).trans (bRow_ld x10 _ _ n (k0_off4_eq ⟨n, hlt⟩) hL o)

theorem st3_val (c : Dev nD) (i : grid0.Coords) (arg1 : Memref sig .tc .vmem S1x512x256 .f32) (harg1 : arg1.IsWhole) (arg2 : Memref sig .tc .vmem S2x1x512x512 .i32) (harg2 : arg2.IsWhole) (arg3 : Memref sig .tc .vmem S1x512x512 .i32) (harg3 : arg3.IsWhole) (arg4 : Memref sig .tc .vmem S1x512x512 .f32) (harg4 : arg4.IsWhole) (arg5 : Memref sig .tc .vmem S1x512x512 .i32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S2x256x256 .f32) (harg8 : arg8.IsWhole) (arg9 : Memref sig .tc .vmem S2x256 .f32) (harg9 : arg9.IsWhole) (arg10 : Memref sig .tc .vmem S2x256x256 .f32) (harg10 : arg10.IsWhole) (arg11 : Memref sig .tc .vmem S2x256 .f32) (harg11 : arg11.IsWhole) (arg12 : Memref sig .tc .vmem S9x256x256 .f32) (harg12 : arg12.IsWhole) (arg13 : Memref sig .tc .vmem S9x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (x0 : Vec Ideal S1x512x256 .f32) (x4 : Vec Ideal S1x512x512 .i32) (x11 : Vec Ideal S9x256x256 .f32) (x12 : Vec Ideal S9x256 .f32) (n : ℕ) (hn : n ≤ k0_t3_loop.trips) (r : Fin 512) (o : Fin 256) :
    st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay10 x4) (k0_pay11 x4) (harg12.unread x11) (harg13.unread x12) (k0_pay3 x0) n (ix2 r o)
      = stack (fun i j => sgn (x4 (ix3 0 i j))) (rowDen fun i j => sgn (x4 (ix3 0 i j))) (wTab x11) (bTab x12) n (fun i d => x0 (ix3 0 i d)) r o := by
  induction n generalizing r o with
  | zero => exact KerLayer.pay3_apply x0 r o
  | succ n ih =>
    have hlt : n < k0_t3_loop.trips := hn
    have hL : n < 9 := lt_of_lt_of_le hlt k0_t3_abs.2.1
    have hs := st_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay10 x4) (k0_pay11 x4) (harg12.unread x11) (harg13.unread x12) (k0_pay3 x0) ⟨n, hlt⟩
    have ht := trip3_eq (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay10 x4) (k0_pay11 x4) (harg12.unread x11) (harg13.unread x12) ⟨n, hlt⟩
      (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay10 x4) (k0_pay11 x4) (harg12.unread x11) (harg13.unread x12) (k0_pay3 x0) n)
    refine (congrFun (hs.trans ht) (ix2 r o)).trans ?_
    refine (KerLayer.pay1_apply _ _ _ _ _ r o).trans ?_
    rw [stack_succ]
    refine layer_congr (fun i j => KerLayer.pay10_apply x4 i j) (fun i => KerLayer.pay11_apply x4 i) (fun o d => ?_) (fun o => ?_) (fun i d => ih (Nat.le_of_succ_le hn) i d) r o
    · exact (congrFun (readAt_unread arg12 harg12 x11 _) _).trans (wRow_ld x11 _ _ n (k0_off5_eq ⟨n, hlt⟩) hL o d)
    · exact (congrFun (readAt_unread arg13 harg13 x12 _) _).trans (bRow_ld x12 _ _ n (k0_off6_eq ⟨n, hlt⟩) hL o)

/-! ## The four output blocks at an entry -/

theorem out13_val (c : Dev nD) (i : grid0.Coords) (arg1 : Memref sig .tc .vmem S1x512x256 .f32) (harg1 : arg1.IsWhole) (arg2 : Memref sig .tc .vmem S2x1x512x512 .i32) (harg2 : arg2.IsWhole) (arg3 : Memref sig .tc .vmem S1x512x512 .i32) (harg3 : arg3.IsWhole) (arg4 : Memref sig .tc .vmem S1x512x512 .f32) (harg4 : arg4.IsWhole) (arg5 : Memref sig .tc .vmem S1x512x512 .i32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S2x256x256 .f32) (harg8 : arg8.IsWhole) (arg9 : Memref sig .tc .vmem S2x256 .f32) (harg9 : arg9.IsWhole) (arg10 : Memref sig .tc .vmem S2x256x256 .f32) (harg10 : arg10.IsWhole) (arg11 : Memref sig .tc .vmem S2x256 .f32) (harg11 : arg11.IsWhole) (arg12 : Memref sig .tc .vmem S9x256x256 .f32) (harg12 : arg12.IsWhole) (arg13 : Memref sig .tc .vmem S9x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (x0 : Vec Ideal S1x512x256 .f32) (x1 : Vec Ideal S2x1x512x512 .i32) (x2 : Vec Ideal S1x512x512 .i32) (x3 : Vec Ideal S1x512x512 .f32) (x4 : Vec Ideal S1x512x512 .i32) (x5 : Vec Ideal S2x256x256 .f32) (x6 : Vec Ideal S2x256 .f32) (x7 : Vec Ideal S2x256x256 .f32) (x8 : Vec Ideal S2x256 .f32) (x9 : Vec Ideal S2x256x256 .f32) (x10 : Vec Ideal S2x256 .f32) (x11 : Vec Ideal S9x256x256 .f32) (x12 : Vec Ideal S9x256 .f32) (r : Fin 512) (o : Fin 256) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 (ix3 0 r o)
      = layer (fun i j => nz (x1 (ix4 1 0 i j))) (rowDen fun i j => nz (x1 (ix4 1 0 i j))) (wTab x5 1) (bTab x6 1)
          (layer (fun i j => nz (x1 (ix4 0 0 i j))) (rowDen fun i j => nz (x1 (ix4 0 0 i j))) (wTab x5 0) (bTab x6 0) (fun i d => x0 (ix3 0 i d))) r o := by
  rw [out13_eq]
  refine (KerLayer.pay5_apply _ _ _ _ r o).trans ?_
  have hA1 : ∀ i j : Fin 512, nz (View.ld x1 (Rect.unit ![1, 0, 0, 0] S1x1x512x512.size inb_S2x1x512x512_S1x1x512x512_1_0_0_0) (ix4 0 0 i j))
      = nz (x1 (ix4 1 0 i j)) := fun i j => congrArg nz (conAdj_ld x1 _ _ 1 rfl i j)
  have hA0 : ∀ i j : Fin 512, nz (View.ld x1 (Rect.unit ![0, 0, 0, 0] S1x1x512x512.size inb_S2x1x512x512_S1x1x512x512_0_0_0_0) (ix4 0 0 i j))
      = nz (x1 (ix4 0 0 i j)) := fun i j => congrArg nz (conAdj_ld x1 _ _ 0 rfl i j)
  refine layer_congr hA1 (fun i => congrFun (rowDen_congr hA1) i) (fun o d => wRow_ld x5 _ _ 1 rfl (by decide) o d)
    (fun o => bRow_ld x6 _ _ 1 rfl (by decide) o) (fun i d => ?_) r o
  exact (KerLayer.pay4_apply x0 _ _ _ i d).trans
    (layer_congr hA0 (fun i => congrFun (rowDen_congr hA0) i) (fun o d => wRow_ld x5 _ _ 0 rfl (by decide) o d)
      (fun o => bRow_ld x6 _ _ 0 rfl (by decide) o) (fun _ _ => rfl) i d)

theorem out14_val (c : Dev nD) (i : grid0.Coords) (arg1 : Memref sig .tc .vmem S1x512x256 .f32) (harg1 : arg1.IsWhole) (arg2 : Memref sig .tc .vmem S2x1x512x512 .i32) (harg2 : arg2.IsWhole) (arg3 : Memref sig .tc .vmem S1x512x512 .i32) (harg3 : arg3.IsWhole) (arg4 : Memref sig .tc .vmem S1x512x512 .f32) (harg4 : arg4.IsWhole) (arg5 : Memref sig .tc .vmem S1x512x512 .i32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S2x256x256 .f32) (harg8 : arg8.IsWhole) (arg9 : Memref sig .tc .vmem S2x256 .f32) (harg9 : arg9.IsWhole) (arg10 : Memref sig .tc .vmem S2x256x256 .f32) (harg10 : arg10.IsWhole) (arg11 : Memref sig .tc .vmem S2x256 .f32) (harg11 : arg11.IsWhole) (arg12 : Memref sig .tc .vmem S9x256x256 .f32) (harg12 : arg12.IsWhole) (arg13 : Memref sig .tc .vmem S9x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (x0 : Vec Ideal S1x512x256 .f32) (x1 : Vec Ideal S2x1x512x512 .i32) (x2 : Vec Ideal S1x512x512 .i32) (x3 : Vec Ideal S1x512x512 .f32) (x4 : Vec Ideal S1x512x512 .i32) (x5 : Vec Ideal S2x256x256 .f32) (x6 : Vec Ideal S2x256 .f32) (x7 : Vec Ideal S2x256x256 .f32) (x8 : Vec Ideal S2x256 .f32) (x9 : Vec Ideal S2x256x256 .f32) (x10 : Vec Ideal S2x256 .f32) (x11 : Vec Ideal S9x256x256 .f32) (x12 : Vec Ideal S9x256 .f32) (r : Fin 512) (o : Fin 256) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 (ix3 0 r o)
      = stack (fun i j => sgn (x2 (ix3 0 i j))) (rowDen fun i j => sgn (x2 (ix3 0 i j))) (wTab x7) (bTab x8) 2 (fun i d => x0 (ix3 0 i d)) r o := by
  rw [out14_eq, trips1]
  exact (KerLayer.pay7_apply _ r o).trans
    (st1_val c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x2 x7 x8 2 (le_of_eq trips1.symm) r o)

theorem out15_val (c : Dev nD) (i : grid0.Coords) (arg1 : Memref sig .tc .vmem S1x512x256 .f32) (harg1 : arg1.IsWhole) (arg2 : Memref sig .tc .vmem S2x1x512x512 .i32) (harg2 : arg2.IsWhole) (arg3 : Memref sig .tc .vmem S1x512x512 .i32) (harg3 : arg3.IsWhole) (arg4 : Memref sig .tc .vmem S1x512x512 .f32) (harg4 : arg4.IsWhole) (arg5 : Memref sig .tc .vmem S1x512x512 .i32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S2x256x256 .f32) (harg8 : arg8.IsWhole) (arg9 : Memref sig .tc .vmem S2x256 .f32) (harg9 : arg9.IsWhole) (arg10 : Memref sig .tc .vmem S2x256x256 .f32) (harg10 : arg10.IsWhole) (arg11 : Memref sig .tc .vmem S2x256 .f32) (harg11 : arg11.IsWhole) (arg12 : Memref sig .tc .vmem S9x256x256 .f32) (harg12 : arg12.IsWhole) (arg13 : Memref sig .tc .vmem S9x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (x0 : Vec Ideal S1x512x256 .f32) (x1 : Vec Ideal S2x1x512x512 .i32) (x2 : Vec Ideal S1x512x512 .i32) (x3 : Vec Ideal S1x512x512 .f32) (x4 : Vec Ideal S1x512x512 .i32) (x5 : Vec Ideal S2x256x256 .f32) (x6 : Vec Ideal S2x256 .f32) (x7 : Vec Ideal S2x256x256 .f32) (x8 : Vec Ideal S2x256 .f32) (x9 : Vec Ideal S2x256x256 .f32) (x10 : Vec Ideal S2x256 .f32) (x11 : Vec Ideal S9x256x256 .f32) (x12 : Vec Ideal S9x256 .f32) (r : Fin 512) (o : Fin 256) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 (ix3 0 r o)
      = stack (fun i j => x3 (ix3 0 i j)) (rowDen fun i j => x3 (ix3 0 i j)) (wTab x9) (bTab x10) 2 (fun i d => x0 (ix3 0 i d)) r o := by
  rw [out15_eq, trips2]
  exact (KerLayer.pay9_apply _ r o).trans
    (st2_val c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x3 x9 x10 2 (le_of_eq trips2.symm) r o)

theorem out16_val (c : Dev nD) (i : grid0.Coords) (arg1 : Memref sig .tc .vmem S1x512x256 .f32) (harg1 : arg1.IsWhole) (arg2 : Memref sig .tc .vmem S2x1x512x512 .i32) (harg2 : arg2.IsWhole) (arg3 : Memref sig .tc .vmem S1x512x512 .i32) (harg3 : arg3.IsWhole) (arg4 : Memref sig .tc .vmem S1x512x512 .f32) (harg4 : arg4.IsWhole) (arg5 : Memref sig .tc .vmem S1x512x512 .i32) (harg5 : arg5.IsWhole) (arg6 : Memref sig .tc .vmem S2x256x256 .f32) (harg6 : arg6.IsWhole) (arg7 : Memref sig .tc .vmem S2x256 .f32) (harg7 : arg7.IsWhole) (arg8 : Memref sig .tc .vmem S2x256x256 .f32) (harg8 : arg8.IsWhole) (arg9 : Memref sig .tc .vmem S2x256 .f32) (harg9 : arg9.IsWhole) (arg10 : Memref sig .tc .vmem S2x256x256 .f32) (harg10 : arg10.IsWhole) (arg11 : Memref sig .tc .vmem S2x256 .f32) (harg11 : arg11.IsWhole) (arg12 : Memref sig .tc .vmem S9x256x256 .f32) (harg12 : arg12.IsWhole) (arg13 : Memref sig .tc .vmem S9x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (x0 : Vec Ideal S1x512x256 .f32) (x1 : Vec Ideal S2x1x512x512 .i32) (x2 : Vec Ideal S1x512x512 .i32) (x3 : Vec Ideal S1x512x512 .f32) (x4 : Vec Ideal S1x512x512 .i32) (x5 : Vec Ideal S2x256x256 .f32) (x6 : Vec Ideal S2x256 .f32) (x7 : Vec Ideal S2x256x256 .f32) (x8 : Vec Ideal S2x256 .f32) (x9 : Vec Ideal S2x256x256 .f32) (x10 : Vec Ideal S2x256 .f32) (x11 : Vec Ideal S9x256x256 .f32) (x12 : Vec Ideal S9x256 .f32) (r : Fin 512) (o : Fin 256) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 (ix3 0 r o)
      = stack (fun i j => sgn (x4 (ix3 0 i j))) (rowDen fun i j => sgn (x4 (ix3 0 i j))) (wTab x11) (bTab x12) 9 (fun i d => x0 (ix3 0 i d)) r o := by
  rw [out16_eq, trips3]
  exact (KerLayer.pay2_apply _ r o).trans
    (st3_val c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x4 x11 x12 9 (le_of_eq trips3.symm) r o)

end Cert.KernelIdeal.KerValue

end
-- ==== Proof.KerFinal.lean ====
/-
  The kernel's four result arrays after the run, as the specification's functions of the argument arrays.

  Point `t` of the grid writes back block `t` of each result, and distinct points write disjoint blocks, so entry
  `(p, r, o)` of a result array is entry `(0, r, o)` of what point `p` wrote back. That entry is a layer term over the
  point's loaded blocks; the blocks are batch `p` of the batched arrays and the tables whole; so the entry is the
  specification's entry over batch `p` of the arrays.
-/
import proofs.«128254_j60155311947910_1_alg».proof.Proof.KerBlocks
import proofs.«128254_j60155311947910_1_alg».proof.Proof.KerPoint
import proofs.«128254_j60155311947910_1_alg».proof.Proof.GcnSpec

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Gcn

variable (m : (ℓ : Loc nD τ sig) → Buf (Elt Ideal) ℓ) (ρ : Dev nD → PrngReg)

/-- Tables that agree row by row give the same rows. -/
theorem wTab_congr {L : ℕ} (W W' : (⟨3, ![L, 256, 256]⟩ : Shape).Idx → EReal)
    (h : ∀ (k : Fin L) (o d : Fin 256), W (ix3 k o d) = W' (ix3 k o d)) : wTab W = wTab W' := by
  funext n o d
  unfold wTab
  by_cases hn : n < L
  · rw [dif_pos hn, dif_pos hn]; exact h ⟨n, hn⟩ o d
  · rw [dif_neg hn, dif_neg hn]

theorem bTab_congr {L : ℕ} (b b' : (⟨2, ![L, 256]⟩ : Shape).Idx → EReal)
    (h : ∀ (k : Fin L) (o : Fin 256), b (ix2 k o) = b' (ix2 k o)) : bTab b = bTab b' := by
  funext n o
  unfold bTab
  by_cases hn : n < L
  · rw [dif_pos hn, dif_pos hn]; exact h ⟨n, hn⟩ o
  · rw [dif_neg hn, dif_neg hn]

/-- Result 0 after the run. -/
theorem final13 (c : Dev nD) :
    (dats m 0 c).arrAt 13 cfg0.N
      = conArr (m ((c : Thread nD τ).loc main_arg0)) (m ((c : Thread nD τ).loc main_arg1)) (m ((c : Thread nD τ).loc main_arg6)) (m ((c : Thread nD τ).loc main_arg7)) := by
  funext idx
  obtain ⟨p, r, o, rfl⟩ : ∃ (p : Fin 32) (r : Fin 512) (o : Fin 256), idx = ix3 p r o := ⟨idx 0, idx 1, idx 2, eq_ix3 idx⟩
  obtain ⟨t, ht⟩ : ∃ t : Fin cfg0.N, p.val = t.val := ⟨⟨p.val, by have hN : cfg0.N = 32 := N_0; rw [hN]; exact p.isLt⟩, rfl⟩
  have h1 : (dats m 0 c).arrAt 13 cfg0.N (ix3 p r o) = (dats m 0 c).flushed 13 t (ix3 0 r o) := by
    have hb := congrFun (Value.blocks13 m c t (flush0_13 t)) (ix3 0 r o)
    rw [← emb13 t p ht r o]; exact hb
  rw [h1, Value.flushed13_A]
  show out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r o) = _
  refine (out13_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r o).trans ?_
  rw [conArr_ix3]
  unfold conG conAdj feat
  rw [wTab_congr (L := 2) (iblk m c 5 t) (V m c main_arg6) (fun k o d => blk5_read m c t k o d),
    bTab_congr (L := 2) (iblk m c 6 t) (V m c main_arg7) (fun k o => blk6_read m c t k o)]
  simp only [blk1_read m c t p ht, blk0_read m c t p ht]

/-- Result 1 after the run. -/
theorem final14 (c : Dev nD) :
    (dats m 0 c).arrAt 14 cfg0.N
      = intArr (m ((c : Thread nD τ).loc main_arg0)) (m ((c : Thread nD τ).loc main_arg2)) (m ((c : Thread nD τ).loc main_arg8)) (m ((c : Thread nD τ).loc main_arg9)) := by
  funext idx
  obtain ⟨p, r, o, rfl⟩ : ∃ (p : Fin 32) (r : Fin 512) (o : Fin 256), idx = ix3 p r o := ⟨idx 0, idx 1, idx 2, eq_ix3 idx⟩
  obtain ⟨t, ht⟩ : ∃ t : Fin cfg0.N, p.val = t.val := ⟨⟨p.val, by have hN : cfg0.N = 32 := N_0; rw [hN]; exact p.isLt⟩, rfl⟩
  have h1 : (dats m 0 c).arrAt 14 cfg0.N (ix3 p r o) = (dats m 0 c).flushed 14 t (ix3 0 r o) := by
    have hb := congrFun (Value.blocks14 m c t (flush0_14 t)) (ix3 0 r o)
    rw [← emb14 t p ht r o]; exact hb
  rw [h1, Value.flushed14_A]
  show out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r o) = _
  refine (out14_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r o).trans ?_
  rw [intArr_ix3]
  unfold stackG adjOf feat
  rw [wTab_congr (L := 2) (iblk m c 7 t) (V m c main_arg8) (fun k o d => blk7_read m c t k o d),
    bTab_congr (L := 2) (iblk m c 8 t) (V m c main_arg9) (fun k o => blk8_read m c t k o)]
  simp only [blk2_read m c t p ht, blk0_read m c t p ht]

/-- Result 2 after the run. -/
theorem final15 (c : Dev nD) :
    (dats m 0 c).arrAt 15 cfg0.N
      = realArr (m ((c : Thread nD τ).loc main_arg0)) (m ((c : Thread nD τ).loc main_arg3)) (m ((c : Thread nD τ).loc main_arg10)) (m ((c : Thread nD τ).loc main_arg11)) := by
  funext idx
  obtain ⟨p, r, o, rfl⟩ : ∃ (p : Fin 32) (r : Fin 512) (o : Fin 256), idx = ix3 p r o := ⟨idx 0, idx 1, idx 2, eq_ix3 idx⟩
  obtain ⟨t, ht⟩ : ∃ t : Fin cfg0.N, p.val = t.val := ⟨⟨p.val, by have hN : cfg0.N = 32 := N_0; rw [hN]; exact p.isLt⟩, rfl⟩
  have h1 : (dats m 0 c).arrAt 15 cfg0.N (ix3 p r o) = (dats m 0 c).flushed 15 t (ix3 0 r o) := by
    have hb := congrFun (Value.blocks15 m c t (flush0_15 t)) (ix3 0 r o)
    rw [← emb15 t p ht r o]; exact hb
  rw [h1, Value.flushed15_A]
  show out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r o) = _
  refine (out15_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r o).trans ?_
  rw [realArr_ix3]
  unfold stackG adjOf feat
  rw [wTab_congr (L := 2) (iblk m c 9 t) (V m c main_arg10) (fun k o d => blk9_read m c t k o d),
    bTab_congr (L := 2) (iblk m c 10 t) (V m c main_arg11) (fun k o => blk10_read m c t k o)]
  simp only [blk3_read m c t p ht, blk0_read m c t p ht]

/-- Result 3 after the run. -/
theorem final16 (c : Dev nD) :
    (dats m 0 c).arrAt 16 cfg0.N
      = intArr (m ((c : Thread nD τ).loc main_arg0)) (m ((c : Thread nD τ).loc main_arg4)) (m ((c : Thread nD τ).loc main_arg12)) (m ((c : Thread nD τ).loc main_arg13)) := by
  funext idx
  obtain ⟨p, r, o, rfl⟩ : ∃ (p : Fin 32) (r : Fin 512) (o : Fin 256), idx = ix3 p r o := ⟨idx 0, idx 1, idx 2, eq_ix3 idx⟩
  obtain ⟨t, ht⟩ : ∃ t : Fin cfg0.N, p.val = t.val := ⟨⟨p.val, by have hN : cfg0.N = 32 := N_0; rw [hN]; exact p.isLt⟩, rfl⟩
  have h1 : (dats m 0 c).arrAt 16 cfg0.N (ix3 p r o) = (dats m 0 c).flushed 16 t (ix3 0 r o) := by
    have hb := congrFun (Value.blocks16 m c t (flush0_16 t)) (ix3 0 r o)
    rw [← emb16 t p ht r o]; exact hb
  rw [h1, Value.flushed16_A]
  show out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r o) = _
  refine (out16_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r o).trans ?_
  rw [intArr_ix3]
  unfold stackG adjOf feat
  rw [wTab_congr (L := 9) (iblk m c 11 t) (V m c main_arg12) (fun k o d => blk11_read m c t k o d),
    bTab_congr (L := 9) (iblk m c 12 t) (V m c main_arg13) (fun k o => blk12_read m c t k o)]
  simp only [blk4_read m c t p ht, blk0_read m c t p ht]

/-- The kernel's run: every weakly fair execution terminates with the four results at the specification's arrays of the
    arguments, the arguments unchanged. -/
theorem run : θ_run defs (onTc (τ := τ) (main (F := Ideal))) ⟨m, fun _ => 0, ρ⟩ fun r => ∀ c : Dev nD,
      r.2.mem ((c : Thread nD τ).loc main_v0_0) = conArr (m ((c : Thread nD τ).loc main_arg0)) (m ((c : Thread nD τ).loc main_arg1)) (m ((c : Thread nD τ).loc main_arg6)) (m ((c : Thread nD τ).loc main_arg7))
      ∧ r.2.mem ((c : Thread nD τ).loc main_v0_1) = intArr (m ((c : Thread nD τ).loc main_arg0)) (m ((c : Thread nD τ).loc main_arg2)) (m ((c : Thread nD τ).loc main_arg8)) (m ((c : Thread nD τ).loc main_arg9))
      ∧ r.2.mem ((c : Thread nD τ).loc main_v0_2) = realArr (m ((c : Thread nD τ).loc main_arg0)) (m ((c : Thread nD τ).loc main_arg3)) (m ((c : Thread nD τ).loc main_arg10)) (m ((c : Thread nD τ).loc main_arg11))
      ∧ r.2.mem ((c : Thread nD τ).loc main_v0_3) = intArr (m ((c : Thread nD τ).loc main_arg0)) (m ((c : Thread nD τ).loc main_arg4)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final13 m c), (h c).2.1.trans (final14 m c),
      (h c).2.2.1.trans (final15 m c), (h c).2.2.2.1.trans (final16 m c), (h c).2.2.2.2⟩)
    (Value.run_blocks m ρ)

end Cert.KernelIdeal.KerValue

end
-- ==== Proof.RefOps0.lean ====
/- The host operations of statements 1 to 60 of the reference's @main, in program order, as consecutive pieces (a call of
   the outlined relu stands as its three operations over the call's buffers), with the equation that the printed part
   runs exactly these operations, and for each piece that its operations touch only this program's buffers and allocate
   nothing. A piece ends where a layer's result is written (or, for the first, where the last shared divisor is), or
   where the printed part ends. -/
import proofs.«128254_j60155311947910_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 1 to 20 of the 389. -/
abbrev piece0 : List (HloOp τ sig (Elt F)) :=
  [ unary main_arg2 main_v0 (sitofp .f32 : (⟨S32x512x512, .i32⟩ : BufTy).Contents (Elt F) → (⟨S32x512x512, .f32⟩ : BufTy).Contents (Elt F)),
    unary main_arg4 main_v1 (sitofp .f32 : (⟨S32x512x512, .i32⟩ : BufTy).Contents (Elt F) → (⟨S32x512x512, .f32⟩ : BufTy).Contents (Elt F)),
    nullary main_cst (constant S_ .f32 0x00000000#32),
    binary main_v0 main_cst main_v2 ((fun x v => Host.reduceAdd x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
    unary main_v2 main_v3 (broadcastInDim S32x512x1 ![0, 1] bcast_S32x512_S32x512x1_0_1 : (⟨S32x512, .f32⟩ : BufTy).Contents (Elt F) → (⟨S32x512x1, .f32⟩ : BufTy).Contents (Elt F)),
    nullary main_cst_0 (constant S_ .f32 0x3F800000#32),
    unary main_cst_0 main_v4 (broadcastInDim S32x512x1 ![] bcast_S_S32x512x1 : (⟨S_, .f32⟩ : BufTy).Contents (Elt F) → (⟨S32x512x1, .f32⟩ : BufTy).Contents (Elt F)),
    binary main_v3 main_v4 main_v5 (addf : (⟨S32x512x1, .f32⟩ : BufTy).Contents (Elt F) → (⟨S32x512x1, .f32⟩ : BufTy).Contents (Elt F) → (⟨S32x512x1, .f32⟩ : BufTy).Contents (Elt F)),
    nullary main_cst_1 (constant S_ .f32 0x00000000#32),
    binary main_arg3 main_cst_1 main_v6 ((fun x v => Host.reduceAdd x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
    unary main_v6 main_v7 (broadcastInDim S32x512x1 ![0, 1] bcast_S32x512_S32x512x1_0_1 : (⟨S32x512, .f32⟩ : BufTy).Contents (Elt F) → (⟨S32x512x1, .f32⟩ : BufTy).Contents (Elt F)),
    nullary main_cst_2 (constant S_ .f32 0x3F800000#32),
    unary main_cst_2 main_v8 (broadcastInDim S32x512x1 ![] bcast_S_S32x512x1 : (⟨S_, .f32⟩ : BufTy).Contents (Elt F) → (⟨S32x512x1, .f32⟩ : BufTy).Contents (Elt F)),
    binary main_v7 main_v8 main_v9 (addf : (⟨S32x512x1, .f32⟩ : BufTy).Contents (Elt F) → (⟨S32x512x1, .f32⟩ : BufTy).Contents (Elt F) → (⟨S32x512x1, .f32⟩ : BufTy).Contents (Elt F)),
    nullary main_cst_3 (constant S_ .f32 0x00000000#32),
    binary main_v1 main_cst_3 main_v10 ((fun x v => Host.reduceAdd x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
    unary main_v10 main_v11 (broadcastInDim S32x512x1 ![0, 1] bcast_S32x512_S32x512x1_0_1 : (⟨S32x512, .f32⟩ : BufTy).Contents (Elt F) → (⟨S32x512x1, .f32⟩ : BufTy).Contents (Elt F)),
    nullary main_cst_4 (constant S_ .f32 0x3F800000#32),
    unary main_cst_4 main_v12 (broadcastInDim S32x512x1 ![] bcast_S_S32x512x1 : (⟨S_, .f32⟩ : BufTy).Contents (Elt F) → (⟨S32x512x1, .f32⟩ : BufTy).Contents (Elt F)),
    binary main_v11 main_v12 main_v13 (addf : (⟨S32x512x1, .f32⟩ : BufTy).Contents (Elt F) → (⟨S32x512x1, .f32⟩ : BufTy).Contents (Elt F) → (⟨S32x512x1, .f32⟩ : BufTy).Contents (Elt F)) ]

set_option maxRecDepth 8192 in
theorem piece0_sub : (piece0 : List (HloOp τ sig (Elt F))).Forall fun op => op.bufs ⊆ tcRefs τ sig :=
  ⟨unary_bufs_sub .., unary_bufs_sub .., nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub ..⟩

set_option maxRecDepth 8192 in
theorem piece0_fresh : ∀ op ∈ (piece0 : List (HloOp τ sig (Elt F))), op.fresh = ∅ := by
  intro _ h; (repeat (cases h with | head => rfl | tail _ h => ?_)); exact nomatch h

set_option maxHeartbeats 4000000 in
/-- Operations 21 to 55 of the 389. -/
abbrev piece1 : List (HloOp τ sig (Elt F)) :=
  [ unary main_arg1 main_v14 ((extractStridedSlice S1x32x512x512 ![0, 0, 0, 0] · slices_S2x32x512x512_S1x32x512x512_0_0_0_0) : (⟨S2x32x512x512, .i32⟩ : BufTy).Contents (Elt F) → (⟨S1x32x512x512, .i32⟩ : BufTy).Contents (Elt F)),
    reshape main_v14 main_v15 rfl shapeCasts_S1x32x512x512_S32x512x512,
    nullary main_c (constantI S_ 32 0#32),
    unary main_c main_v16 (broadcastInDim S32x512x512 ![] bcast_S_S32x512x512 : (⟨S_, .i32⟩ : BufTy).Contents (Elt F) → (⟨S32x512x512, .i32⟩ : BufTy).Contents (Elt F)),
    binary main_v15 main_v16 main_v17 (cmpi .ne : (⟨S32x512x512, .i32⟩ : BufTy).Contents (Elt F) → (⟨S32x512x512, .i32⟩ : BufTy).Contents (Elt F) → (⟨S32x512x512, .i1⟩ : BufTy).Contents (Elt F)),
    unary main_v17 main_v18 (uitofp .f32 : (⟨S32x512x512, .i1⟩ : BufTy).Contents (Elt F) → (⟨S32x512x512, .f32⟩ : BufTy).Contents (Elt F)),
    nullary main_cst_5 (constant S_ .f32 0x00000000#32),
    binary main_v18 main_cst_5 main_v19 ((fun x v => Host.reduceAdd x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
    unary main_v19 main_v20 (broadcastInDim S32x512x1 ![0, 1] bcast_S32x512_S32x512x1_0_1 : (⟨S32x512, .f32⟩ : BufTy).Contents (Elt F) → (⟨S32x512x1, .f32⟩ : BufTy).Contents (Elt F)),
    nullary main_cst_6 (constant S_ .f32 0x3F800000#32),
    unary main_cst_6 main_v21 (broadcastInDim S32x512x1 ![] bcast_S_S32x512x1 : (⟨S_, .f32⟩ : BufTy).Contents (Elt F) → (⟨S32x512x1, .f32⟩ : BufTy).Contents (Elt F)),
    binary main_v20 main_v21 main_v22 (addf : (⟨S32x512x1, .f32⟩ : BufTy).Contents (Elt F) → (⟨S32x512x1, .f32⟩ : BufTy).Contents (Elt F) → (⟨S32x512x1, .f32⟩ : BufTy).Contents (Elt F)),
    binary main_v18 main_arg0 main_v23 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg6 main_v24 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v24 main_v25 rfl shapeCasts_S1x256x256_S256x256,
    unary main_arg7 main_v26 ((extractStridedSlice S1x256 ![0, 0] · slices_S2x256_S1x256_0_0) : (⟨S2x256, .f32⟩ : BufTy).Contents (Elt F) → (⟨S1x256, .f32⟩ : BufTy).Contents (Elt F)),
    reshape main_v26 main_v27 rfl shapeCasts_S1x256_S256,
    binary main_v23 main_v25 main_v28 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v27 main_v29 (broadcastInDim S1x1x256 ![2] bcast_S256_S1x1x256_2 : (⟨S256, .f32⟩ : BufTy).Contents (Elt F) → (⟨S1x1x256, .f32⟩ : BufTy).Contents (Elt F)),
    unary main_v29 main_v30 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v28 main_v30 main_v31 (addf : (⟨S32x512x256, .f32⟩ : BufTy).Contents (Elt F) → (⟨S32x512x256, .f32⟩ : BufTy).Contents (Elt F) → (⟨S32x512x256, .f32⟩ : BufTy).Contents (Elt F)),
    unary main_arg6 main_v32 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v32 main_v33 rfl shapeCasts_S1x256x256_S256x256,
    unary main_arg7 main_v34 ((extractStridedSlice S1x256 ![0, 0] · slices_S2x256_S1x256_0_0) : (⟨S2x256, .f32⟩ : BufTy).Contents (Elt F) → (⟨S1x256, .f32⟩ : BufTy).Contents (Elt F)),
    reshape main_v34 main_v35 rfl shapeCasts_S1x256_S256,
    binary main_arg0 main_v33 main_v36 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v35 main_v37 (broadcastInDim S1x1x256 ![2] bcast_S256_S1x1x256_2 : (⟨S256, .f32⟩ : BufTy).Contents (Elt F) → (⟨S1x1x256, .f32⟩ : BufTy).Contents (Elt F)),
    unary main_v37 main_v38 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v36 main_v38 main_v39 (addf : (⟨S32x512x256, .f32⟩ : BufTy).Contents (Elt F) → (⟨S32x512x256, .f32⟩ : BufTy).Contents (Elt F) → (⟨S32x512x256, .f32⟩ : BufTy).Contents (Elt F)),
    binary main_v31 main_v39 main_v40 (addf : (⟨S32x512x256, .f32⟩ : BufTy).Contents (Elt F) → (⟨S32x512x256, .f32⟩ : BufTy).Contents (Elt F) → (⟨S32x512x256, .f32⟩ : BufTy).Contents (Elt F)),
    unary main_v22 main_v41 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v40 main_v41 main_v42 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32x512x256, .f32⟩) main_call0_v0) (broadcastInDim S32x512x256 ![] bcast_S_S32x512x256),
    TRef.binary (TRef.of (T := ⟨S32x512x256, .f32⟩) main_v42) (TRef.of (T := ⟨S32x512x256, .f32⟩) main_call0_v0) (TRef.of (T := ⟨S32x512x256, .f32⟩) main_v43) maximumf ]

set_option maxRecDepth 8192 in
theorem piece1_sub : (piece1 : List (HloOp τ sig (Elt F))).Forall fun op => op.bufs ⊆ tcRefs τ sig :=
  ⟨unary_bufs_sub .., reshape_bufs_sub .., nullary_bufs_sub .., unary_bufs_sub .., binary_bufs_sub .., unary_bufs_sub .., nullary_bufs_sub .., binary_bufs_sub .., unary_bufs_sub .., nullary_bufs_sub .., unary_bufs_sub .., binary_bufs_sub .., binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece1_fresh : ∀ op ∈ (piece1 : List (HloOp τ sig (Elt F))), op.fresh = ∅ := by
  intro _ h; (repeat (cases h with | head => rfl | tail _ h => ?_)); exact nomatch h

set_option maxHeartbeats 4000000 in
/-- Operations 56 to 62 of the 389. -/
abbrev piece2 : List (HloOp τ sig (Elt F)) :=
  [ unary main_arg1 main_v44 ((extractStridedSlice S1x32x512x512 ![1, 0, 0, 0] · slices_S2x32x512x512_S1x32x512x512_1_0_0_0) : (⟨S2x32x512x512, .i32⟩ : BufTy).Contents (Elt F) → (⟨S1x32x512x512, .i32⟩ : BufTy).Contents (Elt F)),
    reshape main_v44 main_v45 rfl shapeCasts_S1x32x512x512_S32x512x512,
    nullary main_c_7 (constantI S_ 32 0#32),
    unary main_c_7 main_v46 (broadcastInDim S32x512x512 ![] bcast_S_S32x512x512 : (⟨S_, .i32⟩ : BufTy).Contents (Elt F) → (⟨S32x512x512, .i32⟩ : BufTy).Contents (Elt F)),
    binary main_v45 main_v46 main_v47 (cmpi .ne : (⟨S32x512x512, .i32⟩ : BufTy).Contents (Elt F) → (⟨S32x512x512, .i32⟩ : BufTy).Contents (Elt F) → (⟨S32x512x512, .i1⟩ : BufTy).Contents (Elt F)),
    unary main_v47 main_v48 (uitofp .f32 : (⟨S32x512x512, .i1⟩ : BufTy).Contents (Elt F) → (⟨S32x512x512, .f32⟩ : BufTy).Contents (Elt F)),
    nullary main_cst_8 (constant S_ .f32 0x00000000#32) ]

set_option maxRecDepth 8192 in
theorem piece2_sub : (piece2 : List (HloOp τ sig (Elt F))).Forall fun op => op.bufs ⊆ tcRefs τ sig :=
  ⟨unary_bufs_sub .., reshape_bufs_sub .., nullary_bufs_sub .., unary_bufs_sub .., binary_bufs_sub .., unary_bufs_sub .., nullary_bufs_sub ..⟩

set_option maxRecDepth 8192 in
theorem piece2_fresh : ∀ op ∈ (piece2 : List (HloOp τ sig (Elt F))), op.fresh = ∅ := by
  intro _ h; (repeat (cases h with | head => rfl | tail _ h => ?_)); exact nomatch h

set_option maxRecDepth 8192 in
set_option maxHeartbeats 4000000 in
theorem part0_eq (c : Dev nD) : main_part0 (F := F) c = seq (piece0 ++ (piece1 ++ (piece2))) := rfl

end Cert.ReferenceIdeal.RefRun

end
-- ==== Proof.RefOps1.lean ====
/- The host operations of statements 61 to 120 of the reference's @main, in program order, as consecutive pieces (a call of
   the outlined relu stands as its three operations over the call's buffers), with the equation that the printed part
   runs exactly these operations, and for each piece that its operations touch only this program's buffers and allocate
   nothing. A piece ends where a layer's result is written (or, for the first, where the last shared divisor is), or
   where the printed part ends. -/
import proofs.«128254_j60155311947910_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 63 to 90 of the 389. -/
abbrev piece3 : List (HloOp τ sig (Elt F)) :=
  [ binary main_v48 main_cst_8 main_v49 ((fun x v => Host.reduceAdd x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
    unary main_v49 main_v50 (broadcastInDim S32x512x1 ![0, 1] bcast_S32x512_S32x512x1_0_1 : (⟨S32x512, .f32⟩ : BufTy).Contents (Elt F) → (⟨S32x512x1, .f32⟩ : BufTy).Contents (Elt F)),
    nullary main_cst_9 (constant S_ .f32 0x3F800000#32),
    unary main_cst_9 main_v51 (broadcastInDim S32x512x1 ![] bcast_S_S32x512x1 : (⟨S_, .f32⟩ : BufTy).Contents (Elt F) → (⟨S32x512x1, .f32⟩ : BufTy).Contents (Elt F)),
    binary main_v50 main_v51 main_v52 (addf : (⟨S32x512x1, .f32⟩ : BufTy).Contents (Elt F) → (⟨S32x512x1, .f32⟩ : BufTy).Contents (Elt F) → (⟨S32x512x1, .f32⟩ : BufTy).Contents (Elt F)),
    binary main_v48 main_v43 main_v53 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg6 main_v54 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v54 main_v55 rfl shapeCasts_S1x256x256_S256x256,
    unary main_arg7 main_v56 ((extractStridedSlice S1x256 ![1, 0] · slices_S2x256_S1x256_1_0) : (⟨S2x256, .f32⟩ : BufTy).Contents (Elt F) → (⟨S1x256, .f32⟩ : BufTy).Contents (Elt F)),
    reshape main_v56 main_v57 rfl shapeCasts_S1x256_S256,
    binary main_v53 main_v55 main_v58 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v57 main_v59 (broadcastInDim S1x1x256 ![2] bcast_S256_S1x1x256_2 : (⟨S256, .f32⟩ : BufTy).Contents (Elt F) → (⟨S1x1x256, .f32⟩ : BufTy).Contents (Elt F)),
    unary main_v59 main_v60 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v58 main_v60 main_v61 (addf : (⟨S32x512x256, .f32⟩ : BufTy).Contents (Elt F) → (⟨S32x512x256, .f32⟩ : BufTy).Contents (Elt F) → (⟨S32x512x256, .f32⟩ : BufTy).Contents (Elt F)),
    unary main_arg6 main_v62 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v62 main_v63 rfl shapeCasts_S1x256x256_S256x256,
    unary main_arg7 main_v64 ((extractStridedSlice S1x256 ![1, 0] · slices_S2x256_S1x256_1_0) : (⟨S2x256, .f32⟩ : BufTy).Contents (Elt F) → (⟨S1x256, .f32⟩ : BufTy).Contents (Elt F)),
    reshape main_v64 main_v65 rfl shapeCasts_S1x256_S256,
    binary main_v43 main_v63 main_v66 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v65 main_v67 (broadcastInDim S1x1x256 ![2] bcast_S256_S1x1x256_2 : (⟨S256, .f32⟩ : BufTy).Contents (Elt F) → (⟨S1x1x256, .f32⟩ : BufTy).Contents (Elt F)),
    unary main_v67 main_v68 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v66 main_v68 main_v69 (addf : (⟨S32x512x256, .f32⟩ : BufTy).Contents (Elt F) → (⟨S32x512x256, .f32⟩ : BufTy).Contents (Elt F) → (⟨S32x512x256, .f32⟩ : BufTy).Contents (Elt F)),
    binary main_v61 main_v69 main_v70 (addf : (⟨S32x512x256, .f32⟩ : BufTy).Contents (Elt F) → (⟨S32x512x256, .f32⟩ : BufTy).Contents (Elt F) → (⟨S32x512x256, .f32⟩ : BufTy).Contents (Elt F)),
    unary main_v52 main_v71 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v70 main_v71 main_v72 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32x512x256, .f32⟩) main_call1_v0) (broadcastInDim S32x512x256 ![] bcast_S_S32x512x256),
    TRef.binary (TRef.of (T := ⟨S32x512x256, .f32⟩) main_v72) (TRef.of (T := ⟨S32x512x256, .f32⟩) main_call1_v0) (TRef.of (T := ⟨S32x512x256, .f32⟩) main_v73) maximumf ]

set_option maxRecDepth 8192 in
theorem piece3_sub : (piece3 : List (HloOp τ sig (Elt F))).Forall fun op => op.bufs ⊆ tcRefs τ sig :=
  ⟨binary_bufs_sub .., unary_bufs_sub .., nullary_bufs_sub .., unary_bufs_sub .., binary_bufs_sub .., binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece3_fresh : ∀ op ∈ (piece3 : List (HloOp τ sig (Elt F))), op.fresh = ∅ := by
  intro _ h; (repeat (cases h with | head => rfl | tail _ h => ?_)); exact nomatch h

set_option maxHeartbeats 4000000 in
/-- Operations 91 to 113 of the 389. -/
abbrev piece4 : List (HloOp τ sig (Elt F)) :=
  [ binary main_v0 main_arg0 main_v74 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg8 main_v75 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v75 main_v76 rfl shapeCasts_S1x256x256_S256x256,
    unary main_arg9 main_v77 ((extractStridedSlice S1x256 ![0, 0] · slices_S2x256_S1x256_0_0) : (⟨S2x256, .f32⟩ : BufTy).Contents (Elt F) → (⟨S1x256, .f32⟩ : BufTy).Contents (Elt F)),
    reshape main_v77 main_v78 rfl shapeCasts_S1x256_S256,
    binary main_v74 main_v76 main_v79 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v78 main_v80 (broadcastInDim S1x1x256 ![2] bcast_S256_S1x1x256_2 : (⟨S256, .f32⟩ : BufTy).Contents (Elt F) → (⟨S1x1x256, .f32⟩ : BufTy).Contents (Elt F)),
    unary main_v80 main_v81 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v79 main_v81 main_v82 (addf : (⟨S32x512x256, .f32⟩ : BufTy).Contents (Elt F) → (⟨S32x512x256, .f32⟩ : BufTy).Contents (Elt F) → (⟨S32x512x256, .f32⟩ : BufTy).Contents (Elt F)),
    unary main_arg8 main_v83 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v83 main_v84 rfl shapeCasts_S1x256x256_S256x256,
    unary main_arg9 main_v85 ((extractStridedSlice S1x256 ![0, 0] · slices_S2x256_S1x256_0_0) : (⟨S2x256, .f32⟩ : BufTy).Contents (Elt F) → (⟨S1x256, .f32⟩ : BufTy).Contents (Elt F)),
    reshape main_v85 main_v86 rfl shapeCasts_S1x256_S256,
    binary main_arg0 main_v84 main_v87 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v86 main_v88 (broadcastInDim S1x1x256 ![2] bcast_S256_S1x1x256_2 : (⟨S256, .f32⟩ : BufTy).Contents (Elt F) → (⟨S1x1x256, .f32⟩ : BufTy).Contents (Elt F)),
    unary main_v88 main_v89 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v87 main_v89 main_v90 (addf : (⟨S32x512x256, .f32⟩ : BufTy).Contents (Elt F) → (⟨S32x512x256, .f32⟩ : BufTy).Contents (Elt F) → (⟨S32x512x256, .f32⟩ : BufTy).Contents (Elt F)),
    binary main_v82 main_v90 main_v91 (addf : (⟨S32x512x256, .f32⟩ : BufTy).Contents (Elt F) → (⟨S32x512x256, .f32⟩ : BufTy).Contents (Elt F) → (⟨S32x512x256, .f32⟩ : BufTy).Contents (Elt F)),
    unary main_v5 main_v92 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v91 main_v92 main_v93 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32x512x256, .f32⟩) main_call2_v0) (broadcastInDim S32x512x256 ![] bcast_S_S32x512x256),
    TRef.binary (TRef.of (T := ⟨S32x512x256, .f32⟩) main_v93) (TRef.of (T := ⟨S32x512x256, .f32⟩) main_call2_v0) (TRef.of (T := ⟨S32x512x256, .f32⟩) main_v94) maximumf ]

set_option maxRecDepth 8192 in
theorem piece4_sub : (piece4 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece4_fresh : ∀ op ∈ (piece4 : List (HloOp τ sig (Elt F))), op.fresh = ∅ := by
  intro _ h; (repeat (cases h with | head => rfl | tail _ h => ?_)); exact nomatch h

set_option maxHeartbeats 4000000 in
/-- Operations 114 to 126 of the 389. -/
abbrev piece5 : List (HloOp τ sig (Elt F)) :=
  [ binary main_v0 main_v94 main_v95 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg8 main_v96 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v96 main_v97 rfl shapeCasts_S1x256x256_S256x256,
    unary main_arg9 main_v98 ((extractStridedSlice S1x256 ![1, 0] · slices_S2x256_S1x256_1_0) : (⟨S2x256, .f32⟩ : BufTy).Contents (Elt F) → (⟨S1x256, .f32⟩ : BufTy).Contents (Elt F)),
    reshape main_v98 main_v99 rfl shapeCasts_S1x256_S256,
    binary main_v95 main_v97 main_v100 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v99 main_v101 (broadcastInDim S1x1x256 ![2] bcast_S256_S1x1x256_2 : (⟨S256, .f32⟩ : BufTy).Contents (Elt F) → (⟨S1x1x256, .f32⟩ : BufTy).Contents (Elt F)),
    unary main_v101 main_v102 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v100 main_v102 main_v103 (addf : (⟨S32x512x256, .f32⟩ : BufTy).Contents (Elt F) → (⟨S32x512x256, .f32⟩ : BufTy).Contents (Elt F) → (⟨S32x512x256, .f32⟩ : BufTy).Contents (Elt F)),
    unary main_arg8 main_v104 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v104 main_v105 rfl shapeCasts_S1x256x256_S256x256,
    unary main_arg9 main_v106 ((extractStridedSlice S1x256 ![1, 0] · slices_S2x256_S1x256_1_0) : (⟨S2x256, .f32⟩ : BufTy).Contents (Elt F) → (⟨S1x256, .f32⟩ : BufTy).Contents (Elt F)),
    reshape main_v106 main_v107 rfl shapeCasts_S1x256_S256 ]

set_option maxRecDepth 8192 in
theorem piece5_sub : (piece5 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub ..⟩

set_option maxRecDepth 8192 in
theorem piece5_fresh : ∀ op ∈ (piece5 : List (HloOp τ sig (Elt F))), op.fresh = ∅ := by
  intro _ h; (repeat (cases h with | head => rfl | tail _ h => ?_)); exact nomatch h

set_option maxRecDepth 8192 in
set_option maxHeartbeats 4000000 in
theorem part1_eq (c : Dev nD) : main_part1 (F := F) c = seq (piece3 ++ (piece4 ++ (piece5))) := rfl

end Cert.ReferenceIdeal.RefRun

end
-- ==== Proof.RefOps2.lean ====
/- The host operations of statements 121 to 180 of the reference's @main, in program order, as consecutive pieces (a call of
   the outlined relu stands as its three operations over the call's buffers), with the equation that the printed part
   runs exactly these operations, and for each piece that its operations touch only this program's buffers and allocate
   nothing. A piece ends where a layer's result is written (or, for the first, where the last shared divisor is), or
   where the printed part ends. -/
import proofs.«128254_j60155311947910_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 127 to 136 of the 389. -/
abbrev piece6 : List (HloOp τ sig (Elt F)) :=
  [ binary main_v94 main_v105 main_v108 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v107 main_v109 (broadcastInDim S1x1x256 ![2] bcast_S256_S1x1x256_2 : (⟨S256, .f32⟩ : BufTy).Contents (Elt F) → (⟨S1x1x256, .f32⟩ : BufTy).Contents (Elt F)),
    unary main_v109 main_v110 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v108 main_v110 main_v111 (addf : (⟨S32x512x256, .f32⟩ : BufTy).Contents (Elt F) → (⟨S32x512x256, .f32⟩ : BufTy).Contents (Elt F) → (⟨S32x512x256, .f32⟩ : BufTy).Contents (Elt F)),
    binary main_v103 main_v111 main_v112 (addf : (⟨S32x512x256, .f32⟩ : BufTy).Contents (Elt F) → (⟨S32x512x256, .f32⟩ : BufTy).Contents (Elt F) → (⟨S32x512x256, .f32⟩ : BufTy).Contents (Elt F)),
    unary main_v5 main_v113 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v112 main_v113 main_v114 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S32x512x256, .f32⟩) main_call3_v0) (broadcastInDim S32x512x256 ![] bcast_S_S32x512x256),
    TRef.binary (TRef.of (T := ⟨S32x512x256, .f32⟩) main_v114) (TRef.of (T := ⟨S32x512x256, .f32⟩) main_call3_v0) (TRef.of (T := ⟨S32x512x256, .f32⟩) main_v115) maximumf ]

set_option maxRecDepth 8192 in
theorem piece6_sub : (piece6 : List (HloOp τ sig (Elt F))).Forall fun op => op.bufs ⊆ tcRefs τ sig :=
  ⟨binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece6_fresh : ∀ op ∈ (piece6 : List (HloOp τ sig (Elt F))), op.fresh = ∅ := by
  intro _ h; (repeat (cases h with | head => rfl | tail _ h => ?_)); exact nomatch h

set_option maxHeartbeats 4000000 in
/-- Operations 137 to 159 of the 389. -/
abbrev piece7 : List (HloOp τ sig (Elt F)) :=
  [ binary main_arg3 main_arg0 main_v116 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg10 main_v117 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v117 main_v118 rfl shapeCasts_S1x256x256_S256x256,
    unary main_arg11 main_v119 ((extractStridedSlice S1x256 ![0, 0] · slices_S2x256_S1x256_0_0) : (⟨S2x256, .f32⟩ : BufTy).Contents (Elt F) → (⟨S1x256, .f32⟩ : BufTy).Contents (Elt F)),
    reshape main_v119 main_v120 rfl shapeCasts_S1x256_S256,
    binary main_v116 main_v118 main_v121 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v120 main_v122 (broadcastInDim S1x1x256 ![2] bcast_S256_S1x1x256_2 : (⟨S256, .f32⟩ : BufTy).Contents (Elt F) → (⟨S1x1x256, .f32⟩ : BufTy).Contents (Elt F)),
    unary main_v122 main_v123 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v121 main_v123 main_v124 (addf : (⟨S32x512x256, .f32⟩ : BufTy).Contents (Elt F) → (⟨S32x512x256, .f32⟩ : BufTy).Contents (Elt F) → (⟨S32x512x256, .f32⟩ : BufTy).Contents (Elt F)),
    unary main_arg10 main_v125 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v125 main_v126 rfl shapeCasts_S1x256x256_S256x256,
    unary main_arg11 main_v127 ((extractStridedSlice S1x256 ![0, 0] · slices_S2x256_S1x256_0_0) : (⟨S2x256, .f32⟩ : BufTy).Contents (Elt F) → (⟨S1x256, .f32⟩ : BufTy).Contents (Elt F)),
    reshape main_v127 main_v128 rfl shapeCasts_S1x256_S256,
    binary main_arg0 main_v126 main_v129 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v128 main_v130 (broadcastInDim S1x1x256 ![2] bcast_S256_S1x1x256_2 : (⟨S256, .f32⟩ : BufTy).Contents (Elt F) → (⟨S1x1x256, .f32⟩ : BufTy).Contents (Elt F)),
    unary main_v130 main_v131 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v129 main_v131 main_v132 (addf : (⟨S32x512x256, .f32⟩ : BufTy).Contents (Elt F) → (⟨S32x512x256, .f32⟩ : BufTy).Contents (Elt F) → (⟨S32x512x256, .f32⟩ : BufTy).Contents (Elt F)),
    binary main_v124 main_v132 main_v133 (addf : (⟨S32x512x256, .f32⟩ : BufTy).Contents (Elt F) → (⟨S32x512x256, .f32⟩ : BufTy).Contents (Elt F) → (⟨S32x512x256, .f32⟩ : BufTy).Contents (Elt F)),
    unary main_v9 main_v134 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v133 main_v134 main_v135 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S32x512x256, .f32⟩) main_call4_v0) (broadcastInDim S32x512x256 ![] bcast_S_S32x512x256),
    TRef.binary (TRef.of (T := ⟨S32x512x256, .f32⟩) main_v135) (TRef.of (T := ⟨S32x512x256, .f32⟩) main_call4_v0) (TRef.of (T := ⟨S32x512x256, .f32⟩) main_v136) maximumf ]

set_option maxRecDepth 8192 in
theorem piece7_sub : (piece7 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece7_fresh : ∀ op ∈ (piece7 : List (HloOp τ sig (Elt F))), op.fresh = ∅ := by
  intro _ h; (repeat (cases h with | head => rfl | tail _ h => ?_)); exact nomatch h

set_option maxHeartbeats 4000000 in
/-- Operations 160 to 182 of the 389. -/
abbrev piece8 : List (HloOp τ sig (Elt F)) :=
  [ binary main_arg3 main_v136 main_v137 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg10 main_v138 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v138 main_v139 rfl shapeCasts_S1x256x256_S256x256,
    unary main_arg11 main_v140 ((extractStridedSlice S1x256 ![1, 0] · slices_S2x256_S1x256_1_0) : (⟨S2x256, .f32⟩ : BufTy).Contents (Elt F) → (⟨S1x256, .f32⟩ : BufTy).Contents (Elt F)),
    reshape main_v140 main_v141 rfl shapeCasts_S1x256_S256,
    binary main_v137 main_v139 main_v142 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v141 main_v143 (broadcastInDim S1x1x256 ![2] bcast_S256_S1x1x256_2 : (⟨S256, .f32⟩ : BufTy).Contents (Elt F) → (⟨S1x1x256, .f32⟩ : BufTy).Contents (Elt F)),
    unary main_v143 main_v144 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v142 main_v144 main_v145 (addf : (⟨S32x512x256, .f32⟩ : BufTy).Contents (Elt F) → (⟨S32x512x256, .f32⟩ : BufTy).Contents (Elt F) → (⟨S32x512x256, .f32⟩ : BufTy).Contents (Elt F)),
    unary main_arg10 main_v146 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v146 main_v147 rfl shapeCasts_S1x256x256_S256x256,
    unary main_arg11 main_v148 ((extractStridedSlice S1x256 ![1, 0] · slices_S2x256_S1x256_1_0) : (⟨S2x256, .f32⟩ : BufTy).Contents (Elt F) → (⟨S1x256, .f32⟩ : BufTy).Contents (Elt F)),
    reshape main_v148 main_v149 rfl shapeCasts_S1x256_S256,
    binary main_v136 main_v147 main_v150 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v149 main_v151 (broadcastInDim S1x1x256 ![2] bcast_S256_S1x1x256_2 : (⟨S256, .f32⟩ : BufTy).Contents (Elt F) → (⟨S1x1x256, .f32⟩ : BufTy).Contents (Elt F)),
    unary main_v151 main_v152 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v150 main_v152 main_v153 (addf : (⟨S32x512x256, .f32⟩ : BufTy).Contents (Elt F) → (⟨S32x512x256, .f32⟩ : BufTy).Contents (Elt F) → (⟨S32x512x256, .f32⟩ : BufTy).Contents (Elt F)),
    binary main_v145 main_v153 main_v154 (addf : (⟨S32x512x256, .f32⟩ : BufTy).Contents (Elt F) → (⟨S32x512x256, .f32⟩ : BufTy).Contents (Elt F) → (⟨S32x512x256, .f32⟩ : BufTy).Contents (Elt F)),
    unary main_v9 main_v155 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v154 main_v155 main_v156 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S32x512x256, .f32⟩) main_call5_v0) (broadcastInDim S32x512x256 ![] bcast_S_S32x512x256),
    TRef.binary (TRef.of (T := ⟨S32x512x256, .f32⟩) main_v156) (TRef.of (T := ⟨S32x512x256, .f32⟩) main_call5_v0) (TRef.of (T := ⟨S32x512x256, .f32⟩) main_v157) maximumf ]

set_option maxRecDepth 8192 in
theorem piece8_sub : (piece8 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece8_fresh : ∀ op ∈ (piece8 : List (HloOp τ sig (Elt F))), op.fresh = ∅ := by
  intro _ h; (repeat (cases h with | head => rfl | tail _ h => ?_)); exact nomatch h

set_option maxHeartbeats 4000000 in
/-- Operations 183 to 192 of the 389. -/
abbrev piece9 : List (HloOp τ sig (Elt F)) :=
  [ binary main_v1 main_arg0 main_v158 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg12 main_v159 ((extractStridedSlice S1x256x256 ![0, 0, 0] · slices_S9x256x256_S1x256x256_0_0_0) : (⟨S9x256x256, .f32⟩ : BufTy).Contents (Elt F) → (⟨S1x256x256, .f32⟩ : BufTy).Contents (Elt F)),
    reshape main_v159 main_v160 rfl shapeCasts_S1x256x256_S256x256,
    unary main_arg13 main_v161 ((extractStridedSlice S1x256 ![0, 0] · slices_S9x256_S1x256_0_0) : (⟨S9x256, .f32⟩ : BufTy).Contents (Elt F) → (⟨S1x256, .f32⟩ : BufTy).Contents (Elt F)),
    reshape main_v161 main_v162 rfl shapeCasts_S1x256_S256,
    binary main_v158 main_v160 main_v163 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v162 main_v164 (broadcastInDim S1x1x256 ![2] bcast_S256_S1x1x256_2 : (⟨S256, .f32⟩ : BufTy).Contents (Elt F) → (⟨S1x1x256, .f32⟩ : BufTy).Contents (Elt F)),
    unary main_v164 main_v165 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v163 main_v165 main_v166 (addf : (⟨S32x512x256, .f32⟩ : BufTy).Contents (Elt F) → (⟨S32x512x256, .f32⟩ : BufTy).Contents (Elt F) → (⟨S32x512x256, .f32⟩ : BufTy).Contents (Elt F)),
    unary main_arg12 main_v167 ((extractStridedSlice S1x256x256 ![0, 0, 0] · slices_S9x256x256_S1x256x256_0_0_0) : (⟨S9x256x256, .f32⟩ : BufTy).Contents (Elt F) → (⟨S1x256x256, .f32⟩ : BufTy).Contents (Elt F)) ]

set_option maxRecDepth 8192 in
theorem piece9_sub : (piece9 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., unary_bufs_sub .., binary_bufs_sub .., unary_bufs_sub ..⟩

set_option maxRecDepth 8192 in
theorem piece9_fresh : ∀ op ∈ (piece9 : List (HloOp τ sig (Elt F))), op.fresh = ∅ := by
  intro _ h; (repeat (cases h with | head => rfl | tail _ h => ?_)); exact nomatch h

set_option maxRecDepth 8192 in
set_option maxHeartbeats 4000000 in
theorem part2_eq (c : Dev nD) : main_part2 (F := F) c = seq (piece6 ++ (piece7 ++ (piece8 ++ (piece9)))) := rfl

end Cert.ReferenceIdeal.RefRun

end
-- ==== Proof.RefOps3.lean ====
/- The host operations of statements 181 to 240 of the reference's @main, in program order, as consecutive pieces (a call of
   the outlined relu stands as its three operations over the call's buffers), with the equation that the printed part
   runs exactly these operations, and for each piece that its operations touch only this program's buffers and allocate
   nothing. A piece ends where a layer's result is written (or, for the first, where the last shared divisor is), or
   where the printed part ends. -/
import proofs.«128254_j60155311947910_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 193 to 205 of the 389. -/
abbrev piece10 : List (HloOp τ sig (Elt F)) :=
  [ reshape main_v167 main_v168 rfl shapeCasts_S1x256x256_S256x256,
    unary main_arg13 main_v169 ((extractStridedSlice S1x256 ![0, 0] · slices_S9x256_S1x256_0_0) : (⟨S9x256, .f32⟩ : BufTy).Contents (Elt F) → (⟨S1x256, .f32⟩ : BufTy).Contents (Elt F)),
    reshape main_v169 main_v170 rfl shapeCasts_S1x256_S256,
    binary main_arg0 main_v168 main_v171 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v170 main_v172 (broadcastInDim S1x1x256 ![2] bcast_S256_S1x1x256_2 : (⟨S256, .f32⟩ : BufTy).Contents (Elt F) → (⟨S1x1x256, .f32⟩ : BufTy).Contents (Elt F)),
    unary main_v172 main_v173 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v171 main_v173 main_v174 (addf : (⟨S32x512x256, .f32⟩ : BufTy).Contents (Elt F) → (⟨S32x512x256, .f32⟩ : BufTy).Contents (Elt F) → (⟨S32x512x256, .f32⟩ : BufTy).Contents (Elt F)),
    binary main_v166 main_v174 main_v175 (addf : (⟨S32x512x256, .f32⟩ : BufTy).Contents (Elt F) → (⟨S32x512x256, .f32⟩ : BufTy).Contents (Elt F) → (⟨S32x512x256, .f32⟩ : BufTy).Contents (Elt F)),
    unary main_v13 main_v176 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v175 main_v176 main_v177 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S32x512x256, .f32⟩) main_call6_v0) (broadcastInDim S32x512x256 ![] bcast_S_S32x512x256),
    TRef.binary (TRef.of (T := ⟨S32x512x256, .f32⟩) main_v177) (TRef.of (T := ⟨S32x512x256, .f32⟩) main_call6_v0) (TRef.of (T := ⟨S32x512x256, .f32⟩) main_v178) maximumf ]

set_option maxRecDepth 8192 in
theorem piece10_sub : (piece10 : List (HloOp τ sig (Elt F))).Forall fun op => op.bufs ⊆ tcRefs τ sig :=
  ⟨reshape_bufs_sub .., unary_bufs_sub .., reshape_bufs_sub .., binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece10_fresh : ∀ op ∈ (piece10 : List (HloOp τ sig (Elt F))), op.fresh = ∅ := by
  intro _ h; (repeat (cases h with | head => rfl | tail _ h => ?_)); exact nomatch h

set_option maxHeartbeats 4000000 in
/-- Operations 206 to 228 of the 389. -/
abbrev piece11 : List (HloOp τ sig (Elt F)) :=
  [ binary main_v1 main_v178 main_v179 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg12 main_v180 ((extractStridedSlice S1x256x256 ![1, 0, 0] · slices_S9x256x256_S1x256x256_1_0_0) : (⟨S9x256x256, .f32⟩ : BufTy).Contents (Elt F) → (⟨S1x256x256, .f32⟩ : BufTy).Contents (Elt F)),
    reshape main_v180 main_v181 rfl shapeCasts_S1x256x256_S256x256,
    unary main_arg13 main_v182 ((extractStridedSlice S1x256 ![1, 0] · slices_S9x256_S1x256_1_0) : (⟨S9x256, .f32⟩ : BufTy).Contents (Elt F) → (⟨S1x256, .f32⟩ : BufTy).Contents (Elt F)),
    reshape main_v182 main_v183 rfl shapeCasts_S1x256_S256,
    binary main_v179 main_v181 main_v184 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v183 main_v185 (broadcastInDim S1x1x256 ![2] bcast_S256_S1x1x256_2 : (⟨S256, .f32⟩ : BufTy).Contents (Elt F) → (⟨S1x1x256, .f32⟩ : BufTy).Contents (Elt F)),
    unary main_v185 main_v186 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v184 main_v186 main_v187 (addf : (⟨S32x512x256, .f32⟩ : BufTy).Contents (Elt F) → (⟨S32x512x256, .f32⟩ : BufTy).Contents (Elt F) → (⟨S32x512x256, .f32⟩ : BufTy).Contents (Elt F)),
    unary main_arg12 main_v188 ((extractStridedSlice S1x256x256 ![1, 0, 0] · slices_S9x256x256_S1x256x256_1_0_0) : (⟨S9x256x256, .f32⟩ : BufTy).Contents (Elt F) → (⟨S1x256x256, .f32⟩ : BufTy).Contents (Elt F)),
    reshape main_v188 main_v189 rfl shapeCasts_S1x256x256_S256x256,
    unary main_arg13 main_v190 ((extractStridedSlice S1x256 ![1, 0] · slices_S9x256_S1x256_1_0) : (⟨S9x256, .f32⟩ : BufTy).Contents (Elt F) → (⟨S1x256, .f32⟩ : BufTy).Contents (Elt F)),
    reshape main_v190 main_v191 rfl shapeCasts_S1x256_S256,
    binary main_v178 main_v189 main_v192 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v191 main_v193 (broadcastInDim S1x1x256 ![2] bcast_S256_S1x1x256_2 : (⟨S256, .f32⟩ : BufTy).Contents (Elt F) → (⟨S1x1x256, .f32⟩ : BufTy).Contents (Elt F)),
    unary main_v193 main_v194 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v192 main_v194 main_v195 (addf : (⟨S32x512x256, .f32⟩ : BufTy).Contents (Elt F) → (⟨S32x512x256, .f32⟩ : BufTy).Contents (Elt F) → (⟨S32x512x256, .f32⟩ : BufTy).Contents (Elt F)),
    binary main_v187 main_v195 main_v196 (addf : (⟨S32x512x256, .f32⟩ : BufTy).Contents (Elt F) → (⟨S32x512x256, .f32⟩ : BufTy).Contents (Elt F) → (⟨S32x512x256, .f32⟩ : BufTy).Contents (Elt F)),
    unary main_v13 main_v197 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v196 main_v197 main_v198 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S32x512x256, .f32⟩) main_call7_v0) (broadcastInDim S32x512x256 ![] bcast_S_S32x512x256),
    TRef.binary (TRef.of (T := ⟨S32x512x256, .f32⟩) main_v198) (TRef.of (T := ⟨S32x512x256, .f32⟩) main_call7_v0) (TRef.of (T := ⟨S32x512x256, .f32⟩) main_v199) maximumf ]

set_option maxRecDepth 8192 in
theorem piece11_sub : (piece11 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece11_fresh : ∀ op ∈ (piece11 : List (HloOp τ sig (Elt F))), op.fresh = ∅ := by
  intro _ h; (repeat (cases h with | head => rfl | tail _ h => ?_)); exact nomatch h

set_option maxHeartbeats 4000000 in
/-- Operations 229 to 251 of the 389. -/
abbrev piece12 : List (HloOp τ sig (Elt F)) :=
  [ binary main_v1 main_v199 main_v200 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg12 main_v201 ((extractStridedSlice S1x256x256 ![2, 0, 0] · slices_S9x256x256_S1x256x256_2_0_0) : (⟨S9x256x256, .f32⟩ : BufTy).Contents (Elt F) → (⟨S1x256x256, .f32⟩ : BufTy).Contents (Elt F)),
    reshape main_v201 main_v202 rfl shapeCasts_S1x256x256_S256x256,
    unary main_arg13 main_v203 ((extractStridedSlice S1x256 ![2, 0] · slices_S9x256_S1x256_2_0) : (⟨S9x256, .f32⟩ : BufTy).Contents (Elt F) → (⟨S1x256, .f32⟩ : BufTy).Contents (Elt F)),
    reshape main_v203 main_v204 rfl shapeCasts_S1x256_S256,
    binary main_v200 main_v202 main_v205 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v204 main_v206 (broadcastInDim S1x1x256 ![2] bcast_S256_S1x1x256_2 : (⟨S256, .f32⟩ : BufTy).Contents (Elt F) → (⟨S1x1x256, .f32⟩ : BufTy).Contents (Elt F)),
    unary main_v206 main_v207 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v205 main_v207 main_v208 (addf : (⟨S32x512x256, .f32⟩ : BufTy).Contents (Elt F) → (⟨S32x512x256, .f32⟩ : BufTy).Contents (Elt F) → (⟨S32x512x256, .f32⟩ : BufTy).Contents (Elt F)),
    unary main_arg12 main_v209 ((extractStridedSlice S1x256x256 ![2, 0, 0] · slices_S9x256x256_S1x256x256_2_0_0) : (⟨S9x256x256, .f32⟩ : BufTy).Contents (Elt F) → (⟨S1x256x256, .f32⟩ : BufTy).Contents (Elt F)),
    reshape main_v209 main_v210 rfl shapeCasts_S1x256x256_S256x256,
    unary main_arg13 main_v211 ((extractStridedSlice S1x256 ![2, 0] · slices_S9x256_S1x256_2_0) : (⟨S9x256, .f32⟩ : BufTy).Contents (Elt F) → (⟨S1x256, .f32⟩ : BufTy).Contents (Elt F)),
    reshape main_v211 main_v212 rfl shapeCasts_S1x256_S256,
    binary main_v199 main_v210 main_v213 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v212 main_v214 (broadcastInDim S1x1x256 ![2] bcast_S256_S1x1x256_2 : (⟨S256, .f32⟩ : BufTy).Contents (Elt F) → (⟨S1x1x256, .f32⟩ : BufTy).Contents (Elt F)),
    unary main_v214 main_v215 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v213 main_v215 main_v216 (addf : (⟨S32x512x256, .f32⟩ : BufTy).Contents (Elt F) → (⟨S32x512x256, .f32⟩ : BufTy).Contents (Elt F) → (⟨S32x512x256, .f32⟩ : BufTy).Contents (Elt F)),
    binary main_v208 main_v216 main_v217 (addf : (⟨S32x512x256, .f32⟩ : BufTy).Contents (Elt F) → (⟨S32x512x256, .f32⟩ : BufTy).Contents (Elt F) → (⟨S32x512x256, .f32⟩ : BufTy).Contents (Elt F)),
    unary main_v13 main_v218 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v217 main_v218 main_v219 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S32x512x256, .f32⟩) main_call8_v0) (broadcastInDim S32x512x256 ![] bcast_S_S32x512x256),
    TRef.binary (TRef.of (T := ⟨S32x512x256, .f32⟩) main_v219) (TRef.of (T := ⟨S32x512x256, .f32⟩) main_call8_v0) (TRef.of (T := ⟨S32x512x256, .f32⟩) main_v220) maximumf ]

set_option maxRecDepth 8192 in
theorem piece12_sub : (piece12 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece12_fresh : ∀ op ∈ (piece12 : List (HloOp τ sig (Elt F))), op.fresh = ∅ := by
  intro _ h; (repeat (cases h with | head => rfl | tail _ h => ?_)); exact nomatch h

set_option maxHeartbeats 4000000 in
/-- Operations 252 to 258 of the 389. -/
abbrev piece13 : List (HloOp τ sig (Elt F)) :=
  [ binary main_v1 main_v220 main_v221 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg12 main_v222 ((extractStridedSlice S1x256x256 ![3, 0, 0] · slices_S9x256x256_S1x256x256_3_0_0) : (⟨S9x256x256, .f32⟩ : BufTy).Contents (Elt F) → (⟨S1x256x256, .f32⟩ : BufTy).Contents (Elt F)),
    reshape main_v222 main_v223 rfl shapeCasts_S1x256x256_S256x256,
    unary main_arg13 main_v224 ((extractStridedSlice S1x256 ![3, 0] · slices_S9x256_S1x256_3_0) : (⟨S9x256, .f32⟩ : BufTy).Contents (Elt F) → (⟨S1x256, .f32⟩ : BufTy).Contents (Elt F)),
    reshape main_v224 main_v225 rfl shapeCasts_S1x256_S256,
    binary main_v221 main_v223 main_v226 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v225 main_v227 (broadcastInDim S1x1x256 ![2] bcast_S256_S1x1x256_2 : (⟨S256, .f32⟩ : BufTy).Contents (Elt F) → (⟨S1x1x256, .f32⟩ : BufTy).Contents (Elt F)) ]

set_option maxRecDepth 8192 in
theorem piece13_sub : (piece13 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub ..⟩

set_option maxRecDepth 8192 in
theorem piece13_fresh : ∀ op ∈ (piece13 : List (HloOp τ sig (Elt F))), op.fresh = ∅ := by
  intro _ h; (repeat (cases h with | head => rfl | tail _ h => ?_)); exact nomatch h

set_option maxRecDepth 8192 in
set_option maxHeartbeats 4000000 in
theorem part3_eq (c : Dev nD) : main_part3 (F := F) c = seq (piece10 ++ (piece11 ++ (piece12 ++ (piece13)))) := rfl

end Cert.ReferenceIdeal.RefRun

end
-- ==== Proof.RefOps4.lean ====
/- The host operations of statements 241 to 300 of the reference's @main, in program order, as consecutive pieces (a call of
   the outlined relu stands as its three operations over the call's buffers), with the equation that the printed part
   runs exactly these operations, and for each piece that its operations touch only this program's buffers and allocate
   nothing. A piece ends where a layer's result is written (or, for the first, where the last shared divisor is), or
   where the printed part ends. -/
import proofs.«128254_j60155311947910_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 259 to 274 of the 389. -/
abbrev piece14 : List (HloOp τ sig (Elt F)) :=
  [ unary main_v227 main_v228 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v226 main_v228 main_v229 (addf : (⟨S32x512x256, .f32⟩ : BufTy).Contents (Elt F) → (⟨S32x512x256, .f32⟩ : BufTy).Contents (Elt F) → (⟨S32x512x256, .f32⟩ : BufTy).Contents (Elt F)),
    unary main_arg12 main_v230 ((extractStridedSlice S1x256x256 ![3, 0, 0] · slices_S9x256x256_S1x256x256_3_0_0) : (⟨S9x256x256, .f32⟩ : BufTy).Contents (Elt F) → (⟨S1x256x256, .f32⟩ : BufTy).Contents (Elt F)),
    reshape main_v230 main_v231 rfl shapeCasts_S1x256x256_S256x256,
    unary main_arg13 main_v232 ((extractStridedSlice S1x256 ![3, 0] · slices_S9x256_S1x256_3_0) : (⟨S9x256, .f32⟩ : BufTy).Contents (Elt F) → (⟨S1x256, .f32⟩ : BufTy).Contents (Elt F)),
    reshape main_v232 main_v233 rfl shapeCasts_S1x256_S256,
    binary main_v220 main_v231 main_v234 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v233 main_v235 (broadcastInDim S1x1x256 ![2] bcast_S256_S1x1x256_2 : (⟨S256, .f32⟩ : BufTy).Contents (Elt F) → (⟨S1x1x256, .f32⟩ : BufTy).Contents (Elt F)),
    unary main_v235 main_v236 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v234 main_v236 main_v237 (addf : (⟨S32x512x256, .f32⟩ : BufTy).Contents (Elt F) → (⟨S32x512x256, .f32⟩ : BufTy).Contents (Elt F) → (⟨S32x512x256, .f32⟩ : BufTy).Contents (Elt F)),
    binary main_v229 main_v237 main_v238 (addf : (⟨S32x512x256, .f32⟩ : BufTy).Contents (Elt F) → (⟨S32x512x256, .f32⟩ : BufTy).Contents (Elt F) → (⟨S32x512x256, .f32⟩ : BufTy).Contents (Elt F)),
    unary main_v13 main_v239 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v238 main_v239 main_v240 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S32x512x256, .f32⟩) main_call9_v0) (broadcastInDim S32x512x256 ![] bcast_S_S32x512x256),
    TRef.binary (TRef.of (T := ⟨S32x512x256, .f32⟩) main_v240) (TRef.of (T := ⟨S32x512x256, .f32⟩) main_call9_v0) (TRef.of (T := ⟨S32x512x256, .f32⟩) main_v241) maximumf ]

set_option maxRecDepth 8192 in
theorem piece14_sub : (piece14 : List (HloOp τ sig (Elt F))).Forall fun op => op.bufs ⊆ tcRefs τ sig :=
  ⟨unary_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece14_fresh : ∀ op ∈ (piece14 : List (HloOp τ sig (Elt F))), op.fresh = ∅ := by
  intro _ h; (repeat (cases h with | head => rfl | tail _ h => ?_)); exact nomatch h

set_option maxHeartbeats 4000000 in
/-- Operations 275 to 297 of the 389. -/
abbrev piece15 : List (HloOp τ sig (Elt F)) :=
  [ binary main_v1 main_v241 main_v242 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg12 main_v243 ((extractStridedSlice S1x256x256 ![4, 0, 0] · slices_S9x256x256_S1x256x256_4_0_0) : (⟨S9x256x256, .f32⟩ : BufTy).Contents (Elt F) → (⟨S1x256x256, .f32⟩ : BufTy).Contents (Elt F)),
    reshape main_v243 main_v244 rfl shapeCasts_S1x256x256_S256x256,
    unary main_arg13 main_v245 ((extractStridedSlice S1x256 ![4, 0] · slices_S9x256_S1x256_4_0) : (⟨S9x256, .f32⟩ : BufTy).Contents (Elt F) → (⟨S1x256, .f32⟩ : BufTy).Contents (Elt F)),
    reshape main_v245 main_v246 rfl shapeCasts_S1x256_S256,
    binary main_v242 main_v244 main_v247 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v246 main_v248 (broadcastInDim S1x1x256 ![2] bcast_S256_S1x1x256_2 : (⟨S256, .f32⟩ : BufTy).Contents (Elt F) → (⟨S1x1x256, .f32⟩ : BufTy).Contents (Elt F)),
    unary main_v248 main_v249 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v247 main_v249 main_v250 (addf : (⟨S32x512x256, .f32⟩ : BufTy).Contents (Elt F) → (⟨S32x512x256, .f32⟩ : BufTy).Contents (Elt F) → (⟨S32x512x256, .f32⟩ : BufTy).Contents (Elt F)),
    unary main_arg12 main_v251 ((extractStridedSlice S1x256x256 ![4, 0, 0] · slices_S9x256x256_S1x256x256_4_0_0) : (⟨S9x256x256, .f32⟩ : BufTy).Contents (Elt F) → (⟨S1x256x256, .f32⟩ : BufTy).Contents (Elt F)),
    reshape main_v251 main_v252 rfl shapeCasts_S1x256x256_S256x256,
    unary main_arg13 main_v253 ((extractStridedSlice S1x256 ![4, 0] · slices_S9x256_S1x256_4_0) : (⟨S9x256, .f32⟩ : BufTy).Contents (Elt F) → (⟨S1x256, .f32⟩ : BufTy).Contents (Elt F)),
    reshape main_v253 main_v254 rfl shapeCasts_S1x256_S256,
    binary main_v241 main_v252 main_v255 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v254 main_v256 (broadcastInDim S1x1x256 ![2] bcast_S256_S1x1x256_2 : (⟨S256, .f32⟩ : BufTy).Contents (Elt F) → (⟨S1x1x256, .f32⟩ : BufTy).Contents (Elt F)),
    unary main_v256 main_v257 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v255 main_v257 main_v258 (addf : (⟨S32x512x256, .f32⟩ : BufTy).Contents (Elt F) → (⟨S32x512x256, .f32⟩ : BufTy).Contents (Elt F) → (⟨S32x512x256, .f32⟩ : BufTy).Contents (Elt F)),
    binary main_v250 main_v258 main_v259 (addf : (⟨S32x512x256, .f32⟩ : BufTy).Contents (Elt F) → (⟨S32x512x256, .f32⟩ : BufTy).Contents (Elt F) → (⟨S32x512x256, .f32⟩ : BufTy).Contents (Elt F)),
    unary main_v13 main_v260 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v259 main_v260 main_v261 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S32x512x256, .f32⟩) main_call10_v0) (broadcastInDim S32x512x256 ![] bcast_S_S32x512x256),
    TRef.binary (TRef.of (T := ⟨S32x512x256, .f32⟩) main_v261) (TRef.of (T := ⟨S32x512x256, .f32⟩) main_call10_v0) (TRef.of (T := ⟨S32x512x256, .f32⟩) main_v262) maximumf ]

set_option maxRecDepth 8192 in
theorem piece15_sub : (piece15 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece15_fresh : ∀ op ∈ (piece15 : List (HloOp τ sig (Elt F))), op.fresh = ∅ := by
  intro _ h; (repeat (cases h with | head => rfl | tail _ h => ?_)); exact nomatch h

set_option maxHeartbeats 4000000 in
/-- Operations 298 to 320 of the 389. -/
abbrev piece16 : List (HloOp τ sig (Elt F)) :=
  [ binary main_v1 main_v262 main_v263 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg12 main_v264 ((extractStridedSlice S1x256x256 ![5, 0, 0] · slices_S9x256x256_S1x256x256_5_0_0) : (⟨S9x256x256, .f32⟩ : BufTy).Contents (Elt F) → (⟨S1x256x256, .f32⟩ : BufTy).Contents (Elt F)),
    reshape main_v264 main_v265 rfl shapeCasts_S1x256x256_S256x256,
    unary main_arg13 main_v266 ((extractStridedSlice S1x256 ![5, 0] · slices_S9x256_S1x256_5_0) : (⟨S9x256, .f32⟩ : BufTy).Contents (Elt F) → (⟨S1x256, .f32⟩ : BufTy).Contents (Elt F)),
    reshape main_v266 main_v267 rfl shapeCasts_S1x256_S256,
    binary main_v263 main_v265 main_v268 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v267 main_v269 (broadcastInDim S1x1x256 ![2] bcast_S256_S1x1x256_2 : (⟨S256, .f32⟩ : BufTy).Contents (Elt F) → (⟨S1x1x256, .f32⟩ : BufTy).Contents (Elt F)),
    unary main_v269 main_v270 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v268 main_v270 main_v271 (addf : (⟨S32x512x256, .f32⟩ : BufTy).Contents (Elt F) → (⟨S32x512x256, .f32⟩ : BufTy).Contents (Elt F) → (⟨S32x512x256, .f32⟩ : BufTy).Contents (Elt F)),
    unary main_arg12 main_v272 ((extractStridedSlice S1x256x256 ![5, 0, 0] · slices_S9x256x256_S1x256x256_5_0_0) : (⟨S9x256x256, .f32⟩ : BufTy).Contents (Elt F) → (⟨S1x256x256, .f32⟩ : BufTy).Contents (Elt F)),
    reshape main_v272 main_v273 rfl shapeCasts_S1x256x256_S256x256,
    unary main_arg13 main_v274 ((extractStridedSlice S1x256 ![5, 0] · slices_S9x256_S1x256_5_0) : (⟨S9x256, .f32⟩ : BufTy).Contents (Elt F) → (⟨S1x256, .f32⟩ : BufTy).Contents (Elt F)),
    reshape main_v274 main_v275 rfl shapeCasts_S1x256_S256,
    binary main_v262 main_v273 main_v276 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v275 main_v277 (broadcastInDim S1x1x256 ![2] bcast_S256_S1x1x256_2 : (⟨S256, .f32⟩ : BufTy).Contents (Elt F) → (⟨S1x1x256, .f32⟩ : BufTy).Contents (Elt F)),
    unary main_v277 main_v278 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v276 main_v278 main_v279 (addf : (⟨S32x512x256, .f32⟩ : BufTy).Contents (Elt F) → (⟨S32x512x256, .f32⟩ : BufTy).Contents (Elt F) → (⟨S32x512x256, .f32⟩ : BufTy).Contents (Elt F)),
    binary main_v271 main_v279 main_v280 (addf : (⟨S32x512x256, .f32⟩ : BufTy).Contents (Elt F) → (⟨S32x512x256, .f32⟩ : BufTy).Contents (Elt F) → (⟨S32x512x256, .f32⟩ : BufTy).Contents (Elt F)),
    unary main_v13 main_v281 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v280 main_v281 main_v282 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S32x512x256, .f32⟩) main_call11_v0) (broadcastInDim S32x512x256 ![] bcast_S_S32x512x256),
    TRef.binary (TRef.of (T := ⟨S32x512x256, .f32⟩) main_v282) (TRef.of (T := ⟨S32x512x256, .f32⟩) main_call11_v0) (TRef.of (T := ⟨S32x512x256, .f32⟩) main_v283) maximumf ]

set_option maxRecDepth 8192 in
theorem piece16_sub : (piece16 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece16_fresh : ∀ op ∈ (piece16 : List (HloOp τ sig (Elt F))), op.fresh = ∅ := by
  intro _ h; (repeat (cases h with | head => rfl | tail _ h => ?_)); exact nomatch h

set_option maxHeartbeats 4000000 in
/-- Operations 321 to 324 of the 389. -/
abbrev piece17 : List (HloOp τ sig (Elt F)) :=
  [ binary main_v1 main_v283 main_v284 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg12 main_v285 ((extractStridedSlice S1x256x256 ![6, 0, 0] · slices_S9x256x256_S1x256x256_6_0_0) : (⟨S9x256x256, .f32⟩ : BufTy).Contents (Elt F) → (⟨S1x256x256, .f32⟩ : BufTy).Contents (Elt F)),
    reshape main_v285 main_v286 rfl shapeCasts_S1x256x256_S256x256,
    unary main_arg13 main_v287 ((extractStridedSlice S1x256 ![6, 0] · slices_S9x256_S1x256_6_0) : (⟨S9x256, .f32⟩ : BufTy).Contents (Elt F) → (⟨S1x256, .f32⟩ : BufTy).Contents (Elt F)) ]

set_option maxRecDepth 8192 in
theorem piece17_sub : (piece17 : List (HloOp τ sig (Elt F))).Forall fun op => op.bufs ⊆ tcRefs τ sig :=
  ⟨binary_bufs_sub .., unary_bufs_sub .., reshape_bufs_sub .., unary_bufs_sub ..⟩

set_option maxRecDepth 8192 in
theorem piece17_fresh : ∀ op ∈ (piece17 : List (HloOp τ sig (Elt F))), op.fresh = ∅ := by
  intro _ h; (repeat (cases h with | head => rfl | tail _ h => ?_)); exact nomatch h

set_option maxRecDepth 8192 in
set_option maxHeartbeats 4000000 in
theorem part4_eq (c : Dev nD) : main_part4 (F := F) c = seq (piece14 ++ (piece15 ++ (piece16 ++ (piece17)))) := rfl

end Cert.ReferenceIdeal.RefRun

end
-- ==== Proof.RefOps5.lean ====
/- The host operations of statements 301 to 360 of the reference's @main, in program order, as consecutive pieces (a call of
   the outlined relu stands as its three operations over the call's buffers), with the equation that the printed part
   runs exactly these operations, and for each piece that its operations touch only this program's buffers and allocate
   nothing. A piece ends where a layer's result is written (or, for the first, where the last shared divisor is), or
   where the printed part ends. -/
import proofs.«128254_j60155311947910_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 325 to 343 of the 389. -/
abbrev piece18 : List (HloOp τ sig (Elt F)) :=
  [ reshape main_v287 main_v288 rfl shapeCasts_S1x256_S256,
    binary main_v284 main_v286 main_v289 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v288 main_v290 (broadcastInDim S1x1x256 ![2] bcast_S256_S1x1x256_2 : (⟨S256, .f32⟩ : BufTy).Contents (Elt F) → (⟨S1x1x256, .f32⟩ : BufTy).Contents (Elt F)),
    unary main_v290 main_v291 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v289 main_v291 main_v292 (addf : (⟨S32x512x256, .f32⟩ : BufTy).Contents (Elt F) → (⟨S32x512x256, .f32⟩ : BufTy).Contents (Elt F) → (⟨S32x512x256, .f32⟩ : BufTy).Contents (Elt F)),
    unary main_arg12 main_v293 ((extractStridedSlice S1x256x256 ![6, 0, 0] · slices_S9x256x256_S1x256x256_6_0_0) : (⟨S9x256x256, .f32⟩ : BufTy).Contents (Elt F) → (⟨S1x256x256, .f32⟩ : BufTy).Contents (Elt F)),
    reshape main_v293 main_v294 rfl shapeCasts_S1x256x256_S256x256,
    unary main_arg13 main_v295 ((extractStridedSlice S1x256 ![6, 0] · slices_S9x256_S1x256_6_0) : (⟨S9x256, .f32⟩ : BufTy).Contents (Elt F) → (⟨S1x256, .f32⟩ : BufTy).Contents (Elt F)),
    reshape main_v295 main_v296 rfl shapeCasts_S1x256_S256,
    binary main_v283 main_v294 main_v297 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v296 main_v298 (broadcastInDim S1x1x256 ![2] bcast_S256_S1x1x256_2 : (⟨S256, .f32⟩ : BufTy).Contents (Elt F) → (⟨S1x1x256, .f32⟩ : BufTy).Contents (Elt F)),
    unary main_v298 main_v299 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v297 main_v299 main_v300 (addf : (⟨S32x512x256, .f32⟩ : BufTy).Contents (Elt F) → (⟨S32x512x256, .f32⟩ : BufTy).Contents (Elt F) → (⟨S32x512x256, .f32⟩ : BufTy).Contents (Elt F)),
    binary main_v292 main_v300 main_v301 (addf : (⟨S32x512x256, .f32⟩ : BufTy).Contents (Elt F) → (⟨S32x512x256, .f32⟩ : BufTy).Contents (Elt F) → (⟨S32x512x256, .f32⟩ : BufTy).Contents (Elt F)),
    unary main_v13 main_v302 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v301 main_v302 main_v303 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S32x512x256, .f32⟩) main_call12_v0) (broadcastInDim S32x512x256 ![] bcast_S_S32x512x256),
    TRef.binary (TRef.of (T := ⟨S32x512x256, .f32⟩) main_v303) (TRef.of (T := ⟨S32x512x256, .f32⟩) main_call12_v0) (TRef.of (T := ⟨S32x512x256, .f32⟩) main_v304) maximumf ]

set_option maxRecDepth 8192 in
theorem piece18_sub : (piece18 : List (HloOp τ sig (Elt F))).Forall fun op => op.bufs ⊆ tcRefs τ sig :=
  ⟨reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece18_fresh : ∀ op ∈ (piece18 : List (HloOp τ sig (Elt F))), op.fresh = ∅ := by
  intro _ h; (repeat (cases h with | head => rfl | tail _ h => ?_)); exact nomatch h

set_option maxHeartbeats 4000000 in
/-- Operations 344 to 366 of the 389. -/
abbrev piece19 : List (HloOp τ sig (Elt F)) :=
  [ binary main_v1 main_v304 main_v305 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg12 main_v306 ((extractStridedSlice S1x256x256 ![7, 0, 0] · slices_S9x256x256_S1x256x256_7_0_0) : (⟨S9x256x256, .f32⟩ : BufTy).Contents (Elt F) → (⟨S1x256x256, .f32⟩ : BufTy).Contents (Elt F)),
    reshape main_v306 main_v307 rfl shapeCasts_S1x256x256_S256x256,
    unary main_arg13 main_v308 ((extractStridedSlice S1x256 ![7, 0] · slices_S9x256_S1x256_7_0) : (⟨S9x256, .f32⟩ : BufTy).Contents (Elt F) → (⟨S1x256, .f32⟩ : BufTy).Contents (Elt F)),
    reshape main_v308 main_v309 rfl shapeCasts_S1x256_S256,
    binary main_v305 main_v307 main_v310 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v309 main_v311 (broadcastInDim S1x1x256 ![2] bcast_S256_S1x1x256_2 : (⟨S256, .f32⟩ : BufTy).Contents (Elt F) → (⟨S1x1x256, .f32⟩ : BufTy).Contents (Elt F)),
    unary main_v311 main_v312 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v310 main_v312 main_v313 (addf : (⟨S32x512x256, .f32⟩ : BufTy).Contents (Elt F) → (⟨S32x512x256, .f32⟩ : BufTy).Contents (Elt F) → (⟨S32x512x256, .f32⟩ : BufTy).Contents (Elt F)),
    unary main_arg12 main_v314 ((extractStridedSlice S1x256x256 ![7, 0, 0] · slices_S9x256x256_S1x256x256_7_0_0) : (⟨S9x256x256, .f32⟩ : BufTy).Contents (Elt F) → (⟨S1x256x256, .f32⟩ : BufTy).Contents (Elt F)),
    reshape main_v314 main_v315 rfl shapeCasts_S1x256x256_S256x256,
    unary main_arg13 main_v316 ((extractStridedSlice S1x256 ![7, 0] · slices_S9x256_S1x256_7_0) : (⟨S9x256, .f32⟩ : BufTy).Contents (Elt F) → (⟨S1x256, .f32⟩ : BufTy).Contents (Elt F)),
    reshape main_v316 main_v317 rfl shapeCasts_S1x256_S256,
    binary main_v304 main_v315 main_v318 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v317 main_v319 (broadcastInDim S1x1x256 ![2] bcast_S256_S1x1x256_2 : (⟨S256, .f32⟩ : BufTy).Contents (Elt F) → (⟨S1x1x256, .f32⟩ : BufTy).Contents (Elt F)),
    unary main_v319 main_v320 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v318 main_v320 main_v321 (addf : (⟨S32x512x256, .f32⟩ : BufTy).Contents (Elt F) → (⟨S32x512x256, .f32⟩ : BufTy).Contents (Elt F) → (⟨S32x512x256, .f32⟩ : BufTy).Contents (Elt F)),
    binary main_v313 main_v321 main_v322 (addf : (⟨S32x512x256, .f32⟩ : BufTy).Contents (Elt F) → (⟨S32x512x256, .f32⟩ : BufTy).Contents (Elt F) → (⟨S32x512x256, .f32⟩ : BufTy).Contents (Elt F)),
    unary main_v13 main_v323 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v322 main_v323 main_v324 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S32x512x256, .f32⟩) main_call13_v0) (broadcastInDim S32x512x256 ![] bcast_S_S32x512x256),
    TRef.binary (TRef.of (T := ⟨S32x512x256, .f32⟩) main_v324) (TRef.of (T := ⟨S32x512x256, .f32⟩) main_call13_v0) (TRef.of (T := ⟨S32x512x256, .f32⟩) main_v325) maximumf ]

set_option maxRecDepth 8192 in
theorem piece19_sub : (piece19 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece19_fresh : ∀ op ∈ (piece19 : List (HloOp τ sig (Elt F))), op.fresh = ∅ := by
  intro _ h; (repeat (cases h with | head => rfl | tail _ h => ?_)); exact nomatch h

set_option maxHeartbeats 4000000 in
/-- Operations 367 to 389 of the 389. -/
abbrev piece20 : List (HloOp τ sig (Elt F)) :=
  [ binary main_v1 main_v325 main_v326 ((fun l r => Host.dotGeneral dot_S32x512x512_S32x512x256_S32x512x256_2_1_1_2_0_0 none l r) : (⟨S32x512x512, .f32⟩ : BufTy).Contents (Elt F) → (⟨S32x512x256, .f32⟩ : BufTy).Contents (Elt F) → (⟨S32x512x256, .f32⟩ : BufTy).Contents (Elt F)),
    unary main_arg12 main_v327 ((extractStridedSlice S1x256x256 ![8, 0, 0] · slices_S9x256x256_S1x256x256_8_0_0) : (⟨S9x256x256, .f32⟩ : BufTy).Contents (Elt F) → (⟨S1x256x256, .f32⟩ : BufTy).Contents (Elt F)),
    reshape main_v327 main_v328 rfl shapeCasts_S1x256x256_S256x256,
    unary main_arg13 main_v329 ((extractStridedSlice S1x256 ![8, 0] · slices_S9x256_S1x256_8_0) : (⟨S9x256, .f32⟩ : BufTy).Contents (Elt F) → (⟨S1x256, .f32⟩ : BufTy).Contents (Elt F)),
    reshape main_v329 main_v330 rfl shapeCasts_S1x256_S256,
    binary main_v326 main_v328 main_v331 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v330 main_v332 (broadcastInDim S1x1x256 ![2] bcast_S256_S1x1x256_2 : (⟨S256, .f32⟩ : BufTy).Contents (Elt F) → (⟨S1x1x256, .f32⟩ : BufTy).Contents (Elt F)),
    unary main_v332 main_v333 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v331 main_v333 main_v334 (addf : (⟨S32x512x256, .f32⟩ : BufTy).Contents (Elt F) → (⟨S32x512x256, .f32⟩ : BufTy).Contents (Elt F) → (⟨S32x512x256, .f32⟩ : BufTy).Contents (Elt F)),
    unary main_arg12 main_v335 ((extractStridedSlice S1x256x256 ![8, 0, 0] · slices_S9x256x256_S1x256x256_8_0_0) : (⟨S9x256x256, .f32⟩ : BufTy).Contents (Elt F) → (⟨S1x256x256, .f32⟩ : BufTy).Contents (Elt F)),
    reshape main_v335 main_v336 rfl shapeCasts_S1x256x256_S256x256,
    unary main_arg13 main_v337 ((extractStridedSlice S1x256 ![8, 0] · slices_S9x256_S1x256_8_0) : (⟨S9x256, .f32⟩ : BufTy).Contents (Elt F) → (⟨S1x256, .f32⟩ : BufTy).Contents (Elt F)),
    reshape main_v337 main_v338 rfl shapeCasts_S1x256_S256,
    binary main_v325 main_v336 main_v339 ((fun l r => Host.dotGeneral dot_S32x512x256_S256x256_S32x512x256_2_1_01_0_n_n none l r) : (⟨S32x512x256, .f32⟩ : BufTy).Contents (Elt F) → (⟨S256x256, .f32⟩ : BufTy).Contents (Elt F) → (⟨S32x512x256, .f32⟩ : BufTy).Contents (Elt F)),
    unary main_v338 main_v340 (broadcastInDim S1x1x256 ![2] bcast_S256_S1x1x256_2 : (⟨S256, .f32⟩ : BufTy).Contents (Elt F) → (⟨S1x1x256, .f32⟩ : BufTy).Contents (Elt F)),
    unary main_v340 main_v341 (broadcastInDim S32x512x256 ![0, 1, 2] bcast_S1x1x256_S32x512x256_0_1_2 : (⟨S1x1x256, .f32⟩ : BufTy).Contents (Elt F) → (⟨S32x512x256, .f32⟩ : BufTy).Contents (Elt F)),
    binary main_v339 main_v341 main_v342 (addf : (⟨S32x512x256, .f32⟩ : BufTy).Contents (Elt F) → (⟨S32x512x256, .f32⟩ : BufTy).Contents (Elt F) → (⟨S32x512x256, .f32⟩ : BufTy).Contents (Elt F)),
    binary main_v334 main_v342 main_v343 (addf : (⟨S32x512x256, .f32⟩ : BufTy).Contents (Elt F) → (⟨S32x512x256, .f32⟩ : BufTy).Contents (Elt F) → (⟨S32x512x256, .f32⟩ : BufTy).Contents (Elt F)),
    unary main_v13 main_v344 (broadcastInDim S32x512x256 ![0, 1, 2] bcast_S32x512x1_S32x512x256_0_1_2 : (⟨S32x512x1, .f32⟩ : BufTy).Contents (Elt F) → (⟨S32x512x256, .f32⟩ : BufTy).Contents (Elt F)),
    binary main_v343 main_v344 main_v345 (Host.divf : (⟨S32x512x256, .f32⟩ : BufTy).Contents (Elt F) → (⟨S32x512x256, .f32⟩ : BufTy).Contents (Elt F) → (⟨S32x512x256, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S32x512x256, .f32⟩) main_call14_v0) (broadcastInDim S32x512x256 ![] bcast_S_S32x512x256),
    TRef.binary (TRef.of (T := ⟨S32x512x256, .f32⟩) main_v345) (TRef.of (T := ⟨S32x512x256, .f32⟩) main_call14_v0) (TRef.of (T := ⟨S32x512x256, .f32⟩) main_v346) maximumf ]

set_option maxRecDepth 8192 in
theorem piece20_sub : (piece20 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., unary_bufs_sub .., binary_bufs_sub .., nullary_bufs_sub .., unary_bufs_sub .., binary_bufs_sub ..⟩

set_option maxRecDepth 8192 in
theorem piece20_fresh : ∀ op ∈ (piece20 : List (HloOp τ sig (Elt F))), op.fresh = ∅ := by
  intro _ h; (repeat (cases h with | head => rfl | tail _ h => ?_)); exact nomatch h

set_option maxRecDepth 8192 in
set_option maxHeartbeats 4000000 in
theorem part5_eq (c : Dev nD) : main_part5 (F := F) c = seq (piece18 ++ (piece19 ++ (piece20))) := rfl

end Cert.ReferenceIdeal.RefRun

end
-- ==== Proof.RefRunMain.lean ====
/-
  The reference's @main as one list of host operations: the concatenation of its consecutive pieces.

  The printed @main runs its six parts in order and each part runs its pieces in order; running two lists one after the
  other is running their concatenation, so @main runs the concatenation of all the pieces. Every operation of it touches
  only the program's own buffers and allocates nothing, because that holds piece by piece. The contents after a
  concatenation are the contents after its second half, from the contents after its first half.
-/
import proofs.«128254_j60155311947910_1_alg».proof.Proof.RefOps0
import proofs.«128254_j60155311947910_1_alg».proof.Proof.RefOps1
import proofs.«128254_j60155311947910_1_alg».proof.Proof.RefOps2
import proofs.«128254_j60155311947910_1_alg».proof.Proof.RefOps3
import proofs.«128254_j60155311947910_1_alg».proof.Proof.RefOps4
import proofs.«128254_j60155311947910_1_alg».proof.Proof.RefOps5
import Idealize.ShloMosaic.Lib.StableHlo.Run

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo

section Lists
variable {nD : Nat} {τ : Topo} {sig : RefSig} {Val : EltTy → Type}

/-- The contents after two lists run in order: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Two lists that allocate nothing concatenate to one that allocates nothing. -/
theorem fresh_append {l₁ l₂ : List (HloOp τ sig Val)} (h₁ : ∀ op ∈ l₁, op.fresh = ∅) (h₂ : ∀ op ∈ l₂, op.fresh = ∅) :
    ∀ op ∈ l₁ ++ l₂, op.fresh = ∅ := fun op h =>
  (List.mem_append.mp h).elim (h₁ op) (h₂ op)

end Lists

variable {F : FTy → Type} [FloatOps F]

/-- The 389 operations of @main, in order. -/
abbrev opsAll : List (HloOp τ sig (Elt F)) :=
  piece0 ++ (piece1 ++ (piece2 ++ (piece3 ++ (piece4 ++ (piece5 ++ (piece6 ++ (piece7 ++ (piece8 ++ (piece9 ++ (piece10 ++ (piece11 ++ (piece12 ++ (piece13 ++ (piece14 ++ (piece15 ++ (piece16 ++ (piece17 ++ (piece18 ++ (piece19 ++ (piece20))))))))))))))))))))

set_option maxRecDepth 8192 in
/-- @main runs them. -/
theorem main_eq (c : Dev nD) : main (F := F) c = seq opsAll := by
  unfold main
  rw [part0_eq, part1_eq, part2_eq, part3_eq, part4_eq, part5_eq]
  simp only [← seq_append, List.append_assoc]

theorem opsAll_sub : (opsAll : List (HloOp τ sig (Elt F))).Forall fun op => op.bufs ⊆ tcRefs τ sig :=
  List.forall_append.mpr ⟨piece0_sub, List.forall_append.mpr ⟨piece1_sub, List.forall_append.mpr ⟨piece2_sub, List.forall_append.mpr ⟨piece3_sub, List.forall_append.mpr ⟨piece4_sub, List.forall_append.mpr ⟨piece5_sub, List.forall_append.mpr ⟨piece6_sub, List.forall_append.mpr ⟨piece7_sub, List.forall_append.mpr ⟨piece8_sub, List.forall_append.mpr ⟨piece9_sub, List.forall_append.mpr ⟨piece10_sub, List.forall_append.mpr ⟨piece11_sub, List.forall_append.mpr ⟨piece12_sub, List.forall_append.mpr ⟨piece13_sub, List.forall_append.mpr ⟨piece14_sub, List.forall_append.mpr ⟨piece15_sub, List.forall_append.mpr ⟨piece16_sub, List.forall_append.mpr ⟨piece17_sub, List.forall_append.mpr ⟨piece18_sub, List.forall_append.mpr ⟨piece19_sub, piece20_sub⟩⟩⟩⟩⟩⟩⟩⟩⟩⟩⟩⟩⟩⟩⟩⟩⟩⟩⟩⟩

theorem opsAll_fresh : ∀ op ∈ (opsAll : List (HloOp τ sig (Elt F))), op.fresh = ∅ :=
  fresh_append piece0_fresh (fresh_append piece1_fresh (fresh_append piece2_fresh (fresh_append piece3_fresh (fresh_append piece4_fresh (fresh_append piece5_fresh (fresh_append piece6_fresh (fresh_append piece7_fresh (fresh_append piece8_fresh (fresh_append piece9_fresh (fresh_append piece10_fresh (fresh_append piece11_fresh (fresh_append piece12_fresh (fresh_append piece13_fresh (fresh_append piece14_fresh (fresh_append piece15_fresh (fresh_append piece16_fresh (fresh_append piece17_fresh (fresh_append piece18_fresh (fresh_append piece19_fresh (piece20_fresh))))))))))))))))))))

end Cert.ReferenceIdeal.RefValue

end
-- ==== Proof.RefRunFrame.lean ====
/-
  Which buffers each piece of the reference writes, and that it leaves the others alone.

  An operation rewrites its result buffer only. So a piece, read at a buffer that is the result of none of its operations,
  holds what was there before; in particular every piece after the first leaves alone the fourteen arguments, the two
  converted adjacencies and the three shared divisors, which the first piece wrote or nobody writes.
-/
import proofs.«128254_j60155311947910_1_alg».proof.Proof.RefOps0
import proofs.«128254_j60155311947910_1_alg».proof.Proof.RefOps1
import proofs.«128254_j60155311947910_1_alg».proof.Proof.RefOps2
import proofs.«128254_j60155311947910_1_alg».proof.Proof.RefOps3
import proofs.«128254_j60155311947910_1_alg».proof.Proof.RefOps4
import proofs.«128254_j60155311947910_1_alg».proof.Proof.RefOps5
import Idealize.ShloMosaic.Lib.StableHlo.Run

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo

/-- A buffer of a list is among the list's buffers as a set. -/
theorem writes_sub_of_mem {τ' : Topo} {sig' : RefSig} {y : Ref sig' .tc} {wr : List (Ref sig' .tc)} (h : y ∈ wr) :
    ({Proc.devRef (τ := τ') .tc y} : Finset (DevRef τ' sig')) ⊆ (wr.map (Proc.devRef (τ := τ') .tc)).toFinset :=
  Finset.singleton_subset_iff.mpr (List.mem_toFinset.mpr (List.mem_map.mpr ⟨y, h, rfl⟩))

variable {F : FTy → Type} [FloatOps F]

/-- The buffers every layer reads and only the first piece may write: the arguments, the two adjacencies converted from
    integer words, and the three divisors shared by the layers of a branch. -/
abbrev shared : List (Ref sig .tc) :=
  [ main_arg0, main_arg1, main_arg2, main_arg3, main_arg4, main_arg5, main_arg6,
    main_arg7, main_arg8, main_arg9, main_arg10, main_arg11, main_arg12, main_arg13,
    main_v0, main_v1, main_v5, main_v9, main_v13 ]

/-- Two contents that agree on the shared buffers. -/
def Agree (W U : Valuation τ sig (Elt F)) : Prop :=
  ∀ r ∈ shared, W (Proc.devRef .tc r) = U (Proc.devRef .tc r)

theorem Agree.refl (W : Valuation τ sig (Elt F)) : Agree W W := fun _ _ => rfl

/-- The buffers piece 0 writes, in order. -/
abbrev wr0 : List (Ref sig .tc) :=
  [ main_v0, main_v1, main_cst, main_v2, main_v3, main_cst_0, main_v4, main_v5,
    main_cst_1, main_v6, main_v7, main_cst_2, main_v8, main_v9, main_cst_3, main_v10,
    main_v11, main_cst_4, main_v12, main_v13 ]

set_option maxRecDepth 8192 in
theorem piece0_writes : (piece0 : List (HloOp τ sig (Elt F))).Forall fun op =>
    op.writes ⊆ (wr0.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide)⟩

/-- Piece 0 leaves alone every buffer it does not write. -/
theorem frame0 (W : Valuation τ sig (Elt F)) (r : Ref sig .tc) (hr : r ∉ wr0) :
    after piece0 W (Proc.devRef .tc r) = W (Proc.devRef .tc r) :=
  after_of_writes_sub piece0 W piece0_writes hr

/-- The buffers piece 1 writes, in order. -/
abbrev wr1 : List (Ref sig .tc) :=
  [ main_v14, main_v15, main_c, main_v16, main_v17, main_v18, main_cst_5, main_v19,
    main_v20, main_cst_6, main_v21, main_v22, main_v23, main_v24, main_v25, main_v26,
    main_v27, main_v28, main_v29, main_v30, main_v31, main_v32, main_v33, main_v34,
    main_v35, main_v36, main_v37, main_v38, main_v39, main_v40, main_v41, main_v42,
    main_call0_cst, main_call0_v0, main_v43 ]

set_option maxRecDepth 8192 in
theorem piece1_writes : (piece1 : List (HloOp τ sig (Elt F))).Forall fun op =>
    op.writes ⊆ (wr1.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

/-- Piece 1 leaves alone every buffer it does not write. -/
theorem frame1 (W : Valuation τ sig (Elt F)) (r : Ref sig .tc) (hr : r ∉ wr1) :
    after piece1 W (Proc.devRef .tc r) = W (Proc.devRef .tc r) :=
  after_of_writes_sub piece1 W piece1_writes hr

theorem shared_wr1 : ∀ r ∈ shared, r ∉ wr1 := by decide

theorem agree1 {W U : Valuation τ sig (Elt F)} (h : Agree W U) : Agree (after piece1 W) U :=
  fun r hr => (frame1 W r (shared_wr1 r hr)).trans (h r hr)

/-- The buffers piece 2 writes, in order. -/
abbrev wr2 : List (Ref sig .tc) :=
  [ main_v44, main_v45, main_c_7, main_v46, main_v47, main_v48, main_cst_8 ]

set_option maxRecDepth 8192 in
theorem piece2_writes : (piece2 : List (HloOp τ sig (Elt F))).Forall fun op =>
    op.writes ⊆ (wr2.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide)⟩

/-- Piece 2 leaves alone every buffer it does not write. -/
theorem frame2 (W : Valuation τ sig (Elt F)) (r : Ref sig .tc) (hr : r ∉ wr2) :
    after piece2 W (Proc.devRef .tc r) = W (Proc.devRef .tc r) :=
  after_of_writes_sub piece2 W piece2_writes hr

theorem shared_wr2 : ∀ r ∈ shared, r ∉ wr2 := by decide

theorem agree2 {W U : Valuation τ sig (Elt F)} (h : Agree W U) : Agree (after piece2 W) U :=
  fun r hr => (frame2 W r (shared_wr2 r hr)).trans (h r hr)

/-- The buffers piece 3 writes, in order. -/
abbrev wr3 : List (Ref sig .tc) :=
  [ main_v49, main_v50, main_cst_9, main_v51, main_v52, main_v53, main_v54, main_v55,
    main_v56, main_v57, main_v58, main_v59, main_v60, main_v61, main_v62, main_v63,
    main_v64, main_v65, main_v66, main_v67, main_v68, main_v69, main_v70, main_v71,
    main_v72, main_call1_cst, main_call1_v0, main_v73 ]

set_option maxRecDepth 8192 in
theorem piece3_writes : (piece3 : List (HloOp τ sig (Elt F))).Forall fun op =>
    op.writes ⊆ (wr3.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide)⟩

/-- Piece 3 leaves alone every buffer it does not write. -/
theorem frame3 (W : Valuation τ sig (Elt F)) (r : Ref sig .tc) (hr : r ∉ wr3) :
    after piece3 W (Proc.devRef .tc r) = W (Proc.devRef .tc r) :=
  after_of_writes_sub piece3 W piece3_writes hr

theorem shared_wr3 : ∀ r ∈ shared, r ∉ wr3 := by decide

theorem agree3 {W U : Valuation τ sig (Elt F)} (h : Agree W U) : Agree (after piece3 W) U :=
  fun r hr => (frame3 W r (shared_wr3 r hr)).trans (h r hr)

/-- The buffers piece 4 writes, in order. -/
abbrev wr4 : List (Ref sig .tc) :=
  [ main_v74, main_v75, main_v76, main_v77, main_v78, main_v79, main_v80, main_v81,
    main_v82, main_v83, main_v84, main_v85, main_v86, main_v87, main_v88, main_v89,
    main_v90, main_v91, main_v92, main_v93, main_call2_cst, main_call2_v0, main_v94 ]

set_option maxRecDepth 8192 in
theorem piece4_writes : (piece4 : List (HloOp τ sig (Elt F))).Forall fun op =>
    op.writes ⊆ (wr4.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

/-- Piece 4 leaves alone every buffer it does not write. -/
theorem frame4 (W : Valuation τ sig (Elt F)) (r : Ref sig .tc) (hr : r ∉ wr4) :
    after piece4 W (Proc.devRef .tc r) = W (Proc.devRef .tc r) :=
  after_of_writes_sub piece4 W piece4_writes hr

theorem shared_wr4 : ∀ r ∈ shared, r ∉ wr4 := by decide

theorem agree4 {W U : Valuation τ sig (Elt F)} (h : Agree W U) : Agree (after piece4 W) U :=
  fun r hr => (frame4 W r (shared_wr4 r hr)).trans (h r hr)

/-- The buffers piece 5 writes, in order. -/
abbrev wr5 : List (Ref sig .tc) :=
  [ main_v95, main_v96, main_v97, main_v98, main_v99, main_v100, main_v101, main_v102,
    main_v103, main_v104, main_v105, main_v106, main_v107 ]

set_option maxRecDepth 8192 in
theorem piece5_writes : (piece5 : List (HloOp τ sig (Elt F))).Forall fun op =>
    op.writes ⊆ (wr5.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide)⟩

/-- Piece 5 leaves alone every buffer it does not write. -/
theorem frame5 (W : Valuation τ sig (Elt F)) (r : Ref sig .tc) (hr : r ∉ wr5) :
    after piece5 W (Proc.devRef .tc r) = W (Proc.devRef .tc r) :=
  after_of_writes_sub piece5 W piece5_writes hr

theorem shared_wr5 : ∀ r ∈ shared, r ∉ wr5 := by decide

theorem agree5 {W U : Valuation τ sig (Elt F)} (h : Agree W U) : Agree (after piece5 W) U :=
  fun r hr => (frame5 W r (shared_wr5 r hr)).trans (h r hr)

/-- The buffers piece 6 writes, in order. -/
abbrev wr6 : List (Ref sig .tc) :=
  [ main_v108, main_v109, main_v110, main_v111, main_v112, main_v113, main_v114, main_call3_cst,
    main_call3_v0, main_v115 ]

set_option maxRecDepth 8192 in
theorem piece6_writes : (piece6 : List (HloOp τ sig (Elt F))).Forall fun op =>
    op.writes ⊆ (wr6.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide)⟩

/-- Piece 6 leaves alone every buffer it does not write. -/
theorem frame6 (W : Valuation τ sig (Elt F)) (r : Ref sig .tc) (hr : r ∉ wr6) :
    after piece6 W (Proc.devRef .tc r) = W (Proc.devRef .tc r) :=
  after_of_writes_sub piece6 W piece6_writes hr

theorem shared_wr6 : ∀ r ∈ shared, r ∉ wr6 := by decide

theorem agree6 {W U : Valuation τ sig (Elt F)} (h : Agree W U) : Agree (after piece6 W) U :=
  fun r hr => (frame6 W r (shared_wr6 r hr)).trans (h r hr)

/-- The buffers piece 7 writes, in order. -/
abbrev wr7 : List (Ref sig .tc) :=
  [ main_v116, main_v117, main_v118, main_v119, main_v120, main_v121, main_v122, main_v123,
    main_v124, main_v125, main_v126, main_v127, main_v128, main_v129, main_v130, main_v131,
    main_v132, main_v133, main_v134, main_v135, main_call4_cst, main_call4_v0, main_v136 ]

set_option maxRecDepth 8192 in
theorem piece7_writes : (piece7 : List (HloOp τ sig (Elt F))).Forall fun op =>
    op.writes ⊆ (wr7.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

/-- Piece 7 leaves alone every buffer it does not write. -/
theorem frame7 (W : Valuation τ sig (Elt F)) (r : Ref sig .tc) (hr : r ∉ wr7) :
    after piece7 W (Proc.devRef .tc r) = W (Proc.devRef .tc r) :=
  after_of_writes_sub piece7 W piece7_writes hr

theorem shared_wr7 : ∀ r ∈ shared, r ∉ wr7 := by decide

theorem agree7 {W U : Valuation τ sig (Elt F)} (h : Agree W U) : Agree (after piece7 W) U :=
  fun r hr => (frame7 W r (shared_wr7 r hr)).trans (h r hr)

/-- The buffers piece 8 writes, in order. -/
abbrev wr8 : List (Ref sig .tc) :=
  [ main_v137, main_v138, main_v139, main_v140, main_v141, main_v142, main_v143, main_v144,
    main_v145, main_v146, main_v147, main_v148, main_v149, main_v150, main_v151, main_v152,
    main_v153, main_v154, main_v155, main_v156, main_call5_cst, main_call5_v0, main_v157 ]

set_option maxRecDepth 8192 in
theorem piece8_writes : (piece8 : List (HloOp τ sig (Elt F))).Forall fun op =>
    op.writes ⊆ (wr8.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

/-- Piece 8 leaves alone every buffer it does not write. -/
theorem frame8 (W : Valuation τ sig (Elt F)) (r : Ref sig .tc) (hr : r ∉ wr8) :
    after piece8 W (Proc.devRef .tc r) = W (Proc.devRef .tc r) :=
  after_of_writes_sub piece8 W piece8_writes hr

theorem shared_wr8 : ∀ r ∈ shared, r ∉ wr8 := by decide

theorem agree8 {W U : Valuation τ sig (Elt F)} (h : Agree W U) : Agree (after piece8 W) U :=
  fun r hr => (frame8 W r (shared_wr8 r hr)).trans (h r hr)

/-- The buffers piece 9 writes, in order. -/
abbrev wr9 : List (Ref sig .tc) :=
  [ main_v158, main_v159, main_v160, main_v161, main_v162, main_v163, main_v164, main_v165,
    main_v166, main_v167 ]

set_option maxRecDepth 8192 in
theorem piece9_writes : (piece9 : List (HloOp τ sig (Elt F))).Forall fun op =>
    op.writes ⊆ (wr9.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide)⟩

/-- Piece 9 leaves alone every buffer it does not write. -/
theorem frame9 (W : Valuation τ sig (Elt F)) (r : Ref sig .tc) (hr : r ∉ wr9) :
    after piece9 W (Proc.devRef .tc r) = W (Proc.devRef .tc r) :=
  after_of_writes_sub piece9 W piece9_writes hr

theorem shared_wr9 : ∀ r ∈ shared, r ∉ wr9 := by decide

theorem agree9 {W U : Valuation τ sig (Elt F)} (h : Agree W U) : Agree (after piece9 W) U :=
  fun r hr => (frame9 W r (shared_wr9 r hr)).trans (h r hr)

/-- The buffers piece 10 writes, in order. -/
abbrev wr10 : List (Ref sig .tc) :=
  [ main_v168, main_v169, main_v170, main_v171, main_v172, main_v173, main_v174, main_v175,
    main_v176, main_v177, main_call6_cst, main_call6_v0, main_v178 ]

set_option maxRecDepth 8192 in
theorem piece10_writes : (piece10 : List (HloOp τ sig (Elt F))).Forall fun op =>
    op.writes ⊆ (wr10.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide)⟩

/-- Piece 10 leaves alone every buffer it does not write. -/
theorem frame10 (W : Valuation τ sig (Elt F)) (r : Ref sig .tc) (hr : r ∉ wr10) :
    after piece10 W (Proc.devRef .tc r) = W (Proc.devRef .tc r) :=
  after_of_writes_sub piece10 W piece10_writes hr

theorem shared_wr10 : ∀ r ∈ shared, r ∉ wr10 := by decide

theorem agree10 {W U : Valuation τ sig (Elt F)} (h : Agree W U) : Agree (after piece10 W) U :=
  fun r hr => (frame10 W r (shared_wr10 r hr)).trans (h r hr)

/-- The buffers piece 11 writes, in order. -/
abbrev wr11 : List (Ref sig .tc) :=
  [ main_v179, main_v180, main_v181, main_v182, main_v183, main_v184, main_v185, main_v186,
    main_v187, main_v188, main_v189, main_v190, main_v191, main_v192, main_v193, main_v194,
    main_v195, main_v196, main_v197, main_v198, main_call7_cst, main_call7_v0, main_v199 ]

set_option maxRecDepth 8192 in
theorem piece11_writes : (piece11 : List (HloOp τ sig (Elt F))).Forall fun op =>
    op.writes ⊆ (wr11.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

/-- Piece 11 leaves alone every buffer it does not write. -/
theorem frame11 (W : Valuation τ sig (Elt F)) (r : Ref sig .tc) (hr : r ∉ wr11) :
    after piece11 W (Proc.devRef .tc r) = W (Proc.devRef .tc r) :=
  after_of_writes_sub piece11 W piece11_writes hr

theorem shared_wr11 : ∀ r ∈ shared, r ∉ wr11 := by decide

theorem agree11 {W U : Valuation τ sig (Elt F)} (h : Agree W U) : Agree (after piece11 W) U :=
  fun r hr => (frame11 W r (shared_wr11 r hr)).trans (h r hr)

/-- The buffers piece 12 writes, in order. -/
abbrev wr12 : List (Ref sig .tc) :=
  [ main_v200, main_v201, main_v202, main_v203, main_v204, main_v205, main_v206, main_v207,
    main_v208, main_v209, main_v210, main_v211, main_v212, main_v213, main_v214, main_v215,
    main_v216, main_v217, main_v218, main_v219, main_call8_cst, main_call8_v0, main_v220 ]

set_option maxRecDepth 8192 in
theorem piece12_writes : (piece12 : List (HloOp τ sig (Elt F))).Forall fun op =>
    op.writes ⊆ (wr12.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

/-- Piece 12 leaves alone every buffer it does not write. -/
theorem frame12 (W : Valuation τ sig (Elt F)) (r : Ref sig .tc) (hr : r ∉ wr12) :
    after piece12 W (Proc.devRef .tc r) = W (Proc.devRef .tc r) :=
  after_of_writes_sub piece12 W piece12_writes hr

theorem shared_wr12 : ∀ r ∈ shared, r ∉ wr12 := by decide

theorem agree12 {W U : Valuation τ sig (Elt F)} (h : Agree W U) : Agree (after piece12 W) U :=
  fun r hr => (frame12 W r (shared_wr12 r hr)).trans (h r hr)

/-- The buffers piece 13 writes, in order. -/
abbrev wr13 : List (Ref sig .tc) :=
  [ main_v221, main_v222, main_v223, main_v224, main_v225, main_v226, main_v227 ]

set_option maxRecDepth 8192 in
theorem piece13_writes : (piece13 : List (HloOp τ sig (Elt F))).Forall fun op =>
    op.writes ⊆ (wr13.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide)⟩

/-- Piece 13 leaves alone every buffer it does not write. -/
theorem frame13 (W : Valuation τ sig (Elt F)) (r : Ref sig .tc) (hr : r ∉ wr13) :
    after piece13 W (Proc.devRef .tc r) = W (Proc.devRef .tc r) :=
  after_of_writes_sub piece13 W piece13_writes hr

theorem shared_wr13 : ∀ r ∈ shared, r ∉ wr13 := by decide

theorem agree13 {W U : Valuation τ sig (Elt F)} (h : Agree W U) : Agree (after piece13 W) U :=
  fun r hr => (frame13 W r (shared_wr13 r hr)).trans (h r hr)

/-- The buffers piece 14 writes, in order. -/
abbrev wr14 : List (Ref sig .tc) :=
  [ main_v228, main_v229, main_v230, main_v231, main_v232, main_v233, main_v234, main_v235,
    main_v236, main_v237, main_v238, main_v239, main_v240, main_call9_cst, main_call9_v0, main_v241 ]

set_option maxRecDepth 8192 in
theorem piece14_writes : (piece14 : List (HloOp τ sig (Elt F))).Forall fun op =>
    op.writes ⊆ (wr14.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide)⟩

/-- Piece 14 leaves alone every buffer it does not write. -/
theorem frame14 (W : Valuation τ sig (Elt F)) (r : Ref sig .tc) (hr : r ∉ wr14) :
    after piece14 W (Proc.devRef .tc r) = W (Proc.devRef .tc r) :=
  after_of_writes_sub piece14 W piece14_writes hr

theorem shared_wr14 : ∀ r ∈ shared, r ∉ wr14 := by decide

theorem agree14 {W U : Valuation τ sig (Elt F)} (h : Agree W U) : Agree (after piece14 W) U :=
  fun r hr => (frame14 W r (shared_wr14 r hr)).trans (h r hr)

/-- The buffers piece 15 writes, in order. -/
abbrev wr15 : List (Ref sig .tc) :=
  [ main_v242, main_v243, main_v244, main_v245, main_v246, main_v247, main_v248, main_v249,
    main_v250, main_v251, main_v252, main_v253, main_v254, main_v255, main_v256, main_v257,
    main_v258, main_v259, main_v260, main_v261, main_call10_cst, main_call10_v0, main_v262 ]

set_option maxRecDepth 8192 in
theorem piece15_writes : (piece15 : List (HloOp τ sig (Elt F))).Forall fun op =>
    op.writes ⊆ (wr15.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

/-- Piece 15 leaves alone every buffer it does not write. -/
theorem frame15 (W : Valuation τ sig (Elt F)) (r : Ref sig .tc) (hr : r ∉ wr15) :
    after piece15 W (Proc.devRef .tc r) = W (Proc.devRef .tc r) :=
  after_of_writes_sub piece15 W piece15_writes hr

theorem shared_wr15 : ∀ r ∈ shared, r ∉ wr15 := by decide

theorem agree15 {W U : Valuation τ sig (Elt F)} (h : Agree W U) : Agree (after piece15 W) U :=
  fun r hr => (frame15 W r (shared_wr15 r hr)).trans (h r hr)

/-- The buffers piece 16 writes, in order. -/
abbrev wr16 : List (Ref sig .tc) :=
  [ main_v263, main_v264, main_v265, main_v266, main_v267, main_v268, main_v269, main_v270,
    main_v271, main_v272, main_v273, main_v274, main_v275, main_v276, main_v277, main_v278,
    main_v279, main_v280, main_v281, main_v282, main_call11_cst, main_call11_v0, main_v283 ]

set_option maxRecDepth 8192 in
theorem piece16_writes : (piece16 : List (HloOp τ sig (Elt F))).Forall fun op =>
    op.writes ⊆ (wr16.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

/-- Piece 16 leaves alone every buffer it does not write. -/
theorem frame16 (W : Valuation τ sig (Elt F)) (r : Ref sig .tc) (hr : r ∉ wr16) :
    after piece16 W (Proc.devRef .tc r) = W (Proc.devRef .tc r) :=
  after_of_writes_sub piece16 W piece16_writes hr

theorem shared_wr16 : ∀ r ∈ shared, r ∉ wr16 := by decide

theorem agree16 {W U : Valuation τ sig (Elt F)} (h : Agree W U) : Agree (after piece16 W) U :=
  fun r hr => (frame16 W r (shared_wr16 r hr)).trans (h r hr)

/-- The buffers piece 17 writes, in order. -/
abbrev wr17 : List (Ref sig .tc) :=
  [ main_v284, main_v285, main_v286, main_v287 ]

set_option maxRecDepth 8192 in
theorem piece17_writes : (piece17 : List (HloOp τ sig (Elt F))).Forall fun op =>
    op.writes ⊆ (wr17.map (Proc.devRef (τ := τ) .tc)).toFinset :=
  ⟨writes_sub_of_mem (by decide), writes_sub_of_mem (by decide), writes_sub_of_mem (by decide), writes_sub_of_mem (by decide)⟩

/-- Piece 17 leaves alone every buffer it does not write. -/
theorem frame17 (W : Valuation τ sig (Elt F)) (r : Ref sig .tc) (hr : r ∉ wr17) :
    after piece17 W (Proc.devRef .tc r) = W (Proc.devRef .tc r) :=
  after_of_writes_sub piece17 W piece17_writes hr

theorem shared_wr17 : ∀ r ∈ shared, r ∉ wr17 := by decide

theorem agree17 {W U : Valuation τ sig (Elt F)} (h : Agree W U) : Agree (after piece17 W) U :=
  fun r hr => (frame17 W r (shared_wr17 r hr)).trans (h r hr)

/-- The buffers piece 18 writes, in order. -/
abbrev wr18 : List (Ref sig .tc) :=
  [ main_v288, main_v289, main_v290, main_v291, main_v292, main_v293, main_v294, main_v295,
    main_v296, main_v297, main_v298, main_v299, main_v300, main_v301, main_v302, main_v303,
    main_call12_cst, main_call12_v0, main_v304 ]

set_option maxRecDepth 8192 in
theorem piece18_writes : (piece18 : List (HloOp τ sig (Elt F))).Forall fun op =>
    op.writes ⊆ (wr18.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

/-- Piece 18 leaves alone every buffer it does not write. -/
theorem frame18 (W : Valuation τ sig (Elt F)) (r : Ref sig .tc) (hr : r ∉ wr18) :
    after piece18 W (Proc.devRef .tc r) = W (Proc.devRef .tc r) :=
  after_of_writes_sub piece18 W piece18_writes hr

theorem shared_wr18 : ∀ r ∈ shared, r ∉ wr18 := by decide

theorem agree18 {W U : Valuation τ sig (Elt F)} (h : Agree W U) : Agree (after piece18 W) U :=
  fun r hr => (frame18 W r (shared_wr18 r hr)).trans (h r hr)

/-- The buffers piece 19 writes, in order. -/
abbrev wr19 : List (Ref sig .tc) :=
  [ main_v305, main_v306, main_v307, main_v308, main_v309, main_v310, main_v311, main_v312,
    main_v313, main_v314, main_v315, main_v316, main_v317, main_v318, main_v319, main_v320,
    main_v321, main_v322, main_v323, main_v324, main_call13_cst, main_call13_v0, main_v325 ]

set_option maxRecDepth 8192 in
theorem piece19_writes : (piece19 : List (HloOp τ sig (Elt F))).Forall fun op =>
    op.writes ⊆ (wr19.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

/-- Piece 19 leaves alone every buffer it does not write. -/
theorem frame19 (W : Valuation τ sig (Elt F)) (r : Ref sig .tc) (hr : r ∉ wr19) :
    after piece19 W (Proc.devRef .tc r) = W (Proc.devRef .tc r) :=
  after_of_writes_sub piece19 W piece19_writes hr

theorem shared_wr19 : ∀ r ∈ shared, r ∉ wr19 := by decide

theorem agree19 {W U : Valuation τ sig (Elt F)} (h : Agree W U) : Agree (after piece19 W) U :=
  fun r hr => (frame19 W r (shared_wr19 r hr)).trans (h r hr)

/-- The buffers piece 20 writes, in order. -/
abbrev wr20 : List (Ref sig .tc) :=
  [ main_v326, main_v327, main_v328, main_v329, main_v330, main_v331, main_v332, main_v333,
    main_v334, main_v335, main_v336, main_v337, main_v338, main_v339, main_v340, main_v341,
    main_v342, main_v343, main_v344, main_v345, main_call14_cst, main_call14_v0, main_v346 ]

set_option maxRecDepth 8192 in
theorem piece20_writes : (piece20 : List (HloOp τ sig (Elt F))).Forall fun op =>
    op.writes ⊆ (wr20.map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

/-- Piece 20 leaves alone every buffer it does not write. -/
theorem frame20 (W : Valuation τ sig (Elt F)) (r : Ref sig .tc) (hr : r ∉ wr20) :
    after piece20 W (Proc.devRef .tc r) = W (Proc.devRef .tc r) :=
  after_of_writes_sub piece20 W piece20_writes hr

theorem shared_wr20 : ∀ r ∈ shared, r ∉ wr20 := by decide

theorem agree20 {W U : Valuation τ sig (Elt F)} (h : Agree W U) : Agree (after piece20 W) U :=
  fun r hr => (frame20 W r (shared_wr20 r hr)).trans (h r hr)

end Cert.ReferenceIdeal.RefValue

end
-- ==== Proof.RefLayer.lean ====
/-
  The reference program's side of the encoder: one unrolled layer of host operations, read entry by entry.

  The reference is fifteen copies of the same fourteen operations. One copy takes an adjacency array `A` [32, 512, 512], a
  divisor array [32, 512, 1], a weight matrix [256, 256], a bias [256] and features `x` [32, 512, 256]; it forms the batched
  product `A x`, sends both `A x` and `x` through `y ↦ y Wᵀ + b`, adds the two, divides by the divisor broadcast along the
  columns and clips below at zero. This module names that copy (`refLayer`), the divisor's operations (`refDen`), and the
  slices that pick a table's row, and proves that each, read at an index, is the specification's expression at that index:
  the batched product is a sum over the middle node, the dense layer a sum over the input column, a broadcast reads its
  operand at the surviving coordinates, a row sum is a sum over the last coordinate, and a slice followed by a reshape
  reads the table at the sliced row. Stacks of such copies then equal the specification's stacks by induction-free
  composition: each layer's statement takes the previous layer's as its hypothesis on the features.
-/
import proofs.«128254_j60155311947910_1_alg».proof.ReferenceIdeal
import proofs.«128254_j60155311947910_1_alg».proof.Proof.GcnSpec
import proofs.«128254_j60155311947910_1_alg».proof.Proof.Gen.ReferenceIdeal
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.Gcn

/-! ## The batched product `A x` at an index -/

theorem aggL0 (j : S32x512x256.Idx) (q : dot_S32x512x512_S32x512x256_S32x512x256_2_1_1_2_0_0.contr.Idx) :
    (dot_S32x512x512_S32x512x256_S32x512x256_2_1_1_2_0_0.lhsIdx j q 0).val = (j 0).val := by
  unfold DotDims.lhsIdx
  rw [dif_pos (show (0 : Fin S32x512x512.rank) ∈ dot_S32x512x512_S32x512x256_S32x512x256_2_1_1_2_0_0.lhsBatch by decide)]
  rfl
theorem aggL1 (j : S32x512x256.Idx) (q : dot_S32x512x512_S32x512x256_S32x512x256_2_1_1_2_0_0.contr.Idx) :
    (dot_S32x512x512_S32x512x256_S32x512x256_2_1_1_2_0_0.lhsIdx j q 1).val = (j 1).val := by
  unfold DotDims.lhsIdx
  rw [dif_neg (show ¬(1 : Fin S32x512x512.rank) ∈ dot_S32x512x512_S32x512x256_S32x512x256_2_1_1_2_0_0.lhsBatch by decide),
    dif_pos (show (1 : Fin S32x512x512.rank) ∈ dot_S32x512x512_S32x512x256_S32x512x256_2_1_1_2_0_0.lhsNonContracting by decide)]
  rfl
theorem aggL2 (j : S32x512x256.Idx) (q : dot_S32x512x512_S32x512x256_S32x512x256_2_1_1_2_0_0.contr.Idx) :
    (dot_S32x512x512_S32x512x256_S32x512x256_2_1_1_2_0_0.lhsIdx j q 2).val = (q ⟨0, by decide⟩).val :=
  dot_S32x512x512_S32x512x256_S32x512x256_2_1_1_2_0_0.lhsIdx_val_of_single rfl j q
theorem aggR0 (j : S32x512x256.Idx) (q : dot_S32x512x512_S32x512x256_S32x512x256_2_1_1_2_0_0.contr.Idx) :
    (dot_S32x512x512_S32x512x256_S32x512x256_2_1_1_2_0_0.rhsIdx j q 0).val = (j 0).val := by
  unfold DotDims.rhsIdx
  rw [dif_pos (show (0 : Fin S32x512x256.rank) ∈ dot_S32x512x512_S32x512x256_S32x512x256_2_1_1_2_0_0.rhsBatch by decide)]
  rfl
theorem aggR1 (j : S32x512x256.Idx) (q : dot_S32x512x512_S32x512x256_S32x512x256_2_1_1_2_0_0.contr.Idx) :
    (dot_S32x512x512_S32x512x256_S32x512x256_2_1_1_2_0_0.rhsIdx j q 1).val = (q ⟨0, by decide⟩).val :=
  dot_S32x512x512_S32x512x256_S32x512x256_2_1_1_2_0_0.rhsIdx_val_of_single rfl j q
theorem aggR2 (j : S32x512x256.Idx) (q : dot_S32x512x512_S32x512x256_S32x512x256_2_1_1_2_0_0.contr.Idx) :
    (dot_S32x512x512_S32x512x256_S32x512x256_2_1_1_2_0_0.rhsIdx j q 2).val = (j 2).val := by
  unfold DotDims.rhsIdx
  rw [dif_neg (show ¬(2 : Fin S32x512x256.rank) ∈ dot_S32x512x512_S32x512x256_S32x512x256_2_1_1_2_0_0.rhsBatch by decide),
    dif_pos (show (2 : Fin S32x512x256.rank) ∈ dot_S32x512x512_S32x512x256_S32x512x256_2_1_1_2_0_0.rhsNonContracting by decide)]
  rfl

/-- The aggregation, batch by batch: entry `(p, i, d)` of `A x` is `∑ j, A[p, i, j] * x[p, j, d]`. -/
theorem aggregate_apply (A : FVec Ideal S32x512x512 .f32) (x : FVec Ideal S32x512x256 .f32) (p : Fin 32) (i : Fin 512) (d : Fin 256) :
    Host.dotGeneral (F := Ideal) dot_S32x512x512_S32x512x256_S32x512x256_2_1_1_2_0_0 none A x (ix3 p i d) = ∑ j : Fin 512, A (ix3 p i j) * x (ix3 p j d) := by
  simp only [Host.dotGeneral]
  rw [Ideal.dotGeneral_apply, ← Equiv.sum_comp (contrEquiv1 dot_S32x512x512_S32x512x256_S32x512x256_2_1_1_2_0_0 512 rfl rfl).symm]
  refine Finset.sum_congr rfl fun k _ => ?_
  have hk := contrEquiv1_symm_val dot_S32x512x512_S32x512x256_S32x512x256_2_1_1_2_0_0 512 rfl rfl k
  have el : dot_S32x512x512_S32x512x256_S32x512x256_2_1_1_2_0_0.lhsIdx (ix3 p i d) ((contrEquiv1 dot_S32x512x512_S32x512x256_S32x512x256_2_1_1_2_0_0 512 rfl rfl).symm k) = ix3 p i k :=
    funext fun a => Fin.ext (by
      match a with
      | ⟨0, _⟩ => exact aggL0 _ _
      | ⟨1, _⟩ => exact aggL1 _ _
      | ⟨2, _⟩ => exact (aggL2 _ _).trans hk)
  have er : dot_S32x512x512_S32x512x256_S32x512x256_2_1_1_2_0_0.rhsIdx (ix3 p i d) ((contrEquiv1 dot_S32x512x512_S32x512x256_S32x512x256_2_1_1_2_0_0 512 rfl rfl).symm k) = ix3 p k d :=
    funext fun a => Fin.ext (by
      match a with
      | ⟨0, _⟩ => exact aggR0 _ _
      | ⟨1, _⟩ => exact (aggR1 _ _).trans hk
      | ⟨2, _⟩ => exact aggR2 _ _)
  rw [el, er]

/-! ## The dense layer's product `y Wᵀ` at an index -/

theorem denL0 (j : S32x512x256.Idx) (q : dot_S32x512x256_S256x256_S32x512x256_2_1_01_0_n_n.contr.Idx) :
    (dot_S32x512x256_S256x256_S32x512x256_2_1_01_0_n_n.lhsIdx j q 0).val = (j 0).val := by
  unfold DotDims.lhsIdx
  rw [dif_neg (show ¬(0 : Fin S32x512x256.rank) ∈ dot_S32x512x256_S256x256_S32x512x256_2_1_01_0_n_n.lhsBatch by decide),
    dif_pos (show (0 : Fin S32x512x256.rank) ∈ dot_S32x512x256_S256x256_S32x512x256_2_1_01_0_n_n.lhsNonContracting by decide)]
  rfl
theorem denL1 (j : S32x512x256.Idx) (q : dot_S32x512x256_S256x256_S32x512x256_2_1_01_0_n_n.contr.Idx) :
    (dot_S32x512x256_S256x256_S32x512x256_2_1_01_0_n_n.lhsIdx j q 1).val = (j 1).val := by
  unfold DotDims.lhsIdx
  rw [dif_neg (show ¬(1 : Fin S32x512x256.rank) ∈ dot_S32x512x256_S256x256_S32x512x256_2_1_01_0_n_n.lhsBatch by decide),
    dif_pos (show (1 : Fin S32x512x256.rank) ∈ dot_S32x512x256_S256x256_S32x512x256_2_1_01_0_n_n.lhsNonContracting by decide)]
  rfl
theorem denL2 (j : S32x512x256.Idx) (q : dot_S32x512x256_S256x256_S32x512x256_2_1_01_0_n_n.contr.Idx) :
    (dot_S32x512x256_S256x256_S32x512x256_2_1_01_0_n_n.lhsIdx j q 2).val = (q ⟨0, by decide⟩).val :=
  dot_S32x512x256_S256x256_S32x512x256_2_1_01_0_n_n.lhsIdx_val_of_single rfl j q
theorem denR0 (j : S32x512x256.Idx) (q : dot_S32x512x256_S256x256_S32x512x256_2_1_01_0_n_n.contr.Idx) :
    (dot_S32x512x256_S256x256_S32x512x256_2_1_01_0_n_n.rhsIdx j q 0).val = (j 2).val := by
  unfold DotDims.rhsIdx
  rw [dif_neg (show ¬(0 : Fin S256x256.rank) ∈ dot_S32x512x256_S256x256_S32x512x256_2_1_01_0_n_n.rhsBatch by decide),
    dif_pos (show (0 : Fin S256x256.rank) ∈ dot_S32x512x256_S256x256_S32x512x256_2_1_01_0_n_n.rhsNonContracting by decide)]
  rfl
theorem denR1 (j : S32x512x256.Idx) (q : dot_S32x512x256_S256x256_S32x512x256_2_1_01_0_n_n.contr.Idx) :
    (dot_S32x512x256_S256x256_S32x512x256_2_1_01_0_n_n.rhsIdx j q 1).val = (q ⟨0, by decide⟩).val :=
  dot_S32x512x256_S256x256_S32x512x256_2_1_01_0_n_n.rhsIdx_val_of_single rfl j q

/-- The dense product: entry `(p, i, o)` of `y Wᵀ` is `∑ d, y[p, i, d] * W[o, d]`. -/
theorem dense_apply (y : FVec Ideal S32x512x256 .f32) (W2 : FVec Ideal S256x256 .f32) (p : Fin 32) (i : Fin 512) (o : Fin 256) :
    Host.dotGeneral (F := Ideal) dot_S32x512x256_S256x256_S32x512x256_2_1_01_0_n_n none y W2 (ix3 p i o) = ∑ d : Fin 256, y (ix3 p i d) * W2 (ix2 o d) := by
  simp only [Host.dotGeneral]
  rw [Ideal.dotGeneral_apply, ← Equiv.sum_comp (contrEquiv1 dot_S32x512x256_S256x256_S32x512x256_2_1_01_0_n_n 256 rfl rfl).symm]
  refine Finset.sum_congr rfl fun k _ => ?_
  have hk := contrEquiv1_symm_val dot_S32x512x256_S256x256_S32x512x256_2_1_01_0_n_n 256 rfl rfl k
  have el : dot_S32x512x256_S256x256_S32x512x256_2_1_01_0_n_n.lhsIdx (ix3 p i o) ((contrEquiv1 dot_S32x512x256_S256x256_S32x512x256_2_1_01_0_n_n 256 rfl rfl).symm k) = ix3 p i k :=
    funext fun a => Fin.ext (by
      match a with
      | ⟨0, _⟩ => exact denL0 _ _
      | ⟨1, _⟩ => exact denL1 _ _
      | ⟨2, _⟩ => exact (denL2 _ _).trans hk)
  have er : dot_S32x512x256_S256x256_S32x512x256_2_1_01_0_n_n.rhsIdx (ix3 p i o) ((contrEquiv1 dot_S32x512x256_S256x256_S32x512x256_2_1_01_0_n_n 256 rfl rfl).symm k) = ix2 o k :=
    funext fun a => Fin.ext (by
      match a with
      | ⟨0, _⟩ => exact denR0 _ _
      | ⟨1, _⟩ => exact (denR1 _ _).trans hk)
  rw [el, er]

/-! ## The broadcasts at an index -/

/-- The bias, broadcast first to [1, 1, 256] and then to the whole array, reads the bias at the column. -/
theorem bias_apply (b1 : FVec Ideal S256 .f32) (p : Fin 32) (i : Fin 512) (o : Fin 256) :
    broadcastInDim S32x512x256 ![0, 1, 2] bcast_S1x1x256_S32x512x256_0_1_2
        (broadcastInDim S1x1x256 ![2] bcast_S256_S1x1x256_2 b1) (ix3 p i o) = b1 (ix1 o) := by
  refine (broadcastInDim_apply _ bcast_S1x1x256_S32x512x256_0_1_2 _ (ix3 p i o) (ix3 0 0 o) (fun a => match a with
    | ⟨0, _⟩ => by show ((0 : Fin 1) : ℕ) = if (1 : ℕ) = 1 then 0 else p.val; rw [if_pos rfl]; rfl
    | ⟨1, _⟩ => by show ((0 : Fin 1) : ℕ) = if (1 : ℕ) = 1 then 0 else i.val; rw [if_pos rfl]; rfl
    | ⟨2, _⟩ => by show o.val = if (256 : ℕ) = 1 then 0 else o.val; rw [if_neg (by decide)])).trans ?_
  exact broadcastInDim_apply _ bcast_S256_S1x1x256_2 b1 (ix3 0 0 o) (ix1 o) (fun a => match a with
    | ⟨0, _⟩ => by show o.val = if (256 : ℕ) = 1 then 0 else o.val; rw [if_neg (by decide)])

/-- The divisor, broadcast along the columns, reads the node's divisor. -/
theorem divisor_apply (den : FVec Ideal S32x512x1 .f32) (p : Fin 32) (i : Fin 512) (o : Fin 256) :
    broadcastInDim S32x512x256 ![0, 1, 2] bcast_S32x512x1_S32x512x256_0_1_2 den (ix3 p i o) = den (ix3 p i 0) :=
  broadcastInDim_apply _ bcast_S32x512x1_S32x512x256_0_1_2 den (ix3 p i o) (ix3 p i 0) (fun a => match a with
    | ⟨0, _⟩ => by show p.val = if (32 : ℕ) = 1 then 0 else p.val; rw [if_neg (by decide)]
    | ⟨1, _⟩ => by show i.val = if (512 : ℕ) = 1 then 0 else i.val; rw [if_neg (by decide)]
    | ⟨2, _⟩ => by show ((0 : Fin 1) : ℕ) = if (1 : ℕ) = 1 then 0 else o.val; rw [if_pos rfl]; rfl)

/-! ## One layer -/

/-- One unrolled layer of the reference, operation for operation: the batched product, the two dense layers with the
    broadcast bias, their sum, the division by the broadcast divisor and the clip at the zero word. -/
def refLayer (A : FVec Ideal S32x512x512 .f32) (den : FVec Ideal S32x512x1 .f32) (W2 : FVec Ideal S256x256 .f32)
    (b1 : FVec Ideal S256 .f32) (x : FVec Ideal S32x512x256 .f32) : FVec Ideal S32x512x256 .f32 :=
  maximumf
    (Host.divf (F := Ideal)
      (addf
        (addf
          (Host.dotGeneral (F := Ideal) dot_S32x512x256_S256x256_S32x512x256_2_1_01_0_n_n none
            (Host.dotGeneral (F := Ideal) dot_S32x512x512_S32x512x256_S32x512x256_2_1_1_2_0_0 none A x) W2)
          (broadcastInDim S32x512x256 ![0, 1, 2] bcast_S1x1x256_S32x512x256_0_1_2
            (broadcastInDim S1x1x256 ![2] bcast_S256_S1x1x256_2 b1)))
        (addf
          (Host.dotGeneral (F := Ideal) dot_S32x512x256_S256x256_S32x512x256_2_1_01_0_n_n none x W2)
          (broadcastInDim S32x512x256 ![0, 1, 2] bcast_S1x1x256_S32x512x256_0_1_2
            (broadcastInDim S1x1x256 ![2] bcast_S256_S1x1x256_2 b1))))
      (broadcastInDim S32x512x256 ![0, 1, 2] bcast_S32x512x1_S32x512x256_0_1_2 den))
    (broadcastInDim S32x512x256 ![] bcast_S_S32x512x256 (constant (F := Ideal) S_ .f32 0x00000000#32))

/-- The layer at batch `p`, node `i`, column `o` is the specification's layer over batch `p` of the arrays. -/
theorem refLayer_apply (A : FVec Ideal S32x512x512 .f32) (den : FVec Ideal S32x512x1 .f32) (W2 : FVec Ideal S256x256 .f32)
    (b1 : FVec Ideal S256 .f32) (x : FVec Ideal S32x512x256 .f32) (p : Fin 32) (i : Fin 512) (o : Fin 256) :
    refLayer A den W2 b1 x (ix3 p i o)
      = layer (fun i j => A (ix3 p i j)) (fun i => den (ix3 p i 0)) (fun o d => W2 (ix2 o d)) (fun o => b1 (ix1 o))
          (fun i d => x (ix3 p i d)) i o := by
  unfold refLayer layer
  show max (Ideal.div
      ((Host.dotGeneral (F := Ideal) dot_S32x512x256_S256x256_S32x512x256_2_1_01_0_n_n none (Host.dotGeneral (F := Ideal) dot_S32x512x512_S32x512x256_S32x512x256_2_1_1_2_0_0 none A x) W2 (ix3 p i o)
          + broadcastInDim S32x512x256 ![0, 1, 2] bcast_S1x1x256_S32x512x256_0_1_2
              (broadcastInDim S1x1x256 ![2] bcast_S256_S1x1x256_2 b1) (ix3 p i o))
        + (Host.dotGeneral (F := Ideal) dot_S32x512x256_S256x256_S32x512x256_2_1_01_0_n_n none x W2 (ix3 p i o)
          + broadcastInDim S32x512x256 ![0, 1, 2] bcast_S1x1x256_S32x512x256_0_1_2
              (broadcastInDim S1x1x256 ![2] bcast_S256_S1x1x256_2 b1) (ix3 p i o)))
      (broadcastInDim S32x512x256 ![0, 1, 2] bcast_S32x512x1_S32x512x256_0_1_2 den (ix3 p i o))) zero32 = _
  rw [dense_apply, dense_apply, bias_apply, divisor_apply]
  simp only [aggregate_apply]

/-! ## The divisor -/

/-- The row sums of an adjacency, as the host reduces them, at batch `p`, node `i`. -/
theorem rowSum_apply (A : FVec Ideal S32x512x512 .f32) (p : Fin 32) (i : Fin 512) :
    Host.reduceAdd (F := Ideal) A (constant (F := Ideal) S_ .f32 0x00000000#32) reducesTo_S32x512x512_S32x512_d2 h_S_ (ix2 p i)
      = ∑ j : Fin 512, A (ix3 p i j) := by
  simp only [Host.reduceAdd, Ideal.hostReduceAdd_def]
  rw [Ideal.hostReduceAdd_single reducesTo_S32x512x512_S32x512_d2 (by decide)]
  show Ideal.ofBits .f32 0x00000000#32 + _ = _
  rw [Ideal.ofBits_zero_f32, zero_add]
  refine Finset.sum_congr rfl fun k _ => ?_
  exact congrArg A (funext fun a => Fin.ext (by match a with | ⟨0, _⟩ => rfl | ⟨1, _⟩ => rfl | ⟨2, _⟩ => rfl))

/-- The divisor's operations: the row sums, given a trailing unit axis, plus the broadcast word of 1.0. -/
def refDen (A : FVec Ideal S32x512x512 .f32) : FVec Ideal S32x512x1 .f32 :=
  addf
    (broadcastInDim S32x512x1 ![0, 1] bcast_S32x512_S32x512x1_0_1
      (Host.reduceAdd (F := Ideal) A (constant (F := Ideal) S_ .f32 0x00000000#32) reducesTo_S32x512x512_S32x512_d2 h_S_))
    (broadcastInDim S32x512x1 ![] bcast_S_S32x512x1 (constant (F := Ideal) S_ .f32 0x3F800000#32))

/-- The divisor at batch `p`, node `i` is the specification's: the row sum plus one. -/
theorem refDen_apply (A : FVec Ideal S32x512x512 .f32) (p : Fin 32) (i : Fin 512) :
    refDen A (ix3 p i 0) = rowDen (fun i j => A (ix3 p i j)) i := by
  unfold refDen rowDen
  show broadcastInDim S32x512x1 ![0, 1] bcast_S32x512_S32x512x1_0_1
      (Host.reduceAdd (F := Ideal) A (constant (F := Ideal) S_ .f32 0x00000000#32) reducesTo_S32x512x512_S32x512_d2 h_S_) (ix3 p i 0)
        + one32 = _
  refine congrArg (· + one32) ?_
  refine (broadcastInDim_apply _ bcast_S32x512_S32x512x1_0_1 _ (ix3 p i 0) (ix2 p i) (fun a => match a with
    | ⟨0, _⟩ => by show p.val = if (32 : ℕ) = 1 then 0 else p.val; rw [if_neg (by decide)]
    | ⟨1, _⟩ => by show i.val = if (512 : ℕ) = 1 then 0 else i.val; rw [if_neg (by decide)])).trans ?_
  exact rowSum_apply A p i

/-! ## A table's row: the slice and the reshape at an index -/

/-- Row `k` of a table of weight matrices, as the program takes it: a slice of one row, reshaped to a matrix. -/
def wRow {L : ℕ} (k : ℕ) (W : FVec Ideal ⟨3, ![L, 256, 256]⟩ .f32)
    (h : (⟨3, ![L, 256, 256]⟩ : Shape).Slices ![k, 0, 0] S1x256x256) : FVec Ideal S256x256 .f32 :=
  shapeCast _ (extractStridedSlice S1x256x256 ![k, 0, 0] W h) shapeCasts_S1x256x256_S256x256

/-- It reads the table at row `k`. -/
theorem wRow_apply {L : ℕ} (k : ℕ) (hk : k < L) (W : FVec Ideal ⟨3, ![L, 256, 256]⟩ .f32)
    (h : (⟨3, ![L, 256, 256]⟩ : Shape).Slices ![k, 0, 0] S1x256x256) (o d : Fin 256) :
    wRow k W h (ix2 o d) = W (ix3 ⟨k, hk⟩ o d) := by
  unfold wRow
  refine (shapeCast_apply _ shapeCasts_S1x256x256_S256x256 (ix2 o d) (ix3 0 o d) ?_).trans ?_
  · rw [Shape.rowMajor_val_three, Shape.rowMajor_val_two]
    show (((0 : Fin 1) : ℕ) * 256 + o.val) * 256 + d.val = o.val * 256 + d.val
    have h0 : ((0 : Fin 1) : ℕ) = 0 := rfl
    omega
  · exact extractStridedSlice_apply ![k, 0, 0] W h (ix3 0 o d) (ix3 ⟨k, hk⟩ o d) (fun a => match a with
      | ⟨0, _⟩ => by show k = k + ((0 : Fin 1) : ℕ); have h0 : ((0 : Fin 1) : ℕ) = 0 := rfl; omega
      | ⟨1, _⟩ => by show o.val = 0 + o.val; omega
      | ⟨2, _⟩ => by show d.val = 0 + d.val; omega)

/-- Row `k` of a table of biases, as the program takes it. -/
def bRow {L : ℕ} (k : ℕ) (b : FVec Ideal ⟨2, ![L, 256]⟩ .f32)
    (h : (⟨2, ![L, 256]⟩ : Shape).Slices ![k, 0] S1x256) : FVec Ideal S256 .f32 :=
  shapeCast _ (extractStridedSlice S1x256 ![k, 0] b h) shapeCasts_S1x256_S256

/-- It reads the table at row `k`. -/
theorem bRow_apply {L : ℕ} (k : ℕ) (hk : k < L) (b : FVec Ideal ⟨2, ![L, 256]⟩ .f32)
    (h : (⟨2, ![L, 256]⟩ : Shape).Slices ![k, 0] S1x256) (o : Fin 256) :
    bRow k b h (ix1 o) = b (ix2 ⟨k, hk⟩ o) := by
  unfold bRow
  refine (shapeCast_apply _ shapeCasts_S1x256_S256 (ix1 o) (ix2 0 o) ?_).trans ?_
  · rw [Shape.rowMajor_val_two, Shape.rowMajor_val_one]
    show ((0 : Fin 1) : ℕ) * 256 + o.val = o.val
    have h0 : ((0 : Fin 1) : ℕ) = 0 := rfl
    omega
  · exact extractStridedSlice_apply ![k, 0] b h (ix2 0 o) (ix2 ⟨k, hk⟩ o) (fun a => match a with
      | ⟨0, _⟩ => by show k = k + ((0 : Fin 1) : ℕ); have h0 : ((0 : Fin 1) : ℕ) = 0 := rfl; omega
      | ⟨1, _⟩ => by show o.val = 0 + o.val; omega)

/-- Within the table the specification's row is the table's row. -/
theorem wTab_of_lt {L : ℕ} (W : (⟨3, ![L, 256, 256]⟩ : Shape).Idx → EReal) (k : ℕ) (hk : k < L) (o d : Fin 256) :
    wTab W k o d = W (ix3 ⟨k, hk⟩ o d) := by
  unfold wTab; rw [dif_pos hk]
theorem bTab_of_lt {L : ℕ} (b : (⟨2, ![L, 256]⟩ : Shape).Idx → EReal) (k : ℕ) (hk : k < L) (o : Fin 256) :
    bTab b k o = b (ix2 ⟨k, hk⟩ o) := by
  unfold bTab; rw [dif_pos hk]

/-! ## The adjacencies -/

/-- Layer `l` of the constituent adjacency, as the program forms it: the slice of one layer, reshaped, compared with
    the zero word, the bit converted to a float. -/
def conAdjArr (l : ℕ) (C : IVec S2x32x512x512 32) (h : S2x32x512x512.Slices ![l, 0, 0, 0] S1x32x512x512) :
    FVec Ideal S32x512x512 .f32 :=
  uitofp .f32 (cmpi .ne
    (shapeCast _ (extractStridedSlice S1x32x512x512 ![l, 0, 0, 0] C h) shapeCasts_S1x32x512x512_S32x512x512)
    (broadcastInDim S32x512x512 ![] bcast_S_S32x512x512 (constantI S_ 32 0#32)))

/-- It is the indicator of a nonzero word of layer `l`. -/
theorem conAdjArr_apply (l : ℕ) (hl : l < 2) (C : IVec S2x32x512x512 32)
    (h : S2x32x512x512.Slices ![l, 0, 0, 0] S1x32x512x512) (p : Fin 32) (i j : Fin 512) :
    conAdjArr l C h (ix3 p i j) = nz (C (ix4 ⟨l, hl⟩ p i j)) := by
  unfold conAdjArr nz
  show FloatOps.uitofp (F := Ideal) .f32 (IntOp.cmpi .ne
      (shapeCast S32x512x512 (extractStridedSlice S1x32x512x512 ![l, 0, 0, 0] C h) shapeCasts_S1x32x512x512_S32x512x512 (ix3 p i j))
      0#32) = _
  refine congrArg (fun w => FloatOps.uitofp (F := Ideal) .f32 (IntOp.cmpi .ne w 0#32)) ?_
  refine (shapeCast_apply _ shapeCasts_S1x32x512x512_S32x512x512 (ix3 p i j) (ix4 0 p i j) ?_).trans ?_
  · rw [Shape.rowMajor_val_four, Shape.rowMajor_val_three]
    show (((((0 : Fin 1) : ℕ) * 32 + p.val) * 512 + i.val) * 512 + j.val) = (p.val * 512 + i.val) * 512 + j.val
    have h0 : ((0 : Fin 1) : ℕ) = 0 := rfl
    omega
  · exact extractStridedSlice_apply ![l, 0, 0, 0] C h (ix4 0 p i j) (ix4 ⟨l, hl⟩ p i j) (fun a => match a with
      | ⟨0, _⟩ => by show l = l + ((0 : Fin 1) : ℕ); have h0 : ((0 : Fin 1) : ℕ) = 0 := rfl; omega
      | ⟨1, _⟩ => by show p.val = 0 + p.val; omega
      | ⟨2, _⟩ => by show i.val = 0 + i.val; omega
      | ⟨3, _⟩ => by show j.val = 0 + j.val; omega)

/-- An adjacency of words converted as signed integers reads the word's integer. -/
theorem intAdj_apply (D : IVec S32x512x512 32) (idx : S32x512x512.Idx) :
    (sitofp .f32 D : FVec Ideal S32x512x512 .f32) idx = sgn (D idx) := rfl

/-! ## Stacks of layers -/

/-- One layer over row `k` of the tables, its divisor computed from its adjacency: at batch `p` it is the
    specification's layer, given what the adjacency and the incoming features are at batch `p`. -/
theorem layerRow_apply {L : ℕ} (A : FVec Ideal S32x512x512 .f32) (W : FVec Ideal ⟨3, ![L, 256, 256]⟩ .f32)
    (b : FVec Ideal ⟨2, ![L, 256]⟩ .f32) (k : ℕ) (hk : k < L)
    (hW : (⟨3, ![L, 256, 256]⟩ : Shape).Slices ![k, 0, 0] S1x256x256) (hb : (⟨2, ![L, 256]⟩ : Shape).Slices ![k, 0] S1x256)
    (y : FVec Ideal S32x512x256 .f32) (p : Fin 32)
    (Am : Fin 512 → Fin 512 → EReal) (hA : ∀ i j, A (ix3 p i j) = Am i j)
    (g : Fin 512 → Fin 256 → EReal) (hy : ∀ i d, y (ix3 p i d) = g i d) (i : Fin 512) (o : Fin 256) :
    refLayer A (refDen A) (wRow k W hW) (bRow k b hb) y (ix3 p i o)
      = layer Am (rowDen Am) (wTab W k) (bTab b k) g i o := by
  rw [refLayer_apply]
  have e1 : (fun i j => A (ix3 p i j)) = Am := funext fun i => funext fun j => hA i j
  have e2 : (fun i => refDen A (ix3 p i 0)) = rowDen Am := funext fun i => by rw [refDen_apply, e1]
  have e3 : (fun o d => wRow k W hW (ix2 o d)) = wTab W k :=
    funext fun o => funext fun d => by rw [wRow_apply k hk, wTab_of_lt W k hk]
  have e4 : (fun o => bRow k b hb (ix1 o)) = bTab b k := funext fun o => by rw [bRow_apply k hk, bTab_of_lt b k hk]
  have e5 : (fun i d => y (ix3 p i d)) = g := funext fun i => funext fun d => hy i d
  rw [e1, e2, e3, e4, e5]

/-- The constituent branch: two layers, each over its own layer of the adjacency words and its own divisor. -/
theorem con_eq (X : FVec Ideal S32x512x256 .f32) (C : IVec S2x32x512x512 32) (W : FVec Ideal S2x256x256 .f32)
    (b : FVec Ideal S2x256 .f32)
    (hC0 : S2x32x512x512.Slices ![0, 0, 0, 0] S1x32x512x512) (hC1 : S2x32x512x512.Slices ![1, 0, 0, 0] S1x32x512x512)
    (hW0 : S2x256x256.Slices ![0, 0, 0] S1x256x256) (hb0 : S2x256.Slices ![0, 0] S1x256)
    (hW1 : S2x256x256.Slices ![1, 0, 0] S1x256x256) (hb1 : S2x256.Slices ![1, 0] S1x256) :
    refLayer (conAdjArr 1 C hC1) (refDen (conAdjArr 1 C hC1)) (wRow 1 W hW1) (bRow 1 b hb1)
        (refLayer (conAdjArr 0 C hC0) (refDen (conAdjArr 0 C hC0)) (wRow 0 W hW0) (bRow 0 b hb0) X)
      = conArr X C W b := by
  funext idx
  obtain ⟨p, i, o, rfl⟩ : ∃ (p : Fin 32) (i : Fin 512) (o : Fin 256), idx = ix3 p i o := ⟨idx 0, idx 1, idx 2, eq_ix3 idx⟩
  rw [conArr_ix3]
  unfold conG
  exact layerRow_apply _ W b 1 (by decide) hW1 hb1 _ p (conAdj C 1 p)
    (fun i j => conAdjArr_apply 1 (by decide) C hC1 p i j) _
    (fun i d => layerRow_apply _ W b 0 (by decide) hW0 hb0 X p (conAdj C 0 p)
      (fun i j => conAdjArr_apply 0 (by decide) C hC0 p i j) (feat X p) (fun _ _ => rfl) i d) i o

/-- One step of a stacked branch: a layer over the branch's adjacency and row `k` of its tables. -/
def rowStep {L : ℕ} (A : FVec Ideal S32x512x512 .f32) (W : FVec Ideal ⟨3, ![L, 256, 256]⟩ .f32)
    (b : FVec Ideal ⟨2, ![L, 256]⟩ .f32) (k : ℕ)
    (hW : (⟨3, ![L, 256, 256]⟩ : Shape).Slices ![k, 0, 0] S1x256x256) (hb : (⟨2, ![L, 256]⟩ : Shape).Slices ![k, 0] S1x256)
    (y : FVec Ideal S32x512x256 .f32) : FVec Ideal S32x512x256 .f32 :=
  refLayer A (refDen A) (wRow k W hW) (bRow k b hb) y

theorem rowStep_apply {L : ℕ} (A : FVec Ideal S32x512x512 .f32) (W : FVec Ideal ⟨3, ![L, 256, 256]⟩ .f32)
    (b : FVec Ideal ⟨2, ![L, 256]⟩ .f32) (k : ℕ) (hk : k < L)
    (hW : (⟨3, ![L, 256, 256]⟩ : Shape).Slices ![k, 0, 0] S1x256x256) (hb : (⟨2, ![L, 256]⟩ : Shape).Slices ![k, 0] S1x256)
    (y : FVec Ideal S32x512x256 .f32) (p : Fin 32)
    (g : Fin 512 → Fin 256 → EReal) (hy : ∀ i d, y (ix3 p i d) = g i d) (i : Fin 512) (o : Fin 256) :
    rowStep A W b k hW hb y (ix3 p i o) = layer (adjOf A p) (rowDen (adjOf A p)) (wTab W k) (bTab b k) g i o :=
  layerRow_apply A W b k hk hW hb y p (adjOf A p) (fun _ _ => rfl) g hy i o

section Unrolled
variable {ι κ : Type} [Fintype ι] [Fintype κ]

/-- Two stacked layers, written out. -/
theorem stack_two (A : ι → ι → EReal) (den : ι → EReal) (W : ℕ → κ → κ → EReal) (b : ℕ → κ → EReal) (x : ι → κ → EReal) :
    stack A den W b 2 x = layer A den (W 1) (b 1) (layer A den (W 0) (b 0) (x)) := rfl

/-- Nine stacked layers, written out. -/
theorem stack_nine (A : ι → ι → EReal) (den : ι → EReal) (W : ℕ → κ → κ → EReal) (b : ℕ → κ → EReal) (x : ι → κ → EReal) :
    stack A den W b 9 x = layer A den (W 8) (b 8) (layer A den (W 7) (b 7) (layer A den (W 6) (b 6) (layer A den (W 5) (b 5) (layer A den (W 4) (b 4) (layer A den (W 3) (b 3) (layer A den (W 2) (b 2) (layer A den (W 1) (b 1) (layer A den (W 0) (b 0) (x))))))))) := rfl

end Unrolled

/-- A branch of two stacked layers over one real adjacency. -/
theorem stack2_eq (X : FVec Ideal S32x512x256 .f32) (A : FVec Ideal S32x512x512 .f32) (W : FVec Ideal S2x256x256 .f32)
    (b : FVec Ideal S2x256 .f32)
    (hW0 : S2x256x256.Slices ![0, 0, 0] S1x256x256) (hb0 : S2x256.Slices ![0, 0] S1x256)
    (hW1 : S2x256x256.Slices ![1, 0, 0] S1x256x256) (hb1 : S2x256.Slices ![1, 0] S1x256) :
    rowStep A W b 1 hW1 hb1 (rowStep A W b 0 hW0 hb0 X) = realArr X A W b := by
  funext idx
  obtain ⟨p, i, o, rfl⟩ : ∃ (p : Fin 32) (i : Fin 512) (o : Fin 256), idx = ix3 p i o := ⟨idx 0, idx 1, idx 2, eq_ix3 idx⟩
  rw [realArr_ix3]
  unfold stackG
  rw [stack_two]
  exact rowStep_apply A W b 1 (by decide) hW1 hb1 _ p _
    (fun i d => rowStep_apply A W b 0 (by decide) hW0 hb0 _ p _ (fun _ _ => rfl) i d) i o

/-- A branch of nine stacked layers over one real adjacency. -/
theorem stack9_eq (X : FVec Ideal S32x512x256 .f32) (A : FVec Ideal S32x512x512 .f32) (W : FVec Ideal S9x256x256 .f32)
    (b : FVec Ideal S9x256 .f32)
    (hW0 : S9x256x256.Slices ![0, 0, 0] S1x256x256) (hb0 : S9x256.Slices ![0, 0] S1x256)
    (hW1 : S9x256x256.Slices ![1, 0, 0] S1x256x256) (hb1 : S9x256.Slices ![1, 0] S1x256)
    (hW2 : S9x256x256.Slices ![2, 0, 0] S1x256x256) (hb2 : S9x256.Slices ![2, 0] S1x256)
    (hW3 : S9x256x256.Slices ![3, 0, 0] S1x256x256) (hb3 : S9x256.Slices ![3, 0] S1x256)
    (hW4 : S9x256x256.Slices ![4, 0, 0] S1x256x256) (hb4 : S9x256.Slices ![4, 0] S1x256)
    (hW5 : S9x256x256.Slices ![5, 0, 0] S1x256x256) (hb5 : S9x256.Slices ![5, 0] S1x256)
    (hW6 : S9x256x256.Slices ![6, 0, 0] S1x256x256) (hb6 : S9x256.Slices ![6, 0] S1x256)
    (hW7 : S9x256x256.Slices ![7, 0, 0] S1x256x256) (hb7 : S9x256.Slices ![7, 0] S1x256)
    (hW8 : S9x256x256.Slices ![8, 0, 0] S1x256x256) (hb8 : S9x256.Slices ![8, 0] S1x256) :
    rowStep A W b 8 hW8 hb8 (rowStep A W b 7 hW7 hb7 (rowStep A W b 6 hW6 hb6 (rowStep A W b 5 hW5 hb5 (rowStep A W b 4 hW4 hb4 (rowStep A W b 3 hW3 hb3 (rowStep A W b 2 hW2 hb2 (rowStep A W b 1 hW1 hb1 (rowStep A W b 0 hW0 hb0 X)))))))) = realArr X A W b := by
  funext idx
  obtain ⟨p, i, o, rfl⟩ : ∃ (p : Fin 32) (i : Fin 512) (o : Fin 256), idx = ix3 p i o := ⟨idx 0, idx 1, idx 2, eq_ix3 idx⟩
  rw [realArr_ix3]
  unfold stackG
  rw [stack_nine]
  exact rowStep_apply A W b 8 (by decide) hW8 hb8 _ p _
    (fun i d => rowStep_apply A W b 7 (by decide) hW7 hb7 _ p _
    (fun i d => rowStep_apply A W b 6 (by decide) hW6 hb6 _ p _
    (fun i d => rowStep_apply A W b 5 (by decide) hW5 hb5 _ p _
    (fun i d => rowStep_apply A W b 4 (by decide) hW4 hb4 _ p _
    (fun i d => rowStep_apply A W b 3 (by decide) hW3 hb3 _ p _
    (fun i d => rowStep_apply A W b 2 (by decide) hW2 hb2 _ p _
    (fun i d => rowStep_apply A W b 1 (by decide) hW1 hb1 _ p _
    (fun i d => rowStep_apply A W b 0 (by decide) hW0 hb0 _ p _ (fun _ _ => rfl) i d) i d) i d) i d) i d) i d) i d) i d) i o

/-- A stacked branch over an adjacency of words read as signed integers is the same branch over the converted array. -/
theorem intArr_eq_realArr {L : ℕ} (X : (⟨3, ![32, 512, 256]⟩ : Shape).Idx → EReal) (D : (⟨3, ![32, 512, 512]⟩ : Shape).Idx → BitVec 32)
    (W : (⟨3, ![L, 256, 256]⟩ : Shape).Idx → EReal) (b : (⟨2, ![L, 256]⟩ : Shape).Idx → EReal) :
    realArr X (sitofp .f32 D : FVec Ideal S32x512x512 .f32) W b = intArr X D W b := rfl

end Cert.ReferenceIdeal.RefValue

end
-- ==== Proof.RefRunLayersA.lean ====
/-
  The prefix and the first six layers of the reference (the constituent, dependency and semantic branches), run from any contents.

  Each layer's operations, run from any contents of the buffers, leave in the layer's result buffer the unrolled layer of
  Proof/RefLayer.lean applied to the contents of the five buffers the layer reads: an operation's result is its function
  of its operands' contents, and a buffer read is the result of the last operation that wrote it.
-/
import proofs.«128254_j60155311947910_1_alg».proof.Proof.RefOps0
import proofs.«128254_j60155311947910_1_alg».proof.Proof.RefOps1
import proofs.«128254_j60155311947910_1_alg».proof.Proof.RefOps2
import proofs.«128254_j60155311947910_1_alg».proof.Proof.RefOps3
import proofs.«128254_j60155311947910_1_alg».proof.Proof.RefOps4
import proofs.«128254_j60155311947910_1_alg».proof.Proof.RefOps5
import proofs.«128254_j60155311947910_1_alg».proof.Proof.RefLayer
import Idealize.ShloMosaic.Lib.StableHlo.Run

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo

/-- The first piece converts the two integer adjacencies … -/
theorem pre_v0 (W : Valuation τ sig (Elt Ideal)) :
    after piece0 W (Proc.devRef .tc main_v0) = (sitofp .f32 (W (Proc.devRef .tc main_arg2) : IVec S32x512x512 32) : FVec Ideal S32x512x512 .f32) := by
  after_results_simp <;> rfl
theorem pre_v1 (W : Valuation τ sig (Elt Ideal)) :
    after piece0 W (Proc.devRef .tc main_v1) = (sitofp .f32 (W (Proc.devRef .tc main_arg4) : IVec S32x512x512 32) : FVec Ideal S32x512x512 .f32) := by
  after_results_simp <;> rfl
/-- … and forms the three shared divisors. -/
theorem pre_v5 (W : Valuation τ sig (Elt Ideal)) :
    after piece0 W (Proc.devRef .tc main_v5) = refDen (sitofp .f32 (W (Proc.devRef .tc main_arg2) : IVec S32x512x512 32)) := by
  after_results_simp <;> rfl
theorem pre_v9 (W : Valuation τ sig (Elt Ideal)) :
    after piece0 W (Proc.devRef .tc main_v9) = refDen (W (Proc.devRef .tc main_arg3) : FVec Ideal S32x512x512 .f32) := by
  after_results_simp <;> rfl
theorem pre_v13 (W : Valuation τ sig (Elt Ideal)) :
    after piece0 W (Proc.devRef .tc main_v13) = refDen (sitofp .f32 (W (Proc.devRef .tc main_arg4) : IVec S32x512x512 32)) := by
  after_results_simp <;> rfl

/-- Layer 1 of the fifteen: its result buffer after its operations, from any contents. -/
theorem lay1 (W : Valuation τ sig (Elt Ideal)) :
    after piece1 W (Proc.devRef .tc main_v43)
      = refLayer (conAdjArr 0 (W (Proc.devRef .tc main_arg1) : IVec S2x32x512x512 32) slices_S2x32x512x512_S1x32x512x512_0_0_0_0) (refDen (conAdjArr 0 (W (Proc.devRef .tc main_arg1) : IVec S2x32x512x512 32) slices_S2x32x512x512_S1x32x512x512_0_0_0_0))
          (wRow 0 (W (Proc.devRef .tc main_arg6) : FVec Ideal S2x256x256 .f32) slices_S2x256x256_S1x256x256_0_0_0) (bRow 0 (W (Proc.devRef .tc main_arg7) : FVec Ideal S2x256 .f32) slices_S2x256_S1x256_0_0) (W (Proc.devRef .tc main_arg0) : FVec Ideal S32x512x256 .f32) := by
  after_results_simp <;> rfl

/-- Layer 2 of the fifteen: its result buffer after its operations, from any contents. -/
theorem lay2 (W : Valuation τ sig (Elt Ideal)) :
    after piece3 (after piece2 W) (Proc.devRef .tc main_v73)
      = refLayer (conAdjArr 1 (W (Proc.devRef .tc main_arg1) : IVec S2x32x512x512 32) slices_S2x32x512x512_S1x32x512x512_1_0_0_0) (refDen (conAdjArr 1 (W (Proc.devRef .tc main_arg1) : IVec S2x32x512x512 32) slices_S2x32x512x512_S1x32x512x512_1_0_0_0))
          (wRow 1 (W (Proc.devRef .tc main_arg6) : FVec Ideal S2x256x256 .f32) slices_S2x256x256_S1x256x256_1_0_0) (bRow 1 (W (Proc.devRef .tc main_arg7) : FVec Ideal S2x256 .f32) slices_S2x256_S1x256_1_0) (W (Proc.devRef .tc main_v43) : FVec Ideal S32x512x256 .f32) := by
  after_results_simp <;> rfl

/-- Layer 3 of the fifteen: its result buffer after its operations, from any contents. -/
theorem lay3 (W : Valuation τ sig (Elt Ideal)) :
    after piece4 W (Proc.devRef .tc main_v94)
      = refLayer (W (Proc.devRef .tc main_v0) : FVec Ideal S32x512x512 .f32) (W (Proc.devRef .tc main_v5) : FVec Ideal S32x512x1 .f32)
          (wRow 0 (W (Proc.devRef .tc main_arg8) : FVec Ideal S2x256x256 .f32) slices_S2x256x256_S1x256x256_0_0_0) (bRow 0 (W (Proc.devRef .tc main_arg9) : FVec Ideal S2x256 .f32) slices_S2x256_S1x256_0_0) (W (Proc.devRef .tc main_arg0) : FVec Ideal S32x512x256 .f32) := by
  after_results_simp <;> rfl

/-- Layer 4 of the fifteen: its result buffer after its operations, from any contents. -/
theorem lay4 (W : Valuation τ sig (Elt Ideal)) :
    after piece6 (after piece5 W) (Proc.devRef .tc main_v115)
      = refLayer (W (Proc.devRef .tc main_v0) : FVec Ideal S32x512x512 .f32) (W (Proc.devRef .tc main_v5) : FVec Ideal S32x512x1 .f32)
          (wRow 1 (W (Proc.devRef .tc main_arg8) : FVec Ideal S2x256x256 .f32) slices_S2x256x256_S1x256x256_1_0_0) (bRow 1 (W (Proc.devRef .tc main_arg9) : FVec Ideal S2x256 .f32) slices_S2x256_S1x256_1_0) (W (Proc.devRef .tc main_v94) : FVec Ideal S32x512x256 .f32) := by
  after_results_simp <;> rfl

/-- Layer 5 of the fifteen: its result buffer after its operations, from any contents. -/
theorem lay5 (W : Valuation τ sig (Elt Ideal)) :
    after piece7 W (Proc.devRef .tc main_v136)
      = refLayer (W (Proc.devRef .tc main_arg3) : FVec Ideal S32x512x512 .f32) (W (Proc.devRef .tc main_v9) : FVec Ideal S32x512x1 .f32)
          (wRow 0 (W (Proc.devRef .tc main_arg10) : FVec Ideal S2x256x256 .f32) slices_S2x256x256_S1x256x256_0_0_0) (bRow 0 (W (Proc.devRef .tc main_arg11) : FVec Ideal S2x256 .f32) slices_S2x256_S1x256_0_0) (W (Proc.devRef .tc main_arg0) : FVec Ideal S32x512x256 .f32) := by
  after_results_simp <;> rfl

/-- Layer 6 of the fifteen: its result buffer after its operations, from any contents. -/
theorem lay6 (W : Valuation τ sig (Elt Ideal)) :
    after piece8 W (Proc.devRef .tc main_v157)
      = refLayer (W (Proc.devRef .tc main_arg3) : FVec Ideal S32x512x512 .f32) (W (Proc.devRef .tc main_v9) : FVec Ideal S32x512x1 .f32)
          (wRow 1 (W (Proc.devRef .tc main_arg10) : FVec Ideal S2x256x256 .f32) slices_S2x256x256_S1x256x256_1_0_0) (bRow 1 (W (Proc.devRef .tc main_arg11) : FVec Ideal S2x256 .f32) slices_S2x256_S1x256_1_0) (W (Proc.devRef .tc main_v136) : FVec Ideal S32x512x256 .f32) := by
  after_results_simp <;> rfl

end Cert.ReferenceIdeal.RefValue

end
-- ==== Proof.RefRunLayersB.lean ====
/-
  The nine layers of the reference's abstract-meaning branch, run from any contents.

  Each layer's operations, run from any contents of the buffers, leave in the layer's result buffer the unrolled layer of
  Proof/RefLayer.lean applied to the contents of the five buffers the layer reads: an operation's result is its function
  of its operands' contents, and a buffer read is the result of the last operation that wrote it.
-/
import proofs.«128254_j60155311947910_1_alg».proof.Proof.RefOps0
import proofs.«128254_j60155311947910_1_alg».proof.Proof.RefOps1
import proofs.«128254_j60155311947910_1_alg».proof.Proof.RefOps2
import proofs.«128254_j60155311947910_1_alg».proof.Proof.RefOps3
import proofs.«128254_j60155311947910_1_alg».proof.Proof.RefOps4
import proofs.«128254_j60155311947910_1_alg».proof.Proof.RefOps5
import proofs.«128254_j60155311947910_1_alg».proof.Proof.RefLayer
import Idealize.ShloMosaic.Lib.StableHlo.Run

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo

/-- Layer 7 of the fifteen: its result buffer after its operations, from any contents. -/
theorem lay7 (W : Valuation τ sig (Elt Ideal)) :
    after piece10 (after piece9 W) (Proc.devRef .tc main_v178)
      = refLayer (W (Proc.devRef .tc main_v1) : FVec Ideal S32x512x512 .f32) (W (Proc.devRef .tc main_v13) : FVec Ideal S32x512x1 .f32)
          (wRow 0 (W (Proc.devRef .tc main_arg12) : FVec Ideal S9x256x256 .f32) slices_S9x256x256_S1x256x256_0_0_0) (bRow 0 (W (Proc.devRef .tc main_arg13) : FVec Ideal S9x256 .f32) slices_S9x256_S1x256_0_0) (W (Proc.devRef .tc main_arg0) : FVec Ideal S32x512x256 .f32) := by
  after_results_simp <;> rfl

/-- Layer 8 of the fifteen: its result buffer after its operations, from any contents. -/
theorem lay8 (W : Valuation τ sig (Elt Ideal)) :
    after piece11 W (Proc.devRef .tc main_v199)
      = refLayer (W (Proc.devRef .tc main_v1) : FVec Ideal S32x512x512 .f32) (W (Proc.devRef .tc main_v13) : FVec Ideal S32x512x1 .f32)
          (wRow 1 (W (Proc.devRef .tc main_arg12) : FVec Ideal S9x256x256 .f32) slices_S9x256x256_S1x256x256_1_0_0) (bRow 1 (W (Proc.devRef .tc main_arg13) : FVec Ideal S9x256 .f32) slices_S9x256_S1x256_1_0) (W (Proc.devRef .tc main_v178) : FVec Ideal S32x512x256 .f32) := by
  after_results_simp <;> rfl

/-- Layer 9 of the fifteen: its result buffer after its operations, from any contents. -/
theorem lay9 (W : Valuation τ sig (Elt Ideal)) :
    after piece12 W (Proc.devRef .tc main_v220)
      = refLayer (W (Proc.devRef .tc main_v1) : FVec Ideal S32x512x512 .f32) (W (Proc.devRef .tc main_v13) : FVec Ideal S32x512x1 .f32)
          (wRow 2 (W (Proc.devRef .tc main_arg12) : FVec Ideal S9x256x256 .f32) slices_S9x256x256_S1x256x256_2_0_0) (bRow 2 (W (Proc.devRef .tc main_arg13) : FVec Ideal S9x256 .f32) slices_S9x256_S1x256_2_0) (W (Proc.devRef .tc main_v199) : FVec Ideal S32x512x256 .f32) := by
  after_results_simp <;> rfl

/-- Layer 10 of the fifteen: its result buffer after its operations, from any contents. -/
theorem lay10 (W : Valuation τ sig (Elt Ideal)) :
    after piece14 (after piece13 W) (Proc.devRef .tc main_v241)
      = refLayer (W (Proc.devRef .tc main_v1) : FVec Ideal S32x512x512 .f32) (W (Proc.devRef .tc main_v13) : FVec Ideal S32x512x1 .f32)
          (wRow 3 (W (Proc.devRef .tc main_arg12) : FVec Ideal S9x256x256 .f32) slices_S9x256x256_S1x256x256_3_0_0) (bRow 3 (W (Proc.devRef .tc main_arg13) : FVec Ideal S9x256 .f32) slices_S9x256_S1x256_3_0) (W (Proc.devRef .tc main_v220) : FVec Ideal S32x512x256 .f32) := by
  after_results_simp <;> rfl

/-- Layer 11 of the fifteen: its result buffer after its operations, from any contents. -/
theorem lay11 (W : Valuation τ sig (Elt Ideal)) :
    after piece15 W (Proc.devRef .tc main_v262)
      = refLayer (W (Proc.devRef .tc main_v1) : FVec Ideal S32x512x512 .f32) (W (Proc.devRef .tc main_v13) : FVec Ideal S32x512x1 .f32)
          (wRow 4 (W (Proc.devRef .tc main_arg12) : FVec Ideal S9x256x256 .f32) slices_S9x256x256_S1x256x256_4_0_0) (bRow 4 (W (Proc.devRef .tc main_arg13) : FVec Ideal S9x256 .f32) slices_S9x256_S1x256_4_0) (W (Proc.devRef .tc main_v241) : FVec Ideal S32x512x256 .f32) := by
  after_results_simp <;> rfl

/-- Layer 12 of the fifteen: its result buffer after its operations, from any contents. -/
theorem lay12 (W : Valuation τ sig (Elt Ideal)) :
    after piece16 W (Proc.devRef .tc main_v283)
      = refLayer (W (Proc.devRef .tc main_v1) : FVec Ideal S32x512x512 .f32) (W (Proc.devRef .tc main_v13) : FVec Ideal S32x512x1 .f32)
          (wRow 5 (W (Proc.devRef .tc main_arg12) : FVec Ideal S9x256x256 .f32) slices_S9x256x256_S1x256x256_5_0_0) (bRow 5 (W (Proc.devRef .tc main_arg13) : FVec Ideal S9x256 .f32) slices_S9x256_S1x256_5_0) (W (Proc.devRef .tc main_v262) : FVec Ideal S32x512x256 .f32) := by
  after_results_simp <;> rfl

/-- Layer 13 of the fifteen: its result buffer after its operations, from any contents. -/
theorem lay13 (W : Valuation τ sig (Elt Ideal)) :
    after piece18 (after piece17 W) (Proc.devRef .tc main_v304)
      = refLayer (W (Proc.devRef .tc main_v1) : FVec Ideal S32x512x512 .f32) (W (Proc.devRef .tc main_v13) : FVec Ideal S32x512x1 .f32)
          (wRow 6 (W (Proc.devRef .tc main_arg12) : FVec Ideal S9x256x256 .f32) slices_S9x256x256_S1x256x256_6_0_0) (bRow 6 (W (Proc.devRef .tc main_arg13) : FVec Ideal S9x256 .f32) slices_S9x256_S1x256_6_0) (W (Proc.devRef .tc main_v283) : FVec Ideal S32x512x256 .f32) := by
  after_results_simp <;> rfl

/-- Layer 14 of the fifteen: its result buffer after its operations, from any contents. -/
theorem lay14 (W : Valuation τ sig (Elt Ideal)) :
    after piece19 W (Proc.devRef .tc main_v325)
      = refLayer (W (Proc.devRef .tc main_v1) : FVec Ideal S32x512x512 .f32) (W (Proc.devRef .tc main_v13) : FVec Ideal S32x512x1 .f32)
          (wRow 7 (W (Proc.devRef .tc main_arg12) : FVec Ideal S9x256x256 .f32) slices_S9x256x256_S1x256x256_7_0_0) (bRow 7 (W (Proc.devRef .tc main_arg13) : FVec Ideal S9x256 .f32) slices_S9x256_S1x256_7_0) (W (Proc.devRef .tc main_v304) : FVec Ideal S32x512x256 .f32) := by
  after_results_simp <;> rfl

/-- Layer 15 of the fifteen: its result buffer after its operations, from any contents. -/
theorem lay15 (W : Valuation τ sig (Elt Ideal)) :
    after piece20 W (Proc.devRef .tc main_v346)
      = refLayer (W (Proc.devRef .tc main_v1) : FVec Ideal S32x512x512 .f32) (W (Proc.devRef .tc main_v13) : FVec Ideal S32x512x1 .f32)
          (wRow 8 (W (Proc.devRef .tc main_arg12) : FVec Ideal S9x256x256 .f32) slices_S9x256x256_S1x256x256_8_0_0) (bRow 8 (W (Proc.devRef .tc main_arg13) : FVec Ideal S9x256 .f32) slices_S9x256_S1x256_8_0) (W (Proc.devRef .tc main_v325) : FVec Ideal S32x512x256 .f32) := by
  after_results_simp <;> rfl

end Cert.ReferenceIdeal.RefValue

end
-- ==== Proof.RefRun.lean ====
/-
  The reference's run: every execution of its @main ends with the four result buffers at the specification's four arrays
  of the arguments, and the arguments unchanged.

  The operations run piece by piece. The first piece converts the integer adjacencies and forms the shared divisors; each
  later layer reads the arguments, those shared buffers and the previous layer's result, all of which the pieces in
  between leave alone, and writes the unrolled layer of them. So the contents of a branch's last result buffer are the
  nest of unrolled layers of the arguments, which Proof/RefLayer.lean proves equal to the specification's array; and no
  piece after a branch's last layer writes its result buffer, nor does any piece write an argument.
-/
import proofs.«128254_j60155311947910_1_alg».proof.Proof.RefRunMain
import proofs.«128254_j60155311947910_1_alg».proof.Proof.RefRunFrame
import proofs.«128254_j60155311947910_1_alg».proof.Proof.RefRunLayersA
import proofs.«128254_j60155311947910_1_alg».proof.Proof.RefRunLayersB

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Cert.Gcn

section Stages
variable (V : Valuation τ sig (Elt Ideal))

/-! ## The contents after each layer -/

/-- The contents after the first piece, … -/
def U0 : Valuation τ sig (Elt Ideal) := after piece0 V
/-- … after layer 1, … -/
def U1 : Valuation τ sig (Elt Ideal) := after piece1 (U0 V)
/-- … after layer 2, … -/
def U3 : Valuation τ sig (Elt Ideal) := after piece3 (after piece2 (U1 V))
/-- … after layer 3, … -/
def U4 : Valuation τ sig (Elt Ideal) := after piece4 (U3 V)
/-- … after layer 4, … -/
def U6 : Valuation τ sig (Elt Ideal) := after piece6 (after piece5 (U4 V))
/-- … after layer 5, … -/
def U7 : Valuation τ sig (Elt Ideal) := after piece7 (U6 V)
/-- … after layer 6, … -/
def U8 : Valuation τ sig (Elt Ideal) := after piece8 (U7 V)
/-- … after layer 7, … -/
def U10 : Valuation τ sig (Elt Ideal) := after piece10 (after piece9 (U8 V))
/-- … after layer 8, … -/
def U11 : Valuation τ sig (Elt Ideal) := after piece11 (U10 V)
/-- … after layer 9, … -/
def U12 : Valuation τ sig (Elt Ideal) := after piece12 (U11 V)
/-- … after layer 10, … -/
def U14 : Valuation τ sig (Elt Ideal) := after piece14 (after piece13 (U12 V))
/-- … after layer 11, … -/
def U15 : Valuation τ sig (Elt Ideal) := after piece15 (U14 V)
/-- … after layer 12, … -/
def U16 : Valuation τ sig (Elt Ideal) := after piece16 (U15 V)
/-- … after layer 13, … -/
def U18 : Valuation τ sig (Elt Ideal) := after piece18 (after piece17 (U16 V))
/-- … after layer 14, … -/
def U19 : Valuation τ sig (Elt Ideal) := after piece19 (U18 V)
/-- … after layer 15, … -/
def U20 : Valuation τ sig (Elt Ideal) := after piece20 (U19 V)

/-- The whole list leaves the contents after the last layer. -/
theorem after_opsAll : after opsAll V = U20 V := by
  unfold U20 U19 U18 U16 U15 U14 U12 U11 U10 U8 U7 U6 U4 U3 U1 U0
  show after (piece0 ++ (piece1 ++ (piece2 ++ (piece3 ++ (piece4 ++ (piece5 ++ (piece6 ++ (piece7 ++ (piece8 ++ (piece9 ++ (piece10 ++ (piece11 ++ (piece12 ++ (piece13 ++ (piece14 ++ (piece15 ++ (piece16 ++ (piece17 ++ (piece18 ++ (piece19 ++ (piece20))))))))))))))))))))) V = _
  simp only [after_append]

/-! ## The shared buffers at every stage -/

theorem ag1 : Agree (U1 V) (U0 V) := agree1 (Agree.refl (U0 V))
theorem ag3 : Agree (U3 V) (U0 V) := agree3 (agree2 (ag1 V))
theorem ag4 : Agree (U4 V) (U0 V) := agree4 (ag3 V)
theorem ag6 : Agree (U6 V) (U0 V) := agree6 (agree5 (ag4 V))
theorem ag7 : Agree (U7 V) (U0 V) := agree7 (ag6 V)
theorem ag8 : Agree (U8 V) (U0 V) := agree8 (ag7 V)
theorem ag10 : Agree (U10 V) (U0 V) := agree10 (agree9 (ag8 V))
theorem ag11 : Agree (U11 V) (U0 V) := agree11 (ag10 V)
theorem ag12 : Agree (U12 V) (U0 V) := agree12 (ag11 V)
theorem ag14 : Agree (U14 V) (U0 V) := agree14 (agree13 (ag12 V))
theorem ag15 : Agree (U15 V) (U0 V) := agree15 (ag14 V)
theorem ag16 : Agree (U16 V) (U0 V) := agree16 (ag15 V)
theorem ag18 : Agree (U18 V) (U0 V) := agree18 (agree17 (ag16 V))
theorem ag19 : Agree (U19 V) (U0 V) := agree19 (ag18 V)
theorem ag20 : Agree (U20 V) (U0 V) := agree20 (ag19 V)

/-- An argument, at contents that agree with the first piece's on the shared buffers, is the launch's. -/
theorem sh_arg {W : Valuation τ sig (Elt Ideal)} (h : Agree W (U0 V)) (r : Ref sig .tc) (hs : r ∈ shared) (hr : r ∉ wr0) :
    W (Proc.devRef .tc r) = V (Proc.devRef .tc r) :=
  (h r hs).trans (frame0 V r hr)
theorem sh_v0 {W : Valuation τ sig (Elt Ideal)} (h : Agree W (U0 V)) :
    W (Proc.devRef .tc main_v0) = (sitofp .f32 (V (Proc.devRef .tc main_arg2) : IVec S32x512x512 32) : FVec Ideal S32x512x512 .f32) :=
  (h main_v0 (by decide)).trans (pre_v0 V)
theorem sh_v1 {W : Valuation τ sig (Elt Ideal)} (h : Agree W (U0 V)) :
    W (Proc.devRef .tc main_v1) = (sitofp .f32 (V (Proc.devRef .tc main_arg4) : IVec S32x512x512 32) : FVec Ideal S32x512x512 .f32) :=
  (h main_v1 (by decide)).trans (pre_v1 V)
theorem sh_v5 {W : Valuation τ sig (Elt Ideal)} (h : Agree W (U0 V)) :
    W (Proc.devRef .tc main_v5) = refDen (sitofp .f32 (V (Proc.devRef .tc main_arg2) : IVec S32x512x512 32)) :=
  (h main_v5 (by decide)).trans (pre_v5 V)
theorem sh_v9 {W : Valuation τ sig (Elt Ideal)} (h : Agree W (U0 V)) :
    W (Proc.devRef .tc main_v9) = refDen (V (Proc.devRef .tc main_arg3) : FVec Ideal S32x512x512 .f32) :=
  (h main_v9 (by decide)).trans (pre_v9 V)
theorem sh_v13 {W : Valuation τ sig (Elt Ideal)} (h : Agree W (U0 V)) :
    W (Proc.devRef .tc main_v13) = refDen (sitofp .f32 (V (Proc.devRef .tc main_arg4) : IVec S32x512x512 32)) :=
  (h main_v13 (by decide)).trans (pre_v13 V)

/-! ## Each layer's result as a function of the arguments -/

/-- Layer 1's result as a function of the arguments. -/
def res43 : FVec Ideal S32x512x256 .f32 :=
  refLayer (conAdjArr 0 (V (Proc.devRef .tc main_arg1) : IVec S2x32x512x512 32) slices_S2x32x512x512_S1x32x512x512_0_0_0_0) (refDen (conAdjArr 0 (V (Proc.devRef .tc main_arg1) : IVec S2x32x512x512 32) slices_S2x32x512x512_S1x32x512x512_0_0_0_0))
          (wRow 0 (V (Proc.devRef .tc main_arg6) : FVec Ideal S2x256x256 .f32) slices_S2x256x256_S1x256x256_0_0_0) (bRow 0 (V (Proc.devRef .tc main_arg7) : FVec Ideal S2x256 .f32) slices_S2x256_S1x256_0_0) (V (Proc.devRef .tc main_arg0) : FVec Ideal S32x512x256 .f32)
/-- Layer 2's result as a function of the arguments. -/
def res73 : FVec Ideal S32x512x256 .f32 :=
  refLayer (conAdjArr 1 (V (Proc.devRef .tc main_arg1) : IVec S2x32x512x512 32) slices_S2x32x512x512_S1x32x512x512_1_0_0_0) (refDen (conAdjArr 1 (V (Proc.devRef .tc main_arg1) : IVec S2x32x512x512 32) slices_S2x32x512x512_S1x32x512x512_1_0_0_0))
          (wRow 1 (V (Proc.devRef .tc main_arg6) : FVec Ideal S2x256x256 .f32) slices_S2x256x256_S1x256x256_1_0_0) (bRow 1 (V (Proc.devRef .tc main_arg7) : FVec Ideal S2x256 .f32) slices_S2x256_S1x256_1_0) (res43 V)
/-- Layer 3's result as a function of the arguments. -/
def res94 : FVec Ideal S32x512x256 .f32 :=
  refLayer (sitofp .f32 (V (Proc.devRef .tc main_arg2) : IVec S32x512x512 32) : FVec Ideal S32x512x512 .f32) (refDen (sitofp .f32 (V (Proc.devRef .tc main_arg2) : IVec S32x512x512 32)))
          (wRow 0 (V (Proc.devRef .tc main_arg8) : FVec Ideal S2x256x256 .f32) slices_S2x256x256_S1x256x256_0_0_0) (bRow 0 (V (Proc.devRef .tc main_arg9) : FVec Ideal S2x256 .f32) slices_S2x256_S1x256_0_0) (V (Proc.devRef .tc main_arg0) : FVec Ideal S32x512x256 .f32)
/-- Layer 4's result as a function of the arguments. -/
def res115 : FVec Ideal S32x512x256 .f32 :=
  refLayer (sitofp .f32 (V (Proc.devRef .tc main_arg2) : IVec S32x512x512 32) : FVec Ideal S32x512x512 .f32) (refDen (sitofp .f32 (V (Proc.devRef .tc main_arg2) : IVec S32x512x512 32)))
          (wRow 1 (V (Proc.devRef .tc main_arg8) : FVec Ideal S2x256x256 .f32) slices_S2x256x256_S1x256x256_1_0_0) (bRow 1 (V (Proc.devRef .tc main_arg9) : FVec Ideal S2x256 .f32) slices_S2x256_S1x256_1_0) (res94 V)
/-- Layer 5's result as a function of the arguments. -/
def res136 : FVec Ideal S32x512x256 .f32 :=
  refLayer (V (Proc.devRef .tc main_arg3) : FVec Ideal S32x512x512 .f32) (refDen (V (Proc.devRef .tc main_arg3) : FVec Ideal S32x512x512 .f32))
          (wRow 0 (V (Proc.devRef .tc main_arg10) : FVec Ideal S2x256x256 .f32) slices_S2x256x256_S1x256x256_0_0_0) (bRow 0 (V (Proc.devRef .tc main_arg11) : FVec Ideal S2x256 .f32) slices_S2x256_S1x256_0_0) (V (Proc.devRef .tc main_arg0) : FVec Ideal S32x512x256 .f32)
/-- Layer 6's result as a function of the arguments. -/
def res157 : FVec Ideal S32x512x256 .f32 :=
  refLayer (V (Proc.devRef .tc main_arg3) : FVec Ideal S32x512x512 .f32) (refDen (V (Proc.devRef .tc main_arg3) : FVec Ideal S32x512x512 .f32))
          (wRow 1 (V (Proc.devRef .tc main_arg10) : FVec Ideal S2x256x256 .f32) slices_S2x256x256_S1x256x256_1_0_0) (bRow 1 (V (Proc.devRef .tc main_arg11) : FVec Ideal S2x256 .f32) slices_S2x256_S1x256_1_0) (res136 V)
/-- Layer 7's result as a function of the arguments. -/
def res178 : FVec Ideal S32x512x256 .f32 :=
  refLayer (sitofp .f32 (V (Proc.devRef .tc main_arg4) : IVec S32x512x512 32) : FVec Ideal S32x512x512 .f32) (refDen (sitofp .f32 (V (Proc.devRef .tc main_arg4) : IVec S32x512x512 32)))
          (wRow 0 (V (Proc.devRef .tc main_arg12) : FVec Ideal S9x256x256 .f32) slices_S9x256x256_S1x256x256_0_0_0) (bRow 0 (V (Proc.devRef .tc main_arg13) : FVec Ideal S9x256 .f32) slices_S9x256_S1x256_0_0) (V (Proc.devRef .tc main_arg0) : FVec Ideal S32x512x256 .f32)
/-- Layer 8's result as a function of the arguments. -/
def res199 : FVec Ideal S32x512x256 .f32 :=
  refLayer (sitofp .f32 (V (Proc.devRef .tc main_arg4) : IVec S32x512x512 32) : FVec Ideal S32x512x512 .f32) (refDen (sitofp .f32 (V (Proc.devRef .tc main_arg4) : IVec S32x512x512 32)))
          (wRow 1 (V (Proc.devRef .tc main_arg12) : FVec Ideal S9x256x256 .f32) slices_S9x256x256_S1x256x256_1_0_0) (bRow 1 (V (Proc.devRef .tc main_arg13) : FVec Ideal S9x256 .f32) slices_S9x256_S1x256_1_0) (res178 V)
/-- Layer 9's result as a function of the arguments. -/
def res220 : FVec Ideal S32x512x256 .f32 :=
  refLayer (sitofp .f32 (V (Proc.devRef .tc main_arg4) : IVec S32x512x512 32) : FVec Ideal S32x512x512 .f32) (refDen (sitofp .f32 (V (Proc.devRef .tc main_arg4) : IVec S32x512x512 32)))
          (wRow 2 (V (Proc.devRef .tc main_arg12) : FVec Ideal S9x256x256 .f32) slices_S9x256x256_S1x256x256_2_0_0) (bRow 2 (V (Proc.devRef .tc main_arg13) : FVec Ideal S9x256 .f32) slices_S9x256_S1x256_2_0) (res199 V)
/-- Layer 10's result as a function of the arguments. -/
def res241 : FVec Ideal S32x512x256 .f32 :=
  refLayer (sitofp .f32 (V (Proc.devRef .tc main_arg4) : IVec S32x512x512 32) : FVec Ideal S32x512x512 .f32) (refDen (sitofp .f32 (V (Proc.devRef .tc main_arg4) : IVec S32x512x512 32)))
          (wRow 3 (V (Proc.devRef .tc main_arg12) : FVec Ideal S9x256x256 .f32) slices_S9x256x256_S1x256x256_3_0_0) (bRow 3 (V (Proc.devRef .tc main_arg13) : FVec Ideal S9x256 .f32) slices_S9x256_S1x256_3_0) (res220 V)
/-- Layer 11's result as a function of the arguments. -/
def res262 : FVec Ideal S32x512x256 .f32 :=
  refLayer (sitofp .f32 (V (Proc.devRef .tc main_arg4) : IVec S32x512x512 32) : FVec Ideal S32x512x512 .f32) (refDen (sitofp .f32 (V (Proc.devRef .tc main_arg4) : IVec S32x512x512 32)))
          (wRow 4 (V (Proc.devRef .tc main_arg12) : FVec Ideal S9x256x256 .f32) slices_S9x256x256_S1x256x256_4_0_0) (bRow 4 (V (Proc.devRef .tc main_arg13) : FVec Ideal S9x256 .f32) slices_S9x256_S1x256_4_0) (res241 V)
/-- Layer 12's result as a function of the arguments. -/
def res283 : FVec Ideal S32x512x256 .f32 :=
  refLayer (sitofp .f32 (V (Proc.devRef .tc main_arg4) : IVec S32x512x512 32) : FVec Ideal S32x512x512 .f32) (refDen (sitofp .f32 (V (Proc.devRef .tc main_arg4) : IVec S32x512x512 32)))
          (wRow 5 (V (Proc.devRef .tc main_arg12) : FVec Ideal S9x256x256 .f32) slices_S9x256x256_S1x256x256_5_0_0) (bRow 5 (V (Proc.devRef .tc main_arg13) : FVec Ideal S9x256 .f32) slices_S9x256_S1x256_5_0) (res262 V)
/-- Layer 13's result as a function of the arguments. -/
def res304 : FVec Ideal S32x512x256 .f32 :=
  refLayer (sitofp .f32 (V (Proc.devRef .tc main_arg4) : IVec S32x512x512 32) : FVec Ideal S32x512x512 .f32) (refDen (sitofp .f32 (V (Proc.devRef .tc main_arg4) : IVec S32x512x512 32)))
          (wRow 6 (V (Proc.devRef .tc main_arg12) : FVec Ideal S9x256x256 .f32) slices_S9x256x256_S1x256x256_6_0_0) (bRow 6 (V (Proc.devRef .tc main_arg13) : FVec Ideal S9x256 .f32) slices_S9x256_S1x256_6_0) (res283 V)
/-- Layer 14's result as a function of the arguments. -/
def res325 : FVec Ideal S32x512x256 .f32 :=
  refLayer (sitofp .f32 (V (Proc.devRef .tc main_arg4) : IVec S32x512x512 32) : FVec Ideal S32x512x512 .f32) (refDen (sitofp .f32 (V (Proc.devRef .tc main_arg4) : IVec S32x512x512 32)))
          (wRow 7 (V (Proc.devRef .tc main_arg12) : FVec Ideal S9x256x256 .f32) slices_S9x256x256_S1x256x256_7_0_0) (bRow 7 (V (Proc.devRef .tc main_arg13) : FVec Ideal S9x256 .f32) slices_S9x256_S1x256_7_0) (res304 V)
/-- Layer 15's result as a function of the arguments. -/
def res346 : FVec Ideal S32x512x256 .f32 :=
  refLayer (sitofp .f32 (V (Proc.devRef .tc main_arg4) : IVec S32x512x512 32) : FVec Ideal S32x512x512 .f32) (refDen (sitofp .f32 (V (Proc.devRef .tc main_arg4) : IVec S32x512x512 32)))
          (wRow 8 (V (Proc.devRef .tc main_arg12) : FVec Ideal S9x256x256 .f32) slices_S9x256x256_S1x256x256_8_0_0) (bRow 8 (V (Proc.devRef .tc main_arg13) : FVec Ideal S9x256 .f32) slices_S9x256_S1x256_8_0) (res325 V)

theorem r43 : U1 V (Proc.devRef .tc main_v43) = res43 V := by
  unfold U1 res43
  rw [lay1, sh_arg V (Agree.refl (U0 V)) main_arg1 (by decide) (by decide),
    sh_arg V (Agree.refl (U0 V)) main_arg6 (by decide) (by decide),
    sh_arg V (Agree.refl (U0 V)) main_arg7 (by decide) (by decide),
    sh_arg V (Agree.refl (U0 V)) main_arg0 (by decide) (by decide)]
theorem r73 : U3 V (Proc.devRef .tc main_v73) = res73 V := by
  unfold U3 res73
  rw [lay2, sh_arg V (ag1 V) main_arg1 (by decide) (by decide),
    sh_arg V (ag1 V) main_arg6 (by decide) (by decide),
    sh_arg V (ag1 V) main_arg7 (by decide) (by decide),
    r43 V]
theorem r94 : U4 V (Proc.devRef .tc main_v94) = res94 V := by
  unfold U4 res94
  rw [lay3, sh_v0 V (ag3 V),
    sh_v5 V (ag3 V),
    sh_arg V (ag3 V) main_arg8 (by decide) (by decide),
    sh_arg V (ag3 V) main_arg9 (by decide) (by decide),
    sh_arg V (ag3 V) main_arg0 (by decide) (by decide)]
theorem r115 : U6 V (Proc.devRef .tc main_v115) = res115 V := by
  unfold U6 res115
  rw [lay4, sh_v0 V (ag4 V),
    sh_v5 V (ag4 V),
    sh_arg V (ag4 V) main_arg8 (by decide) (by decide),
    sh_arg V (ag4 V) main_arg9 (by decide) (by decide),
    r94 V]
theorem r136 : U7 V (Proc.devRef .tc main_v136) = res136 V := by
  unfold U7 res136
  rw [lay5, sh_arg V (ag6 V) main_arg3 (by decide) (by decide),
    sh_v9 V (ag6 V),
    sh_arg V (ag6 V) main_arg10 (by decide) (by decide),
    sh_arg V (ag6 V) main_arg11 (by decide) (by decide),
    sh_arg V (ag6 V) main_arg0 (by decide) (by decide)]
theorem r157 : U8 V (Proc.devRef .tc main_v157) = res157 V := by
  unfold U8 res157
  rw [lay6, sh_arg V (ag7 V) main_arg3 (by decide) (by decide),
    sh_v9 V (ag7 V),
    sh_arg V (ag7 V) main_arg10 (by decide) (by decide),
    sh_arg V (ag7 V) main_arg11 (by decide) (by decide),
    r136 V]
theorem r178 : U10 V (Proc.devRef .tc main_v178) = res178 V := by
  unfold U10 res178
  rw [lay7, sh_v1 V (ag8 V),
    sh_v13 V (ag8 V),
    sh_arg V (ag8 V) main_arg12 (by decide) (by decide),
    sh_arg V (ag8 V) main_arg13 (by decide) (by decide),
    sh_arg V (ag8 V) main_arg0 (by decide) (by decide)]
theorem r199 : U11 V (Proc.devRef .tc main_v199) = res199 V := by
  unfold U11 res199
  rw [lay8, sh_v1 V (ag10 V),
    sh_v13 V (ag10 V),
    sh_arg V (ag10 V) main_arg12 (by decide) (by decide),
    sh_arg V (ag10 V) main_arg13 (by decide) (by decide),
    r178 V]
theorem r220 : U12 V (Proc.devRef .tc main_v220) = res220 V := by
  unfold U12 res220
  rw [lay9, sh_v1 V (ag11 V),
    sh_v13 V (ag11 V),
    sh_arg V (ag11 V) main_arg12 (by decide) (by decide),
    sh_arg V (ag11 V) main_arg13 (by decide) (by decide),
    r199 V]
theorem r241 : U14 V (Proc.devRef .tc main_v241) = res241 V := by
  unfold U14 res241
  rw [lay10, sh_v1 V (ag12 V),
    sh_v13 V (ag12 V),
    sh_arg V (ag12 V) main_arg12 (by decide) (by decide),
    sh_arg V (ag12 V) main_arg13 (by decide) (by decide),
    r220 V]
theorem r262 : U15 V (Proc.devRef .tc main_v262) = res262 V := by
  unfold U15 res262
  rw [lay11, sh_v1 V (ag14 V),
    sh_v13 V (ag14 V),
    sh_arg V (ag14 V) main_arg12 (by decide) (by decide),
    sh_arg V (ag14 V) main_arg13 (by decide) (by decide),
    r241 V]
theorem r283 : U16 V (Proc.devRef .tc main_v283) = res283 V := by
  unfold U16 res283
  rw [lay12, sh_v1 V (ag15 V),
    sh_v13 V (ag15 V),
    sh_arg V (ag15 V) main_arg12 (by decide) (by decide),
    sh_arg V (ag15 V) main_arg13 (by decide) (by decide),
    r262 V]
theorem r304 : U18 V (Proc.devRef .tc main_v304) = res304 V := by
  unfold U18 res304
  rw [lay13, sh_v1 V (ag16 V),
    sh_v13 V (ag16 V),
    sh_arg V (ag16 V) main_arg12 (by decide) (by decide),
    sh_arg V (ag16 V) main_arg13 (by decide) (by decide),
    r283 V]
theorem r325 : U19 V (Proc.devRef .tc main_v325) = res325 V := by
  unfold U19 res325
  rw [lay14, sh_v1 V (ag18 V),
    sh_v13 V (ag18 V),
    sh_arg V (ag18 V) main_arg12 (by decide) (by decide),
    sh_arg V (ag18 V) main_arg13 (by decide) (by decide),
    r304 V]
theorem r346 : U20 V (Proc.devRef .tc main_v346) = res346 V := by
  unfold U20 res346
  rw [lay15, sh_v1 V (ag19 V),
    sh_v13 V (ag19 V),
    sh_arg V (ag19 V) main_arg12 (by decide) (by decide),
    sh_arg V (ag19 V) main_arg13 (by decide) (by decide),
    r325 V]

/-! ## The four results and the arguments after the whole list -/

theorem end73 : after opsAll V (Proc.devRef .tc main_v73) = res73 V := by
  rw [after_opsAll]
  unfold U20 U19 U18 U16 U15 U14 U12 U11 U10 U8 U7 U6 U4
  rw [frame20 _ main_v73 (by decide), frame19 _ main_v73 (by decide), frame18 _ main_v73 (by decide), frame17 _ main_v73 (by decide), frame16 _ main_v73 (by decide), frame15 _ main_v73 (by decide), frame14 _ main_v73 (by decide), frame13 _ main_v73 (by decide), frame12 _ main_v73 (by decide), frame11 _ main_v73 (by decide), frame10 _ main_v73 (by decide), frame9 _ main_v73 (by decide), frame8 _ main_v73 (by decide), frame7 _ main_v73 (by decide), frame6 _ main_v73 (by decide), frame5 _ main_v73 (by decide), frame4 _ main_v73 (by decide)]
  exact r73 V
theorem end115 : after opsAll V (Proc.devRef .tc main_v115) = res115 V := by
  rw [after_opsAll]
  unfold U20 U19 U18 U16 U15 U14 U12 U11 U10 U8 U7
  rw [frame20 _ main_v115 (by decide), frame19 _ main_v115 (by decide), frame18 _ main_v115 (by decide), frame17 _ main_v115 (by decide), frame16 _ main_v115 (by decide), frame15 _ main_v115 (by decide), frame14 _ main_v115 (by decide), frame13 _ main_v115 (by decide), frame12 _ main_v115 (by decide), frame11 _ main_v115 (by decide), frame10 _ main_v115 (by decide), frame9 _ main_v115 (by decide), frame8 _ main_v115 (by decide), frame7 _ main_v115 (by decide)]
  exact r115 V
theorem end157 : after opsAll V (Proc.devRef .tc main_v157) = res157 V := by
  rw [after_opsAll]
  unfold U20 U19 U18 U16 U15 U14 U12 U11 U10
  rw [frame20 _ main_v157 (by decide), frame19 _ main_v157 (by decide), frame18 _ main_v157 (by decide), frame17 _ main_v157 (by decide), frame16 _ main_v157 (by decide), frame15 _ main_v157 (by decide), frame14 _ main_v157 (by decide), frame13 _ main_v157 (by decide), frame12 _ main_v157 (by decide), frame11 _ main_v157 (by decide), frame10 _ main_v157 (by decide), frame9 _ main_v157 (by decide)]
  exact r157 V
theorem end346 : after opsAll V (Proc.devRef .tc main_v346) = res346 V := by
  rw [after_opsAll]
  exact r346 V
theorem end_arg (r : Ref sig .tc) (hs : r ∈ shared) (hr : r ∉ wr0) :
    after opsAll V (Proc.devRef .tc r) = V (Proc.devRef .tc r) := by
  rw [after_opsAll]
  exact sh_arg V (ag20 V) r hs hr

/-! ## The nests are the specification's arrays -/

theorem res73_eq : res73 V = conArr (V (Proc.devRef .tc main_arg0)) (V (Proc.devRef .tc main_arg1)) (V (Proc.devRef .tc main_arg6)) (V (Proc.devRef .tc main_arg7)) :=
  con_eq _ _ _ _ slices_S2x32x512x512_S1x32x512x512_0_0_0_0 slices_S2x32x512x512_S1x32x512x512_1_0_0_0
    slices_S2x256x256_S1x256x256_0_0_0 slices_S2x256_S1x256_0_0 slices_S2x256x256_S1x256x256_1_0_0 slices_S2x256_S1x256_1_0
theorem res115_eq : res115 V = intArr (V (Proc.devRef .tc main_arg0)) (V (Proc.devRef .tc main_arg2)) (V (Proc.devRef .tc main_arg8)) (V (Proc.devRef .tc main_arg9)) :=
  (stack2_eq (V (Proc.devRef .tc main_arg0)) (sitofp .f32 (V (Proc.devRef .tc main_arg2) : IVec S32x512x512 32)) (V (Proc.devRef .tc main_arg8)) (V (Proc.devRef .tc main_arg9))
    slices_S2x256x256_S1x256x256_0_0_0 slices_S2x256_S1x256_0_0 slices_S2x256x256_S1x256x256_1_0_0 slices_S2x256_S1x256_1_0).trans
    (intArr_eq_realArr _ _ _ _)
theorem res157_eq : res157 V = realArr (V (Proc.devRef .tc main_arg0)) (V (Proc.devRef .tc main_arg3)) (V (Proc.devRef .tc main_arg10)) (V (Proc.devRef .tc main_arg11)) :=
  stack2_eq (V (Proc.devRef .tc main_arg0)) (V (Proc.devRef .tc main_arg3)) (V (Proc.devRef .tc main_arg10)) (V (Proc.devRef .tc main_arg11))
    slices_S2x256x256_S1x256x256_0_0_0 slices_S2x256_S1x256_0_0 slices_S2x256x256_S1x256x256_1_0_0 slices_S2x256_S1x256_1_0
theorem res346_eq : res346 V = intArr (V (Proc.devRef .tc main_arg0)) (V (Proc.devRef .tc main_arg4)) (V (Proc.devRef .tc main_arg12)) (V (Proc.devRef .tc main_arg13)) :=
  (stack9_eq (V (Proc.devRef .tc main_arg0)) (sitofp .f32 (V (Proc.devRef .tc main_arg4) : IVec S32x512x512 32)) (V (Proc.devRef .tc main_arg12)) (V (Proc.devRef .tc main_arg13))
    slices_S9x256x256_S1x256x256_0_0_0 slices_S9x256_S1x256_0_0
    slices_S9x256x256_S1x256x256_1_0_0 slices_S9x256_S1x256_1_0
    slices_S9x256x256_S1x256x256_2_0_0 slices_S9x256_S1x256_2_0
    slices_S9x256x256_S1x256x256_3_0_0 slices_S9x256_S1x256_3_0
    slices_S9x256x256_S1x256x256_4_0_0 slices_S9x256_S1x256_4_0
    slices_S9x256x256_S1x256x256_5_0_0 slices_S9x256_S1x256_5_0
    slices_S9x256x256_S1x256x256_6_0_0 slices_S9x256_S1x256_6_0
    slices_S9x256x256_S1x256x256_7_0_0 slices_S9x256_S1x256_7_0
    slices_S9x256x256_S1x256x256_8_0_0 slices_S9x256_S1x256_8_0).trans
    (intArr_eq_realArr _ _ _ _)

end Stages

/-! ## The run -/

theorem scopedRefs_eq : (Finset.univ.filter fun b : Ref sig .tc => b.isScoped) = ∅ := by decide
theorem scopedSems_eq : (Finset.univ.filter fun sm : SemLoc sig => sm.isScoped .tc) = ∅ := by decide

theorem out_arg (m : (ℓ : Loc nD τ sig) → Buf (Elt Ideal) ℓ) (c : Dev nD) (r : Ref sig .tc) (hs : r ∈ shared) (hr : r ∉ wr0) :
    after opsAll (launchContents m c) (Proc.devRef .tc r) = m ((c.tc : Thread nD τ).loc r) :=
  end_arg (launchContents m c) r hs hr

/-- On every device, from any memory with zero counters: every weakly fair execution of @main terminates with the four
    results at the specification's arrays of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v73) = Cert.Gcn.conArr (m ((c.tc : Thread nD τ).loc main_arg0)) (m ((c.tc : Thread nD τ).loc main_arg1)) (m ((c.tc : Thread nD τ).loc main_arg6)) (m ((c.tc : Thread nD τ).loc main_arg7))
      ∧ r.2.mem ((c.tc : Thread nD τ).loc main_v115) = Cert.Gcn.intArr (m ((c.tc : Thread nD τ).loc main_arg0)) (m ((c.tc : Thread nD τ).loc main_arg2)) (m ((c.tc : Thread nD τ).loc main_arg8)) (m ((c.tc : Thread nD τ).loc main_arg9))
      ∧ r.2.mem ((c.tc : Thread nD τ).loc main_v157) = Cert.Gcn.realArr (m ((c.tc : Thread nD τ).loc main_arg0)) (m ((c.tc : Thread nD τ).loc main_arg3)) (m ((c.tc : Thread nD τ).loc main_arg10)) (m ((c.tc : Thread nD τ).loc main_arg11))
      ∧ r.2.mem ((c.tc : Thread nD τ).loc main_v346) = Cert.Gcn.intArr (m ((c.tc : Thread nD τ).loc main_arg0)) (m ((c.tc : Thread nD τ).loc main_arg4)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨
      (h c main_v73).trans ((end73 (launchContents m c)).trans (res73_eq (launchContents m c))),
      (h c main_v115).trans ((end115 (launchContents m c)).trans (res115_eq (launchContents m c))),
      (h c main_v157).trans ((end157 (launchContents m c)).trans (res157_eq (launchContents m c))),
      (h c main_v346).trans ((end346 (launchContents m c)).trans (res346_eq (launchContents m c))),
      (h c main_arg0).trans (out_arg m c main_arg0 (by decide) (by decide)),
      (h c main_arg1).trans (out_arg m c main_arg1 (by decide) (by decide)),
      (h c main_arg2).trans (out_arg m c main_arg2 (by decide) (by decide)),
      (h c main_arg3).trans (out_arg m c main_arg3 (by decide) (by decide)),
      (h c main_arg4).trans (out_arg m c main_arg4 (by decide) (by decide)),
      (h c main_arg5).trans (out_arg m c main_arg5 (by decide) (by decide)),
      (h c main_arg6).trans (out_arg m c main_arg6 (by decide) (by decide)),
      (h c main_arg7).trans (out_arg m c main_arg7 (by decide) (by decide)),
      (h c main_arg8).trans (out_arg m c main_arg8 (by decide) (by decide)),
      (h c main_arg9).trans (out_arg m c main_arg9 (by decide) (by decide)),
      (h c main_arg10).trans (out_arg m c main_arg10 (by decide) (by decide)),
      (h c main_arg11).trans (out_arg m c main_arg11 (by decide) (by decide)),
      (h c main_arg12).trans (out_arg m c main_arg12 (by decide) (by decide)),
      (h c main_arg13).trans (out_arg m c main_arg13 (by decide) (by decide))⟩)
    (run_seq scopedRefs_eq scopedSems_eq defs main (fun _ => opsAll) main_eq (fun _ => opsAll_sub) m ρ (fun _ => opsAll_fresh))

end Cert.ReferenceIdeal.RefValue

end
-- ==== Proof.lean ====
/-
  A graph-convolution encoder of four branches — constituent (2 layers, each over its own adjacency), dependency
  (2 layers), semantic (2 layers) and abstract-meaning (9 layers) — computed by one kernel over a grid of 32 batches,
  against the same encoder written with whole-array operations.

  One layer takes node features `x`, adjacency weights `A`, a divisor per node (the row sum of `A` plus one), a weight
  matrix `W` and a bias `b`, and returns, at node `i` and column `o`,
      max ((((∑ d, (∑ j, A i j * x j d) * W o d) + b o) + ((∑ d, x i d * W o d) + b o)) / den i) 0
  (Proof/GcnLayer.lean); a branch stacks such layers, layer `k` with row `k` of its tables, and every batch is treated
  alone (Proof/GcnSpec.lean: the four result arrays as functions of the argument arrays).

  On the extended reals both programs compute exactly this expression, sum for sum. The kernel rounds its matrix
  operands to a shorter float format, which changes nothing on the extended reals; its matrix products into a zero
  accumulator and its lane sums are the plain sums; its three counted loops carry the features through the layers of a
  branch; and it turns a comparison bit into a number by widening and a signed conversion where the other program
  converts the bit directly: the two agree on a bit. No law that could fail at an infinity is used, so the inputs'
  finiteness is never opened.

  * The kernel's side: what one grid point stores (Proof/KerPieces.lean), each stored entry as a layer term
    (Proof/KerLayer.lean, Proof/KerPoint.lean), where a point's blocks sit in the arrays (Proof/KerBlocks.lean), and the
    four arrays after the run (Proof/KerFinal.lean).
  * The other program's side: one layer of its operations at an entry and the branches built from it
    (Proof/RefLayer.lean), and its run read piece by piece (Proof/RefOps0.lean … RefOps5.lean, Proof/RefRun*.lean).
  * The frames of the two kernel programs are their generated frame certificates; the third program has no kernel and
    its frame is its run with the results dropped. Nothing was rewritten between the kernel and its idealization, so
    that conjunct is trivial.
-/
import proofs.«128254_j60155311947910_1_alg».proof.Defs
import proofs.«128254_j60155311947910_1_alg».proof.Proof.Gen.Kernel
import proofs.«128254_j60155311947910_1_alg».proof.Proof.Gen.Kernel.Frame
import proofs.«128254_j60155311947910_1_alg».proof.Proof.Gen.KernelIdeal
import proofs.«128254_j60155311947910_1_alg».proof.Proof.Gen.KernelIdeal.Frame
import proofs.«128254_j60155311947910_1_alg».proof.Proof.Gen.ReferenceIdeal
import proofs.«128254_j60155311947910_1_alg».proof.Proof.Gen.Pre_finite_inputs
import proofs.«128254_j60155311947910_1_alg».proof.Proof.KerFinal
import proofs.«128254_j60155311947910_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel's frame: its generated frame certificate. -/
theorem frame_kernel : Cert.frame_Kernel := fun m ρ _ => Cert.Kernel.Gen.frame m ρ

/-- The idealized kernel's frame: its generated frame certificate. -/
theorem frame_kernelIdeal : Cert.frame_KernelIdeal := fun m ρ _ => Cert.KernelIdeal.Gen.frame m ρ

/-- The whole-array program's frame: its run, the four results dropped. -/
theorem frame_referenceIdeal : Cert.frame_ReferenceIdeal := fun m ρ _ =>
  (θ_run Cert.ReferenceIdeal.defs _ _).mono (fun _ h c => (h c).2.2.2.2) (Cert.ReferenceIdeal.RefValue.run m ρ)

/-- Nothing was rewritten between the kernel and its idealization. -/
theorem preserves : Cert.preserves_Kernel_KernelIdeal := trivial

/-- Run from memories that agree on the arguments, both programs end with each of the four results at the same
    specification array of the arguments. -/
theorem algebraic : Cert.algebraic_KernelIdeal_ReferenceIdeal := by
  intro m ρ m' ρ' _ hagree
  refine ⟨_, _, _, _, Cert.KernelIdeal.KerValue.run m ρ, ?_⟩
  refine (θ_run Cert.ReferenceIdeal.defs _ _).mono (fun _ h c => ?_) (Cert.ReferenceIdeal.RefValue.run m' ρ')
  obtain ⟨a0, a1, a2, a3, a4, -, a6, a7, a8, a9, a10, a11, a12, a13⟩ := hagree c
  obtain ⟨h0, h1, h2, h3, hk⟩ := h c
  refine ⟨h0.trans ?_, h1.trans ?_, h2.trans ?_, h3.trans ?_, hk⟩
  · rw [a0, a1, a6, a7]
  · rw [a0, a2, a8, a9]
  · rw [a0, a3, a10, a11]
  · rw [a0, a4, a12, a13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
